-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v139)) (v1 : (c : Dev Cert.KernelIdeal.nD) → Buf (Elt Ideal) ((c.tc : Thread Cert.KernelIdeal.nD Cert.KernelIdeal.τ).loc Cert.KernelIdeal.main_v147)) (v2 : (c : Dev Cert.KernelIdeal.nD) → Buf (Elt Ideal) ((c.tc : Thread Cert.KernelIdeal.nD Cert.KernelIdeal.τ).loc Cert.KernelIdeal.main_v132)) (v3 : (c : Dev Cert.KernelIdeal.nD) → Buf (Elt Ideal) ((c.tc : Thread Cert.KernelIdeal.nD Cert.KernelIdeal.τ).loc Cert.KernelIdeal.main_arg3)) (v4 : (c : Dev Cert.KernelIdeal.nD) → Buf (Elt Ideal) ((c.tc : Thread Cert.KernelIdeal.nD Cert.KernelIdeal.τ).loc Cert.KernelIdeal.main_v93)) (v5 : (c : Dev Cert.KernelIdeal.nD) → Buf (Elt Ideal) ((c.tc : Thread Cert.KernelIdeal.nD Cert.KernelIdeal.τ).loc Cert.KernelIdeal.main_v125)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v139) = v0 c
          ∧ r.2.mem ((c.tc : Thread Cert.KernelIdeal.nD Cert.KernelIdeal.τ).loc Cert.KernelIdeal.main_v147) = v1 c
          ∧ r.2.mem ((c.tc : Thread Cert.KernelIdeal.nD Cert.KernelIdeal.τ).loc Cert.KernelIdeal.main_v132) = v2 c
          ∧ r.2.mem ((c.tc : Thread Cert.KernelIdeal.nD Cert.KernelIdeal.τ).loc Cert.KernelIdeal.main_arg3) = v3 c
          ∧ r.2.mem ((c.tc : Thread Cert.KernelIdeal.nD Cert.KernelIdeal.τ).loc Cert.KernelIdeal.main_v93) = v4 c
          ∧ r.2.mem ((c.tc : Thread Cert.KernelIdeal.nD Cert.KernelIdeal.τ).loc Cert.KernelIdeal.main_v125) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v147) = v0 c
          ∧ r.2.mem ((c.tc : Thread Cert.ReferenceIdeal.nD Cert.ReferenceIdeal.τ).loc Cert.ReferenceIdeal.main_v155) = v1 c
          ∧ r.2.mem ((c.tc : Thread Cert.ReferenceIdeal.nD Cert.ReferenceIdeal.τ).loc Cert.ReferenceIdeal.main_v140) = v2 c
          ∧ r.2.mem ((c.tc : Thread Cert.ReferenceIdeal.nD Cert.ReferenceIdeal.τ).loc Cert.ReferenceIdeal.main_arg3) = v3 c
          ∧ r.2.mem ((c.tc : Thread Cert.ReferenceIdeal.nD Cert.ReferenceIdeal.τ).loc Cert.ReferenceIdeal.main_v93) = v4 c
          ∧ r.2.mem ((c.tc : Thread Cert.ReferenceIdeal.nD Cert.ReferenceIdeal.τ).loc Cert.ReferenceIdeal.main_v125) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x1x240x3 : Shape := ⟨4, ![1, 1, 240, 3]⟩
abbrev S1x240x4 : Shape := ⟨3, ![1, 240, 4]⟩
abbrev S1x100000x3 : Shape := ⟨3, ![1, 100000, 3]⟩
abbrev S1x16x2048x2048 : Shape := ⟨4, ![1, 16, 2048, 2048]⟩
abbrev S1x1x240x7 : Shape := ⟨4, ![1, 1, 240, 7]⟩
abbrev S240 : Shape := ⟨1, ![240]⟩
abbrev S_ : Shape := ⟨0, ![]⟩

class Facts : Prop where
  bcast_S_S1x1x240x3 : S_.BroadcastsInDim S1x1x240x3 (![] : Fin 0 → Fin S1x1x240x3.rank)
  reducesTo_S1x1x240x3_S_d0_1_2_3 : S1x1x240x3.ReducesTo [0, 1, 2, 3] S_
  h_S_ : 0 < S_.numel
  bcast_S_S1x240x4 : S_.BroadcastsInDim S1x240x4 (![] : Fin 0 → Fin S1x240x4.rank)
  reducesTo_S1x240x4_S_d0_1_2 : S1x240x4.ReducesTo [0, 1, 2] S_
  bcast_S_S1x100000x3 : S_.BroadcastsInDim S1x100000x3 (![] : Fin 0 → Fin S1x100000x3.rank)
  reducesTo_S1x100000x3_S_d0_1_2 : S1x100000x3.ReducesTo [0, 1, 2] S_
  bcast_S_S1x16x2048x2048 : S_.BroadcastsInDim S1x16x2048x2048 (![] : Fin 0 → Fin S1x16x2048x2048.rank)
  reducesTo_S1x16x2048x2048_S_d0_1_2_3 : S1x16x2048x2048.ReducesTo [0, 1, 2, 3] S_
  bcast_S_S1x1x240x7 : S_.BroadcastsInDim S1x1x240x7 (![] : Fin 0 → Fin S1x1x240x7.rank)
  reducesTo_S1x1x240x7_S_d0_1_2_3 : S1x1x240x7.ReducesTo [0, 1, 2, 3] S_

variable [Facts]

def fn_part1 {F : FTy → Type} [FloatOps F] (main_arg4 : FVec F S1x100000x3 .f32) (main_arg5 : FVec F S1x1x240x7 .f32) (main_v13 : IVec S_ 1) (main_v16 : IVec S1x16x2048x2048 1) : IVec S_ 1 :=
  let main_c_5 : IVec S_ 1 := constantI S_ 1 1#1
  let main_v17 : IVec S_ 1 := (fun x v => Host.reduce IntOp.andi x v reducesTo_S1x16x2048x2048_S_d0_1_2_3 h_S_) main_v16 main_c_5
  let main_v18 : IVec S_ 1 := andi main_v13 main_v17
  let main_v19 : FVec F S1x100000x3 .f32 := Host.absf main_arg4
  let main_cst_6 : FVec F S_ .f32 := constant S_ .f32 0x7F800000#32
  let main_v20 : FVec F S1x100000x3 .f32 := broadcastInDim S1x100000x3 ![] bcast_S_S1x100000x3 main_cst_6
  let main_v21 : IVec S1x100000x3 1 := cmpf .olt main_v19 main_v20
  let main_c_7 : IVec S_ 1 := constantI S_ 1 1#1
  let main_v22 : IVec S_ 1 := (fun x v => Host.reduce IntOp.andi x v reducesTo_S1x100000x3_S_d0_1_2 h_S_) main_v21 main_c_7
  let main_v23 : IVec S_ 1 := andi main_v18 main_v22
  let main_v24 : FVec F S1x1x240x7 .f32 := Host.absf main_arg5
  let main_cst_8 : FVec F S_ .f32 := constant S_ .f32 0x7F800000#32
  let main_v25 : FVec F S1x1x240x7 .f32 := broadcastInDim S1x1x240x7 ![] bcast_S_S1x1x240x7 main_cst_8
  let main_v26 : IVec S1x1x240x7 1 := cmpf .olt main_v24 main_v25
  let main_c_9 : IVec S_ 1 := constantI S_ 1 1#1
  let main_v27 : IVec S_ 1 := (fun x v => Host.reduce IntOp.andi x v reducesTo_S1x1x240x7_S_d0_1_2_3 h_S_) main_v26 main_c_9
  let main_v28 : IVec S_ 1 := andi main_v23 main_v27
  main_v28

def fn {F : FTy → Type} [FloatOps F] (main_arg0 : FVec F S1x1x240x3 .f32) (main_arg1 : FVec F S1x240x4 .f32) (main_arg2 : FVec F S1x100000x3 .f32) (main_arg3 : FVec F S1x16x2048x2048 .f32) (main_arg4 : FVec F S1x100000x3 .f32) (main_arg5 : FVec F S1x1x240x7 .f32) (main_arg6 : IVec S240 32) : IVec S_ 1 :=
  let main_v0 : FVec F S1x1x240x3 .f32 := Host.absf main_arg0
  let main_cst : FVec F S_ .f32 := constant S_ .f32 0x7F800000#32
  let main_v1 : FVec F S1x1x240x3 .f32 := broadcastInDim S1x1x240x3 ![] bcast_S_S1x1x240x3 main_cst
  let main_v2 : IVec S1x1x240x3 1 := cmpf .olt main_v0 main_v1
  let main_c : IVec S_ 1 := constantI S_ 1 1#1
  let main_v3 : IVec S_ 1 := (fun x v => Host.reduce IntOp.andi x v reducesTo_S1x1x240x3_S_d0_1_2_3 h_S_) main_v2 main_c
  let main_v4 : FVec F S1x240x4 .f32 := Host.absf main_arg1
  let main_cst_0 : FVec F S_ .f32 := constant S_ .f32 0x7F800000#32
  let main_v5 : FVec F S1x240x4 .f32 := broadcastInDim S1x240x4 ![] bcast_S_S1x240x4 main_cst_0
  let main_v6 : IVec S1x240x4 1 := cmpf .olt main_v4 main_v5
  let main_c_1 : IVec S_ 1 := constantI S_ 1 1#1
  let main_v7 : IVec S_ 1 := (fun x v => Host.reduce IntOp.andi x v reducesTo_S1x240x4_S_d0_1_2 h_S_) main_v6 main_c_1
  let main_v8 : IVec S_ 1 := andi main_v3 main_v7
  let main_v9 : FVec F S1x100000x3 .f32 := Host.absf main_arg2
  let main_cst_2 : FVec F S_ .f32 := constant S_ .f32 0x7F800000#32
  let main_v10 : FVec F S1x100000x3 .f32 := broadcastInDim S1x100000x3 ![] bcast_S_S1x100000x3 main_cst_2
  let main_v11 : IVec S1x100000x3 1 := cmpf .olt main_v9 main_v10
  let main_c_3 : IVec S_ 1 := constantI S_ 1 1#1
  let main_v12 : IVec S_ 1 := (fun x v => Host.reduce IntOp.andi x v reducesTo_S1x100000x3_S_d0_1_2 h_S_) main_v11 main_c_3
  let main_v13 : IVec S_ 1 := andi main_v8 main_v12
  let main_v14 : FVec F S1x16x2048x2048 .f32 := Host.absf main_arg3
  let main_cst_4 : FVec F S_ .f32 := constant S_ .f32 0x7F800000#32
  let main_v15 : FVec F S1x16x2048x2048 .f32 := broadcastInDim S1x16x2048x2048 ![] bcast_S_S1x16x2048x2048 main_cst_4
  let main_v16 : IVec S1x16x2048x2048 1 := cmpf .olt main_v14 main_v15
  fn_part1 (F := F) main_arg4 main_arg5 main_v13 main_v16
-- ==== Kernel.lean ====
abbrev S1x1x240x3 : Shape := ⟨4, ![1, 1, 240, 3]⟩
abbrev S1x240x4 : Shape := ⟨3, ![1, 240, 4]⟩
abbrev S1x100000x3 : Shape := ⟨3, ![1, 100000, 3]⟩
abbrev S1x16x2048x2048 : Shape := ⟨4, ![1, 16, 2048, 2048]⟩
abbrev S1x1x240x7 : Shape := ⟨4, ![1, 1, 240, 7]⟩
abbrev S240 : Shape := ⟨1, ![240]⟩
abbrev S240x4 : Shape := ⟨2, ![240, 4]⟩
abbrev S_ : Shape := ⟨0, ![]⟩
abbrev S240x1 : Shape := ⟨2, ![240, 1]⟩
abbrev S1x1x240x4 : Shape := ⟨4, ![1, 1, 240, 4]⟩
abbrev S1x4 : Shape := ⟨2, ![1, 4]⟩
abbrev S239x4 : Shape := ⟨2, ![239, 4]⟩
abbrev S1x1x1x3 : Shape := ⟨4, ![1, 1, 1, 3]⟩
abbrev S1x1x239x3 : Shape := ⟨4, ![1, 1, 239, 3]⟩
abbrev S1 : Shape := ⟨1, ![1]⟩
abbrev S239 : Shape := ⟨1, ![239]⟩
abbrev S240x3 : Shape := ⟨2, ![240, 3]⟩
abbrev S239x3 : Shape := ⟨2, ![239, 3]⟩
abbrev S1x3 : Shape := ⟨2, ![1, 3]⟩
abbrev S4 : Shape := ⟨1, ![4]⟩
abbrev S239x1 : Shape := ⟨2, ![239, 1]⟩
abbrev S100000x3 : Shape := ⟨2, ![100000, 3]⟩
abbrev S3x100000 : Shape := ⟨2, ![3, 100000]⟩
abbrev S3 : Shape := ⟨1, ![3]⟩
abbrev S3x1 : Shape := ⟨2, ![3, 1]⟩
abbrev S1x1 : Shape := ⟨2, ![1, 1]⟩

abbrev nBuf : Space → Nat
  | .hbm => 184
  | .vmem => 3
  | .smem => 0
  | _ => 0

abbrev hbmTy0_0 (i : Nat) : BufTy := match i % 128 with
  | 0 => ⟨S1x1x240x3, .f32⟩
  | 1 => ⟨S1x240x4, .f32⟩
  | 2 => ⟨S1x100000x3, .f32⟩
  | 3 => ⟨S1x16x2048x2048, .f32⟩
  | 4 => ⟨S1x100000x3, .f32⟩
  | 5 => ⟨S1x1x240x7, .f32⟩
  | 6 => ⟨S240, .i32⟩
  | 7 => ⟨S240x4, .f32⟩
  | 8 => ⟨S240x4, .f32⟩
  | 9 => ⟨S_, .f32⟩
  | 10 => ⟨S240, .f32⟩
  | 11 => ⟨S240x1, .f32⟩
  | 12 => ⟨S240x1, .f32⟩
  | 13 => ⟨S240x4, .f32⟩
  | 14 => ⟨S240x4, .f32⟩
  | 15 => ⟨S1x1x240x4, .f32⟩
  | 16 => ⟨S240x4, .f32⟩
  | 17 => ⟨S240x4, .f32⟩
  | 18 => ⟨S_, .f32⟩
  | 19 => ⟨S240, .f32⟩
  | 20 => ⟨S240x1, .f32⟩
  | 21 => ⟨S240x1, .f32⟩
  | 22 => ⟨S240x4, .f32⟩
  | 23 => ⟨S240x4, .f32⟩
  | 24 => ⟨S240x1, .f32⟩
  | 25 => ⟨S240, .f32⟩
  | 26 => ⟨S240x1, .f32⟩
  | 27 => ⟨S240, .f32⟩
  | 28 => ⟨S240x1, .f32⟩
  | 29 => ⟨S240, .f32⟩
  | 30 => ⟨S240x1, .f32⟩
  | 31 => ⟨S240, .f32⟩
  | 32 => ⟨S240x1, .f32⟩
  | 33 => ⟨S240, .f32⟩
  | 34 => ⟨S240x1, .f32⟩
  | 35 => ⟨S240, .f32⟩
  | 36 => ⟨S240x1, .f32⟩
  | 37 => ⟨S240, .f32⟩
  | 38 => ⟨S240x1, .f32⟩
  | 39 => ⟨S240, .f32⟩
  | 40 => ⟨S240, .f32⟩
  | 41 => ⟨S240, .f32⟩
  | 42 => ⟨S240, .f32⟩
  | 43 => ⟨S240, .f32⟩
  | 44 => ⟨S240, .f32⟩
  | 45 => ⟨S240, .f32⟩
  | 46 => ⟨S240, .f32⟩
  | 47 => ⟨S240, .f32⟩
  | 48 => ⟨S240, .f32⟩
  | 49 => ⟨S240, .f32⟩
  | 50 => ⟨S240, .f32⟩
  | 51 => ⟨S240, .f32⟩
  | 52 => ⟨S240, .f32⟩
  | 53 => ⟨S240, .f32⟩
  | 54 => ⟨S240, .f32⟩
  | 55 => ⟨S240, .f32⟩
  | 56 => ⟨S240, .f32⟩
  | 57 => ⟨S240, .f32⟩
  | 58 => ⟨S240, .f32⟩
  | 59 => ⟨S240, .f32⟩
  | 60 => ⟨S240, .f32⟩
  | 61 => ⟨S240, .f32⟩
  | 62 => ⟨S240, .f32⟩
  | 63 => ⟨S240, .f32⟩
  | 64 => ⟨S240, .f32⟩
  | 65 => ⟨S240, .f32⟩
  | 66 => ⟨S240, .f32⟩
  | 67 => ⟨S240, .f32⟩
  | 68 => ⟨S240, .f32⟩
  | 69 => ⟨S240, .f32⟩
  | 70 => ⟨S240x1, .f32⟩
  | 71 => ⟨S240x1, .f32⟩
  | 72 => ⟨S240x1, .f32⟩
  | 73 => ⟨S240x1, .f32⟩
  | 74 => ⟨S240x4, .f32⟩
  | 75 => ⟨S1x4, .f32⟩
  | 76 => ⟨S239x4, .f32⟩
  | 77 => ⟨S240x4, .f32⟩
  | 78 => ⟨S1x1x1x3, .f32⟩
  | 79 => ⟨S1x1x239x3, .f32⟩
  | 80 => ⟨S1x1x239x3, .f32⟩
  | 81 => ⟨S1x1x239x3, .f32⟩
  | 82 => ⟨S1x1x240x3, .f32⟩
  | 83 => ⟨S1, .i32⟩
  | 84 => ⟨S239, .i32⟩
  | 85 => ⟨S240, .i32⟩
  | 86 => ⟨S240, .i32⟩
  | 87 => ⟨S240, .f32⟩
  | 88 => ⟨S240x3, .f32⟩
  | 89 => ⟨S_, .i32⟩
  | 90 => ⟨S240, .i32⟩
  | 91 => ⟨S240, .i1⟩
  | 92 => ⟨S_, .i32⟩
  | 93 => ⟨S240, .i32⟩
  | 94 => ⟨S240, .i32⟩
  | 95 => ⟨S240, .i32⟩
  | 96 => ⟨S240x1, .i32⟩
  | 97 => ⟨S240x3, .f32⟩
  | 98 => ⟨S239x3, .f32⟩
  | 99 => ⟨S239x3, .f32⟩
  | 100 => ⟨S239x3, .f32⟩
  | 101 => ⟨S239x3, .f32⟩
  | 102 => ⟨S_, .f32⟩
  | 103 => ⟨S239x3, .f32⟩
  | 104 => ⟨S239x3, .i1⟩
  | 105 => ⟨S_, .f32⟩
  | 106 => ⟨S239x3, .f32⟩
  | 107 => ⟨S239x3, .f32⟩
  | 108 => ⟨S1x3, .f32⟩
  | 109 => ⟨S_, .f32⟩
  | 110 => ⟨S1x3, .f32⟩
  | 111 => ⟨S240x3, .f32⟩
  | 112 => ⟨S240x3, .f32⟩
  | 113 => ⟨S_, .f32⟩
  | 114 => ⟨S240, .f32⟩
  | 115 => ⟨S240, .f32⟩
  | 116 => ⟨S240, .f32⟩
  | 117 => ⟨S1x4, .f32⟩
  | 118 => ⟨S4, .f32⟩
  | 119 => ⟨S4, .f32⟩
  | 120 => ⟨S_, .f32⟩
  | 121 => ⟨S_, .f32⟩
  | 122 => ⟨S_, .f32⟩
  | 123 => ⟨S_, .f32⟩
  | 124 => ⟨S_, .f32⟩
  | 125 => ⟨S239, .i32⟩
  | 126 => ⟨S_, .i32⟩
  | 127 => ⟨S239, .i32⟩
  | _ => ⟨S1x1x240x3, .f32⟩

abbrev hbmTy0_1 (i : Nat) : BufTy := match i % 128 with
  | 0 => ⟨S239, .i32⟩
  | 1 => ⟨S_, .i32⟩
  | 2 => ⟨S239, .i32⟩
  | 3 => ⟨S239, .i1⟩
  | 4 => ⟨S_, .i32⟩
  | 5 => ⟨S239, .i32⟩
  | 6 => ⟨S239, .i32⟩
  | 7 => ⟨S239, .i32⟩
  | 8 => ⟨S239x1, .i32⟩
  | 9 => ⟨S239x4, .f32⟩
  | 10 => ⟨S239, .i32⟩
  | 11 => ⟨S_, .i32⟩
  | 12 => ⟨S239, .i32⟩
  | 13 => ⟨S239, .i1⟩
  | 14 => ⟨S_, .i32⟩
  | 15 => ⟨S239, .i32⟩
  | 16 => ⟨S239, .i32⟩
  | 17 => ⟨S239, .i32⟩
  | 18 => ⟨S239x1, .i32⟩
  | 19 => ⟨S239x4, .f32⟩
  | 20 => ⟨S239x4, .f32⟩
  | 21 => ⟨S_, .f32⟩
  | 22 => ⟨S239, .f32⟩
  | 23 => ⟨S239, .f32⟩
  | 24 => ⟨S_, .f32⟩
  | 25 => ⟨S239, .f32⟩
  | 26 => ⟨S239, .f32⟩
  | 27 => ⟨S1, .f32⟩
  | 28 => ⟨S240, .f32⟩
  | 29 => ⟨S240, .f32⟩
  | 30 => ⟨S100000x3, .f32⟩
  | 31 => ⟨S3x100000, .f32⟩
  | 32 => ⟨S100000x3, .f32⟩
  | 33 => ⟨S3x100000, .f32⟩
  | 34 => ⟨S3x100000, .f32⟩
  | 35 => ⟨S100000x3, .f32⟩
  | 36 => ⟨S1x100000x3, .f32⟩
  | 37 => ⟨S_, .i32⟩
  | 38 => ⟨S240, .i32⟩
  | 39 => ⟨S240, .i1⟩
  | 40 => ⟨S_, .i32⟩
  | 41 => ⟨S240, .i32⟩
  | 42 => ⟨S240, .i32⟩
  | 43 => ⟨S240, .i32⟩
  | 44 => ⟨S240x1, .i32⟩
  | 45 => ⟨S1x1x240x3, .f32⟩
  | 46 => ⟨S1x240x4, .f32⟩
  | 47 => ⟨S_, .i32⟩
  | 48 => ⟨S240, .i32⟩
  | 49 => ⟨S240, .i1⟩
  | 50 => ⟨S_, .i32⟩
  | 51 => ⟨S240, .i32⟩
  | 52 => ⟨S240, .i32⟩
  | 53 => ⟨S240, .i32⟩
  | 54 => ⟨S240x1, .i32⟩
  | 55 => ⟨S1x240x4, .f32⟩
  | _ => ⟨S1x1x240x3, .f32⟩

abbrev hbmTy (i : Nat) : BufTy := match i / 128 with
  | 0 => hbmTy0_0 i
  | 1 => hbmTy0_1 i
  | _ => ⟨S1x1x240x3, .f32⟩

abbrev bufTy : (tb : Table) → Fin (tcTables nBuf tb) → BufTy
  | .hbm, ⟨i, _⟩ => hbmTy i
  | .local _ .vmem, ⟨0, _⟩ => ⟨S3x100000, .f32⟩
  | .local _ .vmem, ⟨1, _⟩ => ⟨S3x100000, .f32⟩
  | .local _ .vmem, ⟨2, _⟩ => ⟨S3x100000, .f32⟩
  | _, _ => ⟨S1x1x240x3, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_call0_v0 : Ref sig .tc := ⟨.hbm, 8, rfl⟩
abbrev main_call0_cst : Ref sig .tc := ⟨.hbm, 9, rfl⟩
abbrev main_call0_v1 : Ref sig .tc := ⟨.hbm, 10, rfl⟩
abbrev main_call0_v2 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_call1_v0 : Ref sig .tc := ⟨.hbm, 17, rfl⟩
abbrev main_call1_cst : Ref sig .tc := ⟨.hbm, 18, rfl⟩
abbrev main_call1_v1 : Ref sig .tc := ⟨.hbm, 19, rfl⟩
abbrev main_call1_v2 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_c : Ref sig .tc := ⟨.hbm, 89, rfl⟩
abbrev main_v74 : Ref sig .tc := ⟨.hbm, 90, rfl⟩
abbrev main_v75 : Ref sig .tc := ⟨.hbm, 91, rfl⟩
abbrev main_c_0 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_cst : Ref sig .tc := ⟨.hbm, 102, rfl⟩
abbrev main_v85 : Ref sig .tc := ⟨.hbm, 103, rfl⟩
abbrev main_v86 : Ref sig .tc := ⟨.hbm, 104, rfl⟩
abbrev main_cst_1 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_cst_2 : Ref sig .tc := ⟨.hbm, 109, rfl⟩
abbrev main_v90 : Ref sig .tc := ⟨.hbm, 110, rfl⟩
abbrev main_v91 : Ref sig .tc := ⟨.hbm, 111, rfl⟩
abbrev main_call3_v0 : Ref sig .tc := ⟨.hbm, 112, rfl⟩
abbrev main_call3_cst : Ref sig .tc := ⟨.hbm, 113, rfl⟩
abbrev main_call3_v1 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_cst_3 : Ref sig .tc := ⟨.hbm, 120, rfl⟩
abbrev main_v97 : Ref sig .tc := ⟨.hbm, 121, rfl⟩
abbrev main_v98 : Ref sig .tc := ⟨.hbm, 122, rfl⟩
abbrev main_cst_4 : Ref sig .tc := ⟨.hbm, 123, rfl⟩
abbrev main_v99 : Ref sig .tc := ⟨.hbm, 124, rfl⟩
abbrev main_v100 : Ref sig .tc := ⟨.hbm, 125, rfl⟩
abbrev main_c_5 : Ref sig .tc := ⟨.hbm, 126, rfl⟩
abbrev main_v101 : Ref sig .tc := ⟨.hbm, 127, rfl⟩
abbrev main_v102 : Ref sig .tc := ⟨.hbm, 128, rfl⟩
abbrev main_c_6 : Ref sig .tc := ⟨.hbm, 129, rfl⟩
abbrev main_v103 : Ref sig .tc := ⟨.hbm, 130, rfl⟩
abbrev main_v104 : Ref sig .tc := ⟨.hbm, 131, rfl⟩
abbrev main_c_7 : Ref sig .tc := ⟨.hbm, 132, rfl⟩
abbrev main_v105 : Ref sig .tc := ⟨.hbm, 133, rfl⟩
abbrev main_v106 : Ref sig .tc := ⟨.hbm, 134, rfl⟩
abbrev main_v107 : Ref sig .tc := ⟨.hbm, 135, rfl⟩
abbrev main_v108 : Ref sig .tc := ⟨.hbm, 136, rfl⟩
abbrev main_v109 : Ref sig .tc := ⟨.hbm, 137, rfl⟩
abbrev main_v110 : Ref sig .tc := ⟨.hbm, 138, rfl⟩
abbrev main_c_8 : Ref sig .tc := ⟨.hbm, 139, rfl⟩
abbrev main_v111 : Ref sig .tc := ⟨.hbm, 140, rfl⟩
abbrev main_v112 : Ref sig .tc := ⟨.hbm, 141, rfl⟩
abbrev main_c_9 : Ref sig .tc := ⟨.hbm, 142, rfl⟩
abbrev main_v113 : Ref sig .tc := ⟨.hbm, 143, rfl⟩
abbrev main_v114 : Ref sig .tc := ⟨.hbm, 144, rfl⟩
abbrev main_v115 : Ref sig .tc := ⟨.hbm, 145, rfl⟩
abbrev main_v116 : Ref sig .tc := ⟨.hbm, 146, rfl⟩
abbrev main_v117 : Ref sig .tc := ⟨.hbm, 147, rfl⟩
abbrev main_v118 : Ref sig .tc := ⟨.hbm, 148, rfl⟩
abbrev main_cst_10 : Ref sig .tc := ⟨.hbm, 149, rfl⟩
abbrev main_v119 : Ref sig .tc := ⟨.hbm, 150, rfl⟩
abbrev main_v120 : Ref sig .tc := ⟨.hbm, 151, rfl⟩
abbrev main_cst_11 : Ref sig .tc := ⟨.hbm, 152, rfl⟩
abbrev main_v121 : Ref sig .tc := ⟨.hbm, 153, rfl⟩
abbrev main_v122 : Ref sig .tc := ⟨.hbm, 154, rfl⟩
abbrev main_v123 : Ref sig .tc := ⟨.hbm, 155, rfl⟩
abbrev main_v124 : Ref sig .tc := ⟨.hbm, 156, rfl⟩
abbrev main_v125 : Ref sig .tc := ⟨.hbm, 157, rfl⟩
abbrev main_v126 : Ref sig .tc := ⟨.hbm, 158, rfl⟩
abbrev main_v127 : Ref sig .tc := ⟨.hbm, 159, rfl⟩
abbrev main_v128 : Ref sig .tc := ⟨.hbm, 160, rfl⟩
abbrev main_v129 : Ref sig .tc := ⟨.hbm, 161, rfl⟩
abbrev main_v130 : Ref sig .tc := ⟨.hbm, 162, rfl⟩
abbrev main_v131 : Ref sig .tc := ⟨.hbm, 163, rfl⟩
abbrev main_v132 : Ref sig .tc := ⟨.hbm, 164, rfl⟩
abbrev main_c_12 : Ref sig .tc := ⟨.hbm, 165, rfl⟩
abbrev main_v133 : Ref sig .tc := ⟨.hbm, 166, rfl⟩
abbrev main_v134 : Ref sig .tc := ⟨.hbm, 167, rfl⟩
abbrev main_c_13 : Ref sig .tc := ⟨.hbm, 168, rfl⟩
abbrev main_v135 : Ref sig .tc := ⟨.hbm, 169, rfl⟩
abbrev main_v136 : Ref sig .tc := ⟨.hbm, 170, rfl⟩
abbrev main_v137 : Ref sig .tc := ⟨.hbm, 171, rfl⟩
abbrev main_v138 : Ref sig .tc := ⟨.hbm, 172, rfl⟩
abbrev main_v139 : Ref sig .tc := ⟨.hbm, 173, rfl⟩
abbrev main_v140 : Ref sig .tc := ⟨.hbm, 174, rfl⟩
abbrev main_c_14 : Ref sig .tc := ⟨.hbm, 175, rfl⟩
abbrev main_v141 : Ref sig .tc := ⟨.hbm, 176, rfl⟩
abbrev main_v142 : Ref sig .tc := ⟨.hbm, 177, rfl⟩
abbrev main_c_15 : Ref sig .tc := ⟨.hbm, 178, rfl⟩
abbrev main_v143 : Ref sig .tc := ⟨.hbm, 179, rfl⟩
abbrev main_v144 : Ref sig .tc := ⟨.hbm, 180, rfl⟩
abbrev main_v145 : Ref sig .tc := ⟨.hbm, 181, rfl⟩
abbrev main_v146 : Ref sig .tc := ⟨.hbm, 182, rfl⟩
abbrev main_v147 : Ref sig .tc := ⟨.hbm, 183, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S3x100000 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S3x100000 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3x100000 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  shapeCasts_S1x240x4_S240x4 : S1x240x4.ShapeCasts S240x4
  reducesTo_S240x4_S240_d1 : S240x4.ReducesTo [1] S240
  h_S_ : 0 < S_.numel
  bcast_S240_S240x1_0 : S240.BroadcastsInDim S240x1 (![0] : Fin 1 → Fin S240x1.rank)
  bcast_S240x1_S240x4_0_1 : S240x1.BroadcastsInDim S240x4 (![0, 1] : Fin 2 → Fin S240x4.rank)
  slices_S1x1x240x7_S1x1x240x4_0_0_0_3 : S1x1x240x7.Slices ![0, 0, 0, 3] S1x1x240x4
  shapeCasts_S1x1x240x4_S240x4 : S1x1x240x4.ShapeCasts S240x4
  slices_S240x4_S240x1_0_0 : S240x4.Slices ![0, 0] S240x1
  shapeCasts_S240x1_S240 : S240x1.ShapeCasts S240
  slices_S240x4_S240x1_0_1 : S240x4.Slices ![0, 1] S240x1
  slices_S240x4_S240x1_0_2 : S240x4.Slices ![0, 2] S240x1
  slices_S240x4_S240x1_0_3 : S240x4.Slices ![0, 3] S240x1
  concatenates_S240x1_S240x1_S240x1_S240x1_S240x4_d1 : Shape.Concatenates [S240x1, S240x1, S240x1, S240x1] S240x4 1
  slices_S240x4_S1x4_0_0 : S240x4.Slices ![0, 0] S1x4
  slices_S240x4_S239x4_1_0 : S240x4.Slices ![1, 0] S239x4
  concatenates_S1x4_S239x4_S240x4_d0 : Shape.Concatenates [S1x4, S239x4] S240x4 0
  slices_S1x1x240x3_S1x1x1x3_0_0_0_0 : S1x1x240x3.Slices ![0, 0, 0, 0] S1x1x1x3
  slices_S1x1x240x3_S1x1x239x3_0_0_1_0 : S1x1x240x3.Slices ![0, 0, 1, 0] S1x1x239x3
  slices_S1x1x240x7_S1x1x239x3_0_0_1_0 : S1x1x240x7.Slices ![0, 0, 1, 0] S1x1x239x3
  concatenates_S1x1x1x3_S1x1x239x3_S1x1x240x3_d2 : Shape.Concatenates [S1x1x1x3, S1x1x239x3] S1x1x240x3 2
  slices_S240_S1_0 : S240.Slices ![0] S1
  slices_S240_S239_0 : S240.Slices ![0] S239
  concatenates_S1_S239_S240_d0 : Shape.Concatenates [S1, S239] S240 0
  shapeCasts_S1x1x240x3_S240x3 : S1x1x240x3.ShapeCasts S240x3
  bcast_S_S240 : S_.BroadcastsInDim S240 (![] : Fin 0 → Fin S240.rank)
  slices_S240x3_S239x3_1_0 : S240x3.Slices ![1, 0] S239x3
  slices_S240x3_S239x3_0_0 : S240x3.Slices ![0, 0] S239x3
  bcast_S_S239x3 : S_.BroadcastsInDim S239x3 (![] : Fin 0 → Fin S239x3.rank)
  slices_S239x3_S1x3_0_0 : S239x3.Slices ![0, 0] S1x3
  bcast_S_S1x3 : S_.BroadcastsInDim S1x3 (![] : Fin 0 → Fin S1x3.rank)
  concatenates_S1x3_S239x3_S240x3_d0 : Shape.Concatenates [S1x3, S239x3] S240x3 0
  reducesTo_S240x3_S240_d1 : S240x3.ReducesTo [1] S240
  slices_S240x4_S1x4_239_0 : S240x4.Slices ![239, 0] S1x4
  shapeCasts_S1x4_S4 : S1x4.ShapeCasts S4
  reducesTo_S4_S_d0 : S4.ReducesTo [0] S_
  slices_S240_S239_1 : S240.Slices ![1] S239
  bcast_S_S239 : S_.BroadcastsInDim S239 (![] : Fin 0 → Fin S239.rank)
  bcast_S239_S239x1_0 : S239.BroadcastsInDim S239x1 (![0] : Fin 1 → Fin S239x1.rank)
  reducesTo_S239x4_S239_d1 : S239x4.ReducesTo [1] S239
  bcast_S_S1 : S_.BroadcastsInDim S1 (![] : Fin 0 → Fin S1.rank)
  shapeCasts_S1x100000x3_S100000x3 : S1x100000x3.ShapeCasts S100000x3
  transposes_S100000x3_S3x100000_1_0 : S100000x3.Transposes [1, 0] S3x100000
  inb_S3x100000_S3x100000_0_0 : ∀ a, (![0, 0] : Fin 2 → Nat) a + S3x100000.size a ≤ S3x100000.size a
  h_S3x100000 : 0 < S3x100000.numel
  shapeCasts_S3x100000_S3x100000 : S3x100000.ShapeCasts S3x100000
  reduces_S3x100000_S3 : S3x100000.Reduces [1] S3
  shapeCasts_S3_S3x1 : S3.ShapeCasts S3x1
  broadcasts_S3x1_S3x100000 : S3x1.Broadcasts S3x100000
  reduces_S3x1_S1 : S3x1.Reduces [0] S1
  shapeCasts_S1_S1x1 : S1.ShapeCasts S1x1
  broadcasts_S1x1_S3x100000 : S1x1.Broadcasts S3x100000
  transposes_S3x100000_S100000x3_1_0 : S3x100000.Transposes [1, 0] S100000x3
  bcast_S100000x3_S1x100000x3_1_2 : S100000x3.BroadcastsInDim S1x100000x3 (![1, 2] : Fin 2 → Fin S1x100000x3.rank)
  bcast_S240x4_S1x240x4_1_2 : S240x4.BroadcastsInDim S1x240x4 (![1, 2] : Fin 2 → Fin S1x240x4.rank)
  gather_S240x3_S240x1_S240x3_1_0_n_n_0_1_13_wf : GatherDims.WF S240x3 S240x1 S240x3 [1] [0] [] [0] [] 1 ![1, 3]
  gather_S240x4_S239x1_S239x4_1_0_n_n_0_1_14_wf : GatherDims.WF S240x4 S239x1 S239x4 [1] [0] [] [0] [] 1 ![1, 4]
  gather_S1x1x240x3_S240x1_S1x1x240x3_013_2_n_n_2_1_1113_wf : GatherDims.WF S1x1x240x3 S240x1 S1x1x240x3 [0, 1, 3] [2] [] [2] [] 1 ![1, 1, 1, 3]
  gather_S1x240x4_S240x1_S1x240x4_02_1_n_n_1_1_114_wf : GatherDims.WF S1x240x4 S240x1 S1x240x4 [0, 2] [1] [] [1] [] 1 ![1, 1, 4]
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S3x100000.size a ≤ S3x100000.size a
  hwx0_0 : ∀ i : grid0.Coords, EltTy.bits .f32 = 32 ∨ (Rect.block (s := S3x100000) S3x100000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3x100000.size a ≤ S3x100000.size a
  hwx0_1 : ∀ i : grid0.Coords, EltTy.bits .f32 = 32 ∨ (Rect.block (s := S3x100000) S3x100000.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S3x100000.size a ≤ S3x100000.size a
  hwx0_2 : ∀ i : grid0.Coords, EltTy.bits .f32 = 32 ∨ (Rect.block (s := S3x100000) S3x100000.size (cc0_transform_2 i) (hinb0_2 i)).WholeWords (EltTy.packing .f32)

variable [Facts₀]

def gather_S240x3_S240x1_S240x3_1_0_n_n_0_1_13 : GatherDims S240x3 S240x1 S240x3 where
  offsetDims := [1]
  collapsedSliceDims := [0]
  operandBatchingDims := []
  startIndicesBatchingDims := []
  startIndexMap := [0]
  indexVectorDim := 1
  sliceSizes := ![1, 3]
  wf := gather_S240x3_S240x1_S240x3_1_0_n_n_0_1_13_wf
def gather_S240x4_S239x1_S239x4_1_0_n_n_0_1_14 : GatherDims S240x4 S239x1 S239x4 where
  offsetDims := [1]
  collapsedSliceDims := [0]
  operandBatchingDims := []
  startIndicesBatchingDims := []
  startIndexMap := [0]
  indexVectorDim := 1
  sliceSizes := ![1, 4]
  wf := gather_S240x4_S239x1_S239x4_1_0_n_n_0_1_14_wf
def gather_S1x1x240x3_S240x1_S1x1x240x3_013_2_n_n_2_1_1113 : GatherDims S1x1x240x3 S240x1 S1x1x240x3 where
  offsetDims := [0, 1, 3]
  collapsedSliceDims := [2]
  operandBatchingDims := []
  startIndicesBatchingDims := []
  startIndexMap := [2]
  indexVectorDim := 1
  sliceSizes := ![1, 1, 1, 3]
  wf := gather_S1x1x240x3_S240x1_S1x1x240x3_013_2_n_n_2_1_1113_wf
def gather_S1x240x4_S240x1_S1x240x4_02_1_n_n_1_1_114 : GatherDims S1x240x4 S240x1 S1x240x4 where
  offsetDims := [0, 2]
  collapsedSliceDims := [1]
  operandBatchingDims := []
  startIndicesBatchingDims := []
  startIndexMap := [1]
  indexVectorDim := 1
  sliceSizes := ![1, 1, 4]
  wf := gather_S1x240x4_S240x1_S1x240x4_02_1_n_n_1_1_114_wf

abbrev win0_0 : Pipeline.Window sig grid0 :=
  Pipeline.Window.ofSpec (Memref.whole main_v127) S3x100000.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v129) S3x100000.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v130) S3x100000.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S1x1x240x3 : Shape := ⟨4, ![1, 1, 240, 3]⟩
abbrev S1x240x4 : Shape := ⟨3, ![1, 240, 4]⟩
abbrev S1x100000x3 : Shape := ⟨3, ![1, 100000, 3]⟩
abbrev S1x16x2048x2048 : Shape := ⟨4, ![1, 16, 2048, 2048]⟩
abbrev S1x1x240x7 : Shape := ⟨4, ![1, 1, 240, 7]⟩
abbrev S240 : Shape := ⟨1, ![240]⟩
abbrev S240x4 : Shape := ⟨2, ![240, 4]⟩
abbrev S_ : Shape := ⟨0, ![]⟩
abbrev S240x1 : Shape := ⟨2, ![240, 1]⟩
abbrev S1x1x240x4 : Shape := ⟨4, ![1, 1, 240, 4]⟩
abbrev S1x4 : Shape := ⟨2, ![1, 4]⟩
abbrev S239x4 : Shape := ⟨2, ![239, 4]⟩
abbrev S1x1x1x3 : Shape := ⟨4, ![1, 1, 1, 3]⟩
abbrev S1x1x239x3 : Shape := ⟨4, ![1, 1, 239, 3]⟩
abbrev S1 : Shape := ⟨1, ![1]⟩
abbrev S239 : Shape := ⟨1, ![239]⟩
abbrev S240x3 : Shape := ⟨2, ![240, 3]⟩
abbrev S239x3 : Shape := ⟨2, ![239, 3]⟩
abbrev S1x3 : Shape := ⟨2, ![1, 3]⟩
abbrev S4 : Shape := ⟨1, ![4]⟩
abbrev S239x1 : Shape := ⟨2, ![239, 1]⟩
abbrev S1x1x3 : Shape := ⟨3, ![1, 1, 3]⟩
abbrev S1x300000 : Shape := ⟨2, ![1, 300000]⟩
abbrev S1x1x1 : Shape := ⟨3, ![1, 1, 1]⟩

abbrev nBuf : Space → Nat
  | .hbm => 196
  | .vmem => 0
  | .smem => 0
  | _ => 0

abbrev hbmTy0_0 (i : Nat) : BufTy := match i % 128 with
  | 0 => ⟨S1x1x240x3, .f32⟩
  | 1 => ⟨S1x240x4, .f32⟩
  | 2 => ⟨S1x100000x3, .f32⟩
  | 3 => ⟨S1x16x2048x2048, .f32⟩
  | 4 => ⟨S1x100000x3, .f32⟩
  | 5 => ⟨S1x1x240x7, .f32⟩
  | 6 => ⟨S240, .i32⟩
  | 7 => ⟨S240x4, .f32⟩
  | 8 => ⟨S240x4, .f32⟩
  | 9 => ⟨S_, .f32⟩
  | 10 => ⟨S240, .f32⟩
  | 11 => ⟨S240x1, .f32⟩
  | 12 => ⟨S240x1, .f32⟩
  | 13 => ⟨S240x4, .f32⟩
  | 14 => ⟨S240x4, .f32⟩
  | 15 => ⟨S1x1x240x4, .f32⟩
  | 16 => ⟨S240x4, .f32⟩
  | 17 => ⟨S240x4, .f32⟩
  | 18 => ⟨S_, .f32⟩
  | 19 => ⟨S240, .f32⟩
  | 20 => ⟨S240x1, .f32⟩
  | 21 => ⟨S240x1, .f32⟩
  | 22 => ⟨S240x4, .f32⟩
  | 23 => ⟨S240x4, .f32⟩
  | 24 => ⟨S240x1, .f32⟩
  | 25 => ⟨S240, .f32⟩
  | 26 => ⟨S240x1, .f32⟩
  | 27 => ⟨S240, .f32⟩
  | 28 => ⟨S240x1, .f32⟩
  | 29 => ⟨S240, .f32⟩
  | 30 => ⟨S240x1, .f32⟩
  | 31 => ⟨S240, .f32⟩
  | 32 => ⟨S240x1, .f32⟩
  | 33 => ⟨S240, .f32⟩
  | 34 => ⟨S240x1, .f32⟩
  | 35 => ⟨S240, .f32⟩
  | 36 => ⟨S240x1, .f32⟩
  | 37 => ⟨S240, .f32⟩
  | 38 => ⟨S240x1, .f32⟩
  | 39 => ⟨S240, .f32⟩
  | 40 => ⟨S240, .f32⟩
  | 41 => ⟨S240, .f32⟩
  | 42 => ⟨S240, .f32⟩
  | 43 => ⟨S240, .f32⟩
  | 44 => ⟨S240, .f32⟩
  | 45 => ⟨S240, .f32⟩
  | 46 => ⟨S240, .f32⟩
  | 47 => ⟨S240, .f32⟩
  | 48 => ⟨S240, .f32⟩
  | 49 => ⟨S240, .f32⟩
  | 50 => ⟨S240, .f32⟩
  | 51 => ⟨S240, .f32⟩
  | 52 => ⟨S240, .f32⟩
  | 53 => ⟨S240, .f32⟩
  | 54 => ⟨S240, .f32⟩
  | 55 => ⟨S240, .f32⟩
  | 56 => ⟨S240, .f32⟩
  | 57 => ⟨S240, .f32⟩
  | 58 => ⟨S240, .f32⟩
  | 59 => ⟨S240, .f32⟩
  | 60 => ⟨S240, .f32⟩
  | 61 => ⟨S240, .f32⟩
  | 62 => ⟨S240, .f32⟩
  | 63 => ⟨S240, .f32⟩
  | 64 => ⟨S240, .f32⟩
  | 65 => ⟨S240, .f32⟩
  | 66 => ⟨S240, .f32⟩
  | 67 => ⟨S240, .f32⟩
  | 68 => ⟨S240, .f32⟩
  | 69 => ⟨S240, .f32⟩
  | 70 => ⟨S240x1, .f32⟩
  | 71 => ⟨S240x1, .f32⟩
  | 72 => ⟨S240x1, .f32⟩
  | 73 => ⟨S240x1, .f32⟩
  | 74 => ⟨S240x4, .f32⟩
  | 75 => ⟨S1x4, .f32⟩
  | 76 => ⟨S239x4, .f32⟩
  | 77 => ⟨S240x4, .f32⟩
  | 78 => ⟨S1x1x1x3, .f32⟩
  | 79 => ⟨S1x1x239x3, .f32⟩
  | 80 => ⟨S1x1x239x3, .f32⟩
  | 81 => ⟨S1x1x239x3, .f32⟩
  | 82 => ⟨S1x1x240x3, .f32⟩
  | 83 => ⟨S1, .i32⟩
  | 84 => ⟨S239, .i32⟩
  | 85 => ⟨S240, .i32⟩
  | 86 => ⟨S240, .i32⟩
  | 87 => ⟨S240, .f32⟩
  | 88 => ⟨S240x3, .f32⟩
  | 89 => ⟨S_, .i32⟩
  | 90 => ⟨S240, .i32⟩
  | 91 => ⟨S240, .i1⟩
  | 92 => ⟨S_, .i32⟩
  | 93 => ⟨S240, .i32⟩
  | 94 => ⟨S240, .i32⟩
  | 95 => ⟨S240, .i32⟩
  | 96 => ⟨S240x1, .i32⟩
  | 97 => ⟨S240x3, .f32⟩
  | 98 => ⟨S239x3, .f32⟩
  | 99 => ⟨S239x3, .f32⟩
  | 100 => ⟨S239x3, .f32⟩
  | 101 => ⟨S239x3, .f32⟩
  | 102 => ⟨S_, .f32⟩
  | 103 => ⟨S239x3, .f32⟩
  | 104 => ⟨S239x3, .i1⟩
  | 105 => ⟨S_, .f32⟩
  | 106 => ⟨S239x3, .f32⟩
  | 107 => ⟨S239x3, .f32⟩
  | 108 => ⟨S1x3, .f32⟩
  | 109 => ⟨S_, .f32⟩
  | 110 => ⟨S1x3, .f32⟩
  | 111 => ⟨S240x3, .f32⟩
  | 112 => ⟨S240x3, .f32⟩
  | 113 => ⟨S_, .f32⟩
  | 114 => ⟨S240, .f32⟩
  | 115 => ⟨S240, .f32⟩
  | 116 => ⟨S240, .f32⟩
  | 117 => ⟨S1x4, .f32⟩
  | 118 => ⟨S4, .f32⟩
  | 119 => ⟨S4, .f32⟩
  | 120 => ⟨S_, .f32⟩
  | 121 => ⟨S_, .f32⟩
  | 122 => ⟨S_, .f32⟩
  | 123 => ⟨S_, .f32⟩
  | 124 => ⟨S_, .f32⟩
  | 125 => ⟨S239, .i32⟩
  | 126 => ⟨S_, .i32⟩
  | 127 => ⟨S239, .i32⟩
  | _ => ⟨S1x1x240x3, .f32⟩

abbrev hbmTy0_1 (i : Nat) : BufTy := match i % 128 with
  | 0 => ⟨S239, .i32⟩
  | 1 => ⟨S_, .i32⟩
  | 2 => ⟨S239, .i32⟩
  | 3 => ⟨S239, .i1⟩
  | 4 => ⟨S_, .i32⟩
  | 5 => ⟨S239, .i32⟩
  | 6 => ⟨S239, .i32⟩
  | 7 => ⟨S239, .i32⟩
  | 8 => ⟨S239x1, .i32⟩
  | 9 => ⟨S239x4, .f32⟩
  | 10 => ⟨S239, .i32⟩
  | 11 => ⟨S_, .i32⟩
  | 12 => ⟨S239, .i32⟩
  | 13 => ⟨S239, .i1⟩
  | 14 => ⟨S_, .i32⟩
  | 15 => ⟨S239, .i32⟩
  | 16 => ⟨S239, .i32⟩
  | 17 => ⟨S239, .i32⟩
  | 18 => ⟨S239x1, .i32⟩
  | 19 => ⟨S239x4, .f32⟩
  | 20 => ⟨S239x4, .f32⟩
  | 21 => ⟨S_, .f32⟩
  | 22 => ⟨S239, .f32⟩
  | 23 => ⟨S239, .f32⟩
  | 24 => ⟨S_, .f32⟩
  | 25 => ⟨S239, .f32⟩
  | 26 => ⟨S239, .f32⟩
  | 27 => ⟨S1, .f32⟩
  | 28 => ⟨S240, .f32⟩
  | 29 => ⟨S240, .f32⟩
  | 30 => ⟨S1x100000x3, .f32⟩
  | 31 => ⟨S_, .f32⟩
  | 32 => ⟨S1x3, .f32⟩
  | 33 => ⟨S1x1x3, .f32⟩
  | 34 => ⟨S_, .f32⟩
  | 35 => ⟨S1x3, .f32⟩
  | 36 => ⟨S1x1x3, .f32⟩
  | 37 => ⟨S1x1x3, .f32⟩
  | 38 => ⟨S_, .f32⟩
  | 39 => ⟨S1x1x3, .f32⟩
  | 40 => ⟨S1x1x3, .f32⟩
  | 41 => ⟨S1x100000x3, .f32⟩
  | 42 => ⟨S1x100000x3, .f32⟩
  | 43 => ⟨S1x300000, .f32⟩
  | 44 => ⟨S_, .f32⟩
  | 45 => ⟨S1, .f32⟩
  | 46 => ⟨S1x1x1, .f32⟩
  | 47 => ⟨S1x100000x3, .f32⟩
  | 48 => ⟨S1x100000x3, .f32⟩
  | 49 => ⟨S_, .i32⟩
  | 50 => ⟨S240, .i32⟩
  | 51 => ⟨S240, .i1⟩
  | 52 => ⟨S_, .i32⟩
  | 53 => ⟨S240, .i32⟩
  | 54 => ⟨S240, .i32⟩
  | 55 => ⟨S240, .i32⟩
  | 56 => ⟨S240x1, .i32⟩
  | 57 => ⟨S1x1x240x3, .f32⟩
  | 58 => ⟨S1x240x4, .f32⟩
  | 59 => ⟨S_, .i32⟩
  | 60 => ⟨S240, .i32⟩
  | 61 => ⟨S240, .i1⟩
  | 62 => ⟨S_, .i32⟩
  | 63 => ⟨S240, .i32⟩
  | 64 => ⟨S240, .i32⟩
  | 65 => ⟨S240, .i32⟩
  | 66 => ⟨S240x1, .i32⟩
  | 67 => ⟨S1x240x4, .f32⟩
  | _ => ⟨S1x1x240x3, .f32⟩

abbrev hbmTy (i : Nat) : BufTy := match i / 128 with
  | 0 => hbmTy0_0 i
  | 1 => hbmTy0_1 i
  | _ => ⟨S1x1x240x3, .f32⟩

abbrev bufTy : (tb : Table) → Fin (tcTables nBuf tb) → BufTy
  | .hbm, ⟨i, _⟩ => hbmTy i
  | _, _ => ⟨S1x1x240x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_call0_v0 : Ref sig .tc := ⟨.hbm, 8, rfl⟩
abbrev main_call0_cst : Ref sig .tc := ⟨.hbm, 9, rfl⟩
abbrev main_call0_v1 : Ref sig .tc := ⟨.hbm, 10, rfl⟩
abbrev main_call0_v2 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_call1_v0 : Ref sig .tc := ⟨.hbm, 17, rfl⟩
abbrev main_call1_cst : Ref sig .tc := ⟨.hbm, 18, rfl⟩
abbrev main_call1_v1 : Ref sig .tc := ⟨.hbm, 19, rfl⟩
abbrev main_call1_v2 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_c : Ref sig .tc := ⟨.hbm, 89, rfl⟩
abbrev main_v74 : Ref sig .tc := ⟨.hbm, 90, rfl⟩
abbrev main_v75 : Ref sig .tc := ⟨.hbm, 91, rfl⟩
abbrev main_c_0 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_cst : Ref sig .tc := ⟨.hbm, 102, rfl⟩
abbrev main_v85 : Ref sig .tc := ⟨.hbm, 103, rfl⟩
abbrev main_v86 : Ref sig .tc := ⟨.hbm, 104, rfl⟩
abbrev main_cst_1 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_cst_2 : Ref sig .tc := ⟨.hbm, 109, rfl⟩
abbrev main_v90 : Ref sig .tc := ⟨.hbm, 110, rfl⟩
abbrev main_v91 : Ref sig .tc := ⟨.hbm, 111, rfl⟩
abbrev main_call3_v0 : Ref sig .tc := ⟨.hbm, 112, rfl⟩
abbrev main_call3_cst : Ref sig .tc := ⟨.hbm, 113, rfl⟩
abbrev main_call3_v1 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_cst_3 : Ref sig .tc := ⟨.hbm, 120, rfl⟩
abbrev main_v97 : Ref sig .tc := ⟨.hbm, 121, rfl⟩
abbrev main_v98 : Ref sig .tc := ⟨.hbm, 122, rfl⟩
abbrev main_cst_4 : Ref sig .tc := ⟨.hbm, 123, rfl⟩
abbrev main_v99 : Ref sig .tc := ⟨.hbm, 124, rfl⟩
abbrev main_v100 : Ref sig .tc := ⟨.hbm, 125, rfl⟩
abbrev main_c_5 : Ref sig .tc := ⟨.hbm, 126, rfl⟩
abbrev main_v101 : Ref sig .tc := ⟨.hbm, 127, rfl⟩
abbrev main_v102 : Ref sig .tc := ⟨.hbm, 128, rfl⟩
abbrev main_c_6 : Ref sig .tc := ⟨.hbm, 129, rfl⟩
abbrev main_v103 : Ref sig .tc := ⟨.hbm, 130, rfl⟩
abbrev main_v104 : Ref sig .tc := ⟨.hbm, 131, rfl⟩
abbrev main_c_7 : Ref sig .tc := ⟨.hbm, 132, rfl⟩
abbrev main_v105 : Ref sig .tc := ⟨.hbm, 133, rfl⟩
abbrev main_v106 : Ref sig .tc := ⟨.hbm, 134, rfl⟩
abbrev main_v107 : Ref sig .tc := ⟨.hbm, 135, rfl⟩
abbrev main_v108 : Ref sig .tc := ⟨.hbm, 136, rfl⟩
abbrev main_v109 : Ref sig .tc := ⟨.hbm, 137, rfl⟩
abbrev main_v110 : Ref sig .tc := ⟨.hbm, 138, rfl⟩
abbrev main_c_8 : Ref sig .tc := ⟨.hbm, 139, rfl⟩
abbrev main_v111 : Ref sig .tc := ⟨.hbm, 140, rfl⟩
abbrev main_v112 : Ref sig .tc := ⟨.hbm, 141, rfl⟩
abbrev main_c_9 : Ref sig .tc := ⟨.hbm, 142, rfl⟩
abbrev main_v113 : Ref sig .tc := ⟨.hbm, 143, rfl⟩
abbrev main_v114 : Ref sig .tc := ⟨.hbm, 144, rfl⟩
abbrev main_v115 : Ref sig .tc := ⟨.hbm, 145, rfl⟩
abbrev main_v116 : Ref sig .tc := ⟨.hbm, 146, rfl⟩
abbrev main_v117 : Ref sig .tc := ⟨.hbm, 147, rfl⟩
abbrev main_v118 : Ref sig .tc := ⟨.hbm, 148, rfl⟩
abbrev main_cst_10 : Ref sig .tc := ⟨.hbm, 149, rfl⟩
abbrev main_v119 : Ref sig .tc := ⟨.hbm, 150, rfl⟩
abbrev main_v120 : Ref sig .tc := ⟨.hbm, 151, rfl⟩
abbrev main_cst_11 : Ref sig .tc := ⟨.hbm, 152, rfl⟩
abbrev main_v121 : Ref sig .tc := ⟨.hbm, 153, rfl⟩
abbrev main_v122 : Ref sig .tc := ⟨.hbm, 154, rfl⟩
abbrev main_v123 : Ref sig .tc := ⟨.hbm, 155, rfl⟩
abbrev main_v124 : Ref sig .tc := ⟨.hbm, 156, rfl⟩
abbrev main_v125 : Ref sig .tc := ⟨.hbm, 157, rfl⟩
abbrev main_v126 : Ref sig .tc := ⟨.hbm, 158, rfl⟩
abbrev main_cst_12 : Ref sig .tc := ⟨.hbm, 159, rfl⟩
abbrev main_v127 : Ref sig .tc := ⟨.hbm, 160, rfl⟩
abbrev main_v128 : Ref sig .tc := ⟨.hbm, 161, rfl⟩
abbrev main_cst_13 : Ref sig .tc := ⟨.hbm, 162, rfl⟩
abbrev main_v129 : Ref sig .tc := ⟨.hbm, 163, rfl⟩
abbrev main_v130 : Ref sig .tc := ⟨.hbm, 164, rfl⟩
abbrev main_v131 : Ref sig .tc := ⟨.hbm, 165, rfl⟩
abbrev main_cst_14 : Ref sig .tc := ⟨.hbm, 166, rfl⟩
abbrev main_v132 : Ref sig .tc := ⟨.hbm, 167, rfl⟩
abbrev main_v133 : Ref sig .tc := ⟨.hbm, 168, rfl⟩
abbrev main_v134 : Ref sig .tc := ⟨.hbm, 169, rfl⟩
abbrev main_v135 : Ref sig .tc := ⟨.hbm, 170, rfl⟩
abbrev main_v136 : Ref sig .tc := ⟨.hbm, 171, rfl⟩
abbrev main_cst_15 : Ref sig .tc := ⟨.hbm, 172, rfl⟩
abbrev main_v137 : Ref sig .tc := ⟨.hbm, 173, rfl⟩
abbrev main_v138 : Ref sig .tc := ⟨.hbm, 174, rfl⟩
abbrev main_v139 : Ref sig .tc := ⟨.hbm, 175, rfl⟩
abbrev main_v140 : Ref sig .tc := ⟨.hbm, 176, rfl⟩
abbrev main_c_16 : Ref sig .tc := ⟨.hbm, 177, rfl⟩
abbrev main_v141 : Ref sig .tc := ⟨.hbm, 178, rfl⟩
abbrev main_v142 : Ref sig .tc := ⟨.hbm, 179, rfl⟩
abbrev main_c_17 : Ref sig .tc := ⟨.hbm, 180, rfl⟩
abbrev main_v143 : Ref sig .tc := ⟨.hbm, 181, rfl⟩
abbrev main_v144 : Ref sig .tc := ⟨.hbm, 182, rfl⟩
abbrev main_v145 : Ref sig .tc := ⟨.hbm, 183, rfl⟩
abbrev main_v146 : Ref sig .tc := ⟨.hbm, 184, rfl⟩
abbrev main_v147 : Ref sig .tc := ⟨.hbm, 185, rfl⟩
abbrev main_v148 : Ref sig .tc := ⟨.hbm, 186, rfl⟩
abbrev main_c_18 : Ref sig .tc := ⟨.hbm, 187, rfl⟩
abbrev main_v149 : Ref sig .tc := ⟨.hbm, 188, rfl⟩
abbrev main_v150 : Ref sig .tc := ⟨.hbm, 189, rfl⟩
abbrev main_c_19 : Ref sig .tc := ⟨.hbm, 190, rfl⟩
abbrev main_v151 : Ref sig .tc := ⟨.hbm, 191, rfl⟩
abbrev main_v152 : Ref sig .tc := ⟨.hbm, 192, rfl⟩
abbrev main_v153 : Ref sig .tc := ⟨.hbm, 193, rfl⟩
abbrev main_v154 : Ref sig .tc := ⟨.hbm, 194, rfl⟩
abbrev main_v155 : Ref sig .tc := ⟨.hbm, 195, rfl⟩

abbrev nD : Nat := 1
abbrev τ : Topo := Topo.v7x

variable {F : FTy → Type} [FloatOps F]

class Facts₀ : Prop where
  shapeCasts_S1x240x4_S240x4 : S1x240x4.ShapeCasts S240x4
  reducesTo_S240x4_S240_d1 : S240x4.ReducesTo [1] S240
  h_S_ : 0 < S_.numel
  bcast_S240_S240x1_0 : S240.BroadcastsInDim S240x1 (![0] : Fin 1 → Fin S240x1.rank)
  bcast_S240x1_S240x4_0_1 : S240x1.BroadcastsInDim S240x4 (![0, 1] : Fin 2 → Fin S240x4.rank)
  slices_S1x1x240x7_S1x1x240x4_0_0_0_3 : S1x1x240x7.Slices ![0, 0, 0, 3] S1x1x240x4
  shapeCasts_S1x1x240x4_S240x4 : S1x1x240x4.ShapeCasts S240x4
  slices_S240x4_S240x1_0_0 : S240x4.Slices ![0, 0] S240x1
  shapeCasts_S240x1_S240 : S240x1.ShapeCasts S240
  slices_S240x4_S240x1_0_1 : S240x4.Slices ![0, 1] S240x1
  slices_S240x4_S240x1_0_2 : S240x4.Slices ![0, 2] S240x1
  slices_S240x4_S240x1_0_3 : S240x4.Slices ![0, 3] S240x1
  concatenates_S240x1_S240x1_S240x1_S240x1_S240x4_d1 : Shape.Concatenates [S240x1, S240x1, S240x1, S240x1] S240x4 1
  slices_S240x4_S1x4_0_0 : S240x4.Slices ![0, 0] S1x4
  slices_S240x4_S239x4_1_0 : S240x4.Slices ![1, 0] S239x4
  concatenates_S1x4_S239x4_S240x4_d0 : Shape.Concatenates [S1x4, S239x4] S240x4 0
  slices_S1x1x240x3_S1x1x1x3_0_0_0_0 : S1x1x240x3.Slices ![0, 0, 0, 0] S1x1x1x3
  slices_S1x1x240x3_S1x1x239x3_0_0_1_0 : S1x1x240x3.Slices ![0, 0, 1, 0] S1x1x239x3
  slices_S1x1x240x7_S1x1x239x3_0_0_1_0 : S1x1x240x7.Slices ![0, 0, 1, 0] S1x1x239x3
  concatenates_S1x1x1x3_S1x1x239x3_S1x1x240x3_d2 : Shape.Concatenates [S1x1x1x3, S1x1x239x3] S1x1x240x3 2
  slices_S240_S1_0 : S240.Slices ![0] S1
  slices_S240_S239_0 : S240.Slices ![0] S239
  concatenates_S1_S239_S240_d0 : Shape.Concatenates [S1, S239] S240 0
  shapeCasts_S1x1x240x3_S240x3 : S1x1x240x3.ShapeCasts S240x3
  bcast_S_S240 : S_.BroadcastsInDim S240 (![] : Fin 0 → Fin S240.rank)
  slices_S240x3_S239x3_1_0 : S240x3.Slices ![1, 0] S239x3
  slices_S240x3_S239x3_0_0 : S240x3.Slices ![0, 0] S239x3
  bcast_S_S239x3 : S_.BroadcastsInDim S239x3 (![] : Fin 0 → Fin S239x3.rank)
  slices_S239x3_S1x3_0_0 : S239x3.Slices ![0, 0] S1x3
  bcast_S_S1x3 : S_.BroadcastsInDim S1x3 (![] : Fin 0 → Fin S1x3.rank)
  concatenates_S1x3_S239x3_S240x3_d0 : Shape.Concatenates [S1x3, S239x3] S240x3 0
  reducesTo_S240x3_S240_d1 : S240x3.ReducesTo [1] S240
  slices_S240x4_S1x4_239_0 : S240x4.Slices ![239, 0] S1x4
  shapeCasts_S1x4_S4 : S1x4.ShapeCasts S4
  reducesTo_S4_S_d0 : S4.ReducesTo [0] S_
  slices_S240_S239_1 : S240.Slices ![1] S239
  bcast_S_S239 : S_.BroadcastsInDim S239 (![] : Fin 0 → Fin S239.rank)
  bcast_S239_S239x1_0 : S239.BroadcastsInDim S239x1 (![0] : Fin 1 → Fin S239x1.rank)
  reducesTo_S239x4_S239_d1 : S239x4.ReducesTo [1] S239
  bcast_S_S1 : S_.BroadcastsInDim S1 (![] : Fin 0 → Fin S1.rank)
  reducesTo_S1x100000x3_S1x3_d1 : S1x100000x3.ReducesTo [1] S1x3
  bcast_S1x3_S1x1x3_0_2 : S1x3.BroadcastsInDim S1x1x3 (![0, 2] : Fin 2 → Fin S1x1x3.rank)
  bcast_S_S1x1x3 : S_.BroadcastsInDim S1x1x3 (![] : Fin 0 → Fin S1x1x3.rank)
  bcast_S1x1x3_S1x100000x3_0_1_2 : S1x1x3.BroadcastsInDim S1x100000x3 (![0, 1, 2] : Fin 3 → Fin S1x100000x3.rank)
  shapeCasts_S1x100000x3_S1x300000 : S1x100000x3.ShapeCasts S1x300000
  reducesTo_S1x300000_S1_d1 : S1x300000.ReducesTo [1] S1
  bcast_S1_S1x1x1_0 : S1.BroadcastsInDim S1x1x1 (![0] : Fin 1 → Fin S1x1x1.rank)
  bcast_S1x1x1_S1x100000x3_0_1_2 : S1x1x1.BroadcastsInDim S1x100000x3 (![0, 1, 2] : Fin 3 → Fin S1x100000x3.rank)
  bcast_S240x4_S1x240x4_1_2 : S240x4.BroadcastsInDim S1x240x4 (![1, 2] : Fin 2 → Fin S1x240x4.rank)
  gather_S240x3_S240x1_S240x3_1_0_n_n_0_1_13_wf : GatherDims.WF S240x3 S240x1 S240x3 [1] [0] [] [0] [] 1 ![1, 3]
  gather_S240x4_S239x1_S239x4_1_0_n_n_0_1_14_wf : GatherDims.WF S240x4 S239x1 S239x4 [1] [0] [] [0] [] 1 ![1, 4]
  gather_S1x1x240x3_S240x1_S1x1x240x3_013_2_n_n_2_1_1113_wf : GatherDims.WF S1x1x240x3 S240x1 S1x1x240x3 [0, 1, 3] [2] [] [2] [] 1 ![1, 1, 1, 3]
  gather_S1x240x4_S240x1_S1x240x4_02_1_n_n_1_1_114_wf : GatherDims.WF S1x240x4 S240x1 S1x240x4 [0, 2] [1] [] [1] [] 1 ![1, 1, 4]

variable [Facts₀]

def gather_S240x3_S240x1_S240x3_1_0_n_n_0_1_13 : GatherDims S240x3 S240x1 S240x3 where
  offsetDims := [1]
  collapsedSliceDims := [0]
  operandBatchingDims := []
  startIndicesBatchingDims := []
  startIndexMap := [0]
  indexVectorDim := 1
  sliceSizes := ![1, 3]
  wf := gather_S240x3_S240x1_S240x3_1_0_n_n_0_1_13_wf
def gather_S240x4_S239x1_S239x4_1_0_n_n_0_1_14 : GatherDims S240x4 S239x1 S239x4 where
  offsetDims := [1]
  collapsedSliceDims := [0]
  operandBatchingDims := []
  startIndicesBatchingDims := []
  startIndexMap := [0]
  indexVectorDim := 1
  sliceSizes := ![1, 4]
  wf := gather_S240x4_S239x1_S239x4_1_0_n_n_0_1_14_wf
def gather_S1x1x240x3_S240x1_S1x1x240x3_013_2_n_n_2_1_1113 : GatherDims S1x1x240x3 S240x1 S1x1x240x3 where
  offsetDims := [0, 1, 3]
  collapsedSliceDims := [2]
  operandBatchingDims := []
  startIndicesBatchingDims := []
  startIndexMap := [2]
  indexVectorDim := 1
  sliceSizes := ![1, 1, 1, 3]
  wf := gather_S1x1x240x3_S240x1_S1x1x240x3_013_2_n_n_2_1_1113_wf
def gather_S1x240x4_S240x1_S1x240x4_02_1_n_n_1_1_114 : GatherDims S1x240x4 S240x1 S1x240x4 where
  offsetDims := [0, 2]
  collapsedSliceDims := [1]
  operandBatchingDims := []
  startIndicesBatchingDims := []
  startIndexMap := [1]
  indexVectorDim := 1
  sliceSizes := ![1, 1, 4]
  wf := gather_S1x240x4_S240x1_S1x240x4_02_1_n_n_1_1_114_wf

class Facts : Prop extends Facts₀ where

variable [Facts]
-- ==== Proof.KernelFrame.lean ====
/-
  The frame of `Kernel`, at any float instance: @main is nine stretches of host operations, one region over a
  grid of ONE point whose three windows are whole `[3, 100000]` arrays (the two inputs the transposed vertex arrays,
  the output the normalised mesh), then one more stretch of host operations. The region's body loads both input
  blocks whole and stores one value that covers the output block, so after the body the output buffer holds that
  value (`out0_2`); the argument arrays are written by no host operation and staged by no window, so they end as
  launched.
-/
import proofs.«143814_j45870250721282_1_alg».proof.Proof.Gen.Kernel.Launch
import proofs.«143814_j45870250721282_1_alg».proof.Proof.Gen.Kernel.Skeleton
import proofs.«143814_j45870250721282_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The host operations before the region, stretch by stretch. -/
abbrev before : List (List (HloOp τ sig (Elt F))) :=
  [hostOps0, hostOps0_1, hostOps0_2, hostOps0_3, hostOps0_4, hostOps0_5, hostOps0_6, hostOps0_7, hostOps0_8]

/-- Core `c`'s buffer contents when the region is entered: the launch contents after those operations. -/
abbrev V0 (c : Dev nD) : Valuation τ sig (Elt F) := StableHlo.after (List.flatten before) (fun b => m (c, b))
/-- The same read at a TensorCore reference. -/
abbrev V (c : Dev nD) (b : Ref sig .tc) : Buf (Elt F) ((c : Thread nD τ).loc b) := V0 m c (Proc.devRef .tc b)

/-! No host operation allocates anything. -/
theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the operations before the region, the region, and the operations after it: it reduces to the region
    continued by the later operations. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main before [hostOps1]
    (by simp only [List.Forall]; exact ⟨hostOps0_sub, hostOps0_1_sub, hostOps0_2_sub, hostOps0_3_sub, hostOps0_4_sub, hostOps0_5_sub, hostOps0_6_sub, hostOps0_7_sub, hostOps0_8_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh⟩) main_chain

/-- The operations after the region touch unscoped TensorCore buffers only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And each writes only its own result buffer, which is none of the three windows' arrays. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl | rfl | rfl | rfl | rfl | rfl | rfl | rfl | rfl | rfl | rfl | rfl | rfl | rfl | rfl
    all_goals intro w; fin_cases w <;> simp only [StableHlo.nullary_writes, StableHlo.unary_writes, StableHlo.binary_writes, StableHlo.ternary_writes, StableHlo.quaternary_writes, StableHlo.nary_writes, StableHlo.reshape_writes, StableHlo.binaryIndexed_writes, Finset.mem_singleton] <;> exact StableHlo.devRef_ne_of_ne (by decide)

/-- Closes "no operation of these stretches writes this reference": each operation writes one buffer, another one. -/
local macro "not_written_before" : tactic => `(tactic| (
  simp only [before, hostOps0, hostOps0_1, hostOps0_2, hostOps0_3, hostOps0_4, hostOps0_5, hostOps0_6, hostOps0_7, hostOps0_8,
    List.flatten_cons, List.flatten_nil, List.append_nil, List.cons_append,
    List.nil_append, List.Forall, StableHlo.nullary_writes, StableHlo.unary_writes, StableHlo.binary_writes, StableHlo.ternary_writes,
    StableHlo.quaternary_writes, StableHlo.nary_writes, StableHlo.reshape_writes, StableHlo.binaryIndexed_writes, StableHlo.TRef.nullary,
    StableHlo.TRef.unary, StableHlo.TRef.binary, StableHlo.TRef.ternary, StableHlo.TRef.of, Finset.mem_singleton]
  repeat' apply And.intro
  all_goals exact StableHlo.devRef_ne_of_ne (by decide)))
local macro "not_written_after" : tactic => `(tactic| (
  simp only [hostOps1,
    List.flatten_cons, List.flatten_nil, List.append_nil, List.cons_append,
    List.nil_append, List.Forall, StableHlo.nullary_writes, StableHlo.unary_writes, StableHlo.binary_writes, StableHlo.ternary_writes,
    StableHlo.quaternary_writes, StableHlo.nary_writes, StableHlo.reshape_writes, StableHlo.binaryIndexed_writes, Finset.mem_singleton]
  repeat' apply And.intro
  all_goals exact StableHlo.devRef_ne_of_ne (by decide)))

/-- A reference no operation before the region writes is found by the region as launched. -/
theorem V_of_not_written (c : Dev nD) (b : Ref sig .tc)
    (h : (List.flatten (before (F := F))).Forall fun op => Proc.devRef .tc b ∉ op.writes) :
    V m c b = m ((c : Thread nD τ).loc b) :=
  StableHlo.after_of_forall_not_mem (b := Proc.devRef .tc b) _ _ (List.forall_iff_forall_mem.mp h)

theorem V_main_arg0 (c : Dev nD) : V m c main_arg0 = m ((c : Thread nD τ).loc main_arg0) := V_of_not_written m c _ (by not_written_before)
theorem V_main_arg1 (c : Dev nD) : V m c main_arg1 = m ((c : Thread nD τ).loc main_arg1) := V_of_not_written m c _ (by not_written_before)
theorem V_main_arg2 (c : Dev nD) : V m c main_arg2 = m ((c : Thread nD τ).loc main_arg2) := V_of_not_written m c _ (by not_written_before)
theorem V_main_arg3 (c : Dev nD) : V m c main_arg3 = m ((c : Thread nD τ).loc main_arg3) := V_of_not_written m c _ (by not_written_before)
theorem V_main_arg4 (c : Dev nD) : V m c main_arg4 = m ((c : Thread nD τ).loc main_arg4) := V_of_not_written m c _ (by not_written_before)
theorem V_main_arg5 (c : Dev nD) : V m c main_arg5 = m ((c : Thread nD τ).loc main_arg5) := V_of_not_written m c _ (by not_written_before)
theorem V_main_arg6 (c : Dev nD) : V m c main_arg6 = m ((c : Thread nD τ).loc main_arg6) := V_of_not_written m c _ (by not_written_before)

/-- What a reference holds when @main ends: the operations after the region applied to the region's exit contents. -/
abbrev W (dats : (p : Fin 1) → (c : Dev nD) → Dat τ (Elt F) Unit ℕ (UR sig nD τ) ℕ (cfgs p) c) (c : Dev nD) (b : Ref sig .tc) :
    Buf (Elt F) ((c.tc : Thread nD τ).loc b) :=
  Pipeline.afterTail₀ cfgs dats 0 (V0 m) [hostOps1] c b

/-- A reference that is no window's array and that no operation after the region writes ends as the region found it. -/
theorem W_of_not_written (dats : (p : Fin 1) → (c : Dev nD) → Dat τ (Elt F) Unit ℕ (UR sig nD τ) ℕ (cfgs p) c) (c : Dev nD) (b : Ref sig .tc)
    (hw : ∀ w, Pipeline.arrRef spec0 w ≠ b)
    (h : (List.flatten [hostOps1 (F := F)]).Forall fun op => Proc.devRef .tc b ∉ op.writes) :
    W m dats c b = V m c b := by
  unfold W Pipeline.afterTail₀
  rw [StableHlo.after_of_forall_not_mem (b := Proc.devRef .tc b) _ _ (List.forall_iff_forall_mem.mp h),
    Pipeline.withArrays_of_ne _ c (V0 m c) _ b hw]

section Ends
variable (dats : (p : Fin 1) → (c : Dev nD) → Dat τ (Elt F) Unit ℕ (UR sig nD τ) ℕ (cfgs p) c)
theorem W_main_arg0 (c : Dev nD) : W m dats c main_arg0 = m ((c : Thread nD τ).loc main_arg0) :=
  (W_of_not_written m dats c _ (by decide) (by not_written_after)).trans (V_main_arg0 m c)
theorem W_main_arg1 (c : Dev nD) : W m dats c main_arg1 = m ((c : Thread nD τ).loc main_arg1) :=
  (W_of_not_written m dats c _ (by decide) (by not_written_after)).trans (V_main_arg1 m c)
theorem W_main_arg2 (c : Dev nD) : W m dats c main_arg2 = m ((c : Thread nD τ).loc main_arg2) :=
  (W_of_not_written m dats c _ (by decide) (by not_written_after)).trans (V_main_arg2 m c)
theorem W_main_arg3 (c : Dev nD) : W m dats c main_arg3 = m ((c : Thread nD τ).loc main_arg3) :=
  (W_of_not_written m dats c _ (by decide) (by not_written_after)).trans (V_main_arg3 m c)
theorem W_main_arg4 (c : Dev nD) : W m dats c main_arg4 = m ((c : Thread nD τ).loc main_arg4) :=
  (W_of_not_written m dats c _ (by decide) (by not_written_after)).trans (V_main_arg4 m c)
theorem W_main_arg5 (c : Dev nD) : W m dats c main_arg5 = m ((c : Thread nD τ).loc main_arg5) :=
  (W_of_not_written m dats c _ (by decide) (by not_written_after)).trans (V_main_arg5 m c)
theorem W_main_arg6 (c : Dev nD) : W m dats c main_arg6 = m ((c : Thread nD τ).loc main_arg6) :=
  (W_of_not_written m dats c _ (by decide) (by not_written_after)).trans (V_main_arg6 m c)
end Ends

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's staging buffer holds its block at every point, for any proof data whose array is the
    region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the run's -/

/-- For any proof data whose arrays are the region-entry contents, a run to the library's post around the region —
    every buffer no window stages at what the later operations leave in it — has every argument array as launched. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (W m dats))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨((h c).2 main_arg0 (Pipeline.mem_restRefs_of main_arg0 (by decide) (by decide))).trans (W_main_arg0 m dats c),
     ((h c).2 main_arg1 (Pipeline.mem_restRefs_of main_arg1 (by decide) (by decide))).trans (W_main_arg1 m dats c),
     ((h c).2 main_arg2 (Pipeline.mem_restRefs_of main_arg2 (by decide) (by decide))).trans (W_main_arg2 m dats c),
     ((h c).2 main_arg3 (Pipeline.mem_restRefs_of main_arg3 (by decide) (by decide))).trans (W_main_arg3 m dats c),
     ((h c).2 main_arg4 (Pipeline.mem_restRefs_of main_arg4 (by decide) (by decide))).trans (W_main_arg4 m dats c),
     ((h c).2 main_arg5 (Pipeline.mem_restRefs_of main_arg5 (by decide) (by decide))).trans (W_main_arg5 m dats c),
     ((h c).2 main_arg6 (Pipeline.mem_restRefs_of main_arg6 (by decide) (by decide))).trans (W_main_arg6 m dats c)⟩) h

/-! ## The body -/

/-- The one rectangle the body accesses: a whole `[3, 100000]` buffer. -/
abbrev whole : Rect S3x100000 := Rect.unit (s := S3x100000) ![0, 0] S3x100000.size inb_S3x100000_S3x100000_0_0

/-- The output window's buffer after the body: its one store, whose value is computed from the two input blocks. -/
def out0_2 (x0 x1 : Vec F S3x100000 .f32) : Vec F S3x100000 .f32 :=
  View.canon [⟨whole, k0_pay1 (View.ld x0 whole) (View.ld x1 whole)⟩]

/-- That store covers the buffer. -/
theorem cover0_2 (p0 : Vec F S3x100000 .f32) (y : S3x100000.Idx) :
    ∃ pc ∈ ([⟨whole, p0⟩] : List (View.Piece (Elt F) S3x100000 .f32)), y ∈ pc.1.set :=
  View.cover_of_tiled [⟨whole, p0⟩] S3x100000.size (by rfl) y

set_option maxHeartbeats 1000000 in
/-- The body on whole staging buffers, the inputs' at contents `x0`, `x1` and the output's at anything, runs to the
    continuation with the inputs' as they were and the output's at `out0_2 x0 x1`. -/
theorem sound_kernel (c : Dev nD) (E : Set ℕ) (i : grid0.Coords)
    (arg1 : Memref sig .tc .vmem S3x100000 .f32) (harg1 : arg1.IsWhole) (arg2 : Memref sig .tc .vmem S3x100000 .f32) (harg2 : arg2.IsWhole)
    (arg3 : Memref sig .tc .vmem S3x100000 .f32) (harg3 : arg3.IsWhole)
    (x0 x1 : Vec F S3x100000 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__mesh_norm_kernel i arg1 harg1 arg2 harg2 arg3 harg3) K := by
  simp only [cc0__mesh_norm_kernel_eq_skeleton]; unfold cc0__mesh_norm_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The proof data -/

/-- On core `c`: the arrays as the region finds them; after the body each input's buffer at its block and the output's
    at `out0_2` of the input blocks; nothing else held, nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out0_2 (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = out0_2 (iblk m c 0 t) (iblk m c 1 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates; every final state has each window's array at what the proof data
    says and every other unscoped buffer at what the operations after the region leave in it. -/
theorem run_main : θ_run defs (onTc (τ := τ) (main (F := F))) (s₀ m ρ) (Pipeline.FramePost cfgs (dats m) 0 (W m (dats m))) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame claim: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (run_main m ρ)

end Cert.Kernel.Region

end
-- ==== Proof.KernelIdealFrame.lean ====
/-
  The frame of `KernelIdeal`, at any float instance: @main is nine stretches of host operations, one region over a
  grid of ONE point whose three windows are whole `[3, 100000]` arrays (the two inputs the transposed vertex arrays,
  the output the normalised mesh), then one more stretch of host operations. The region's body loads both input
  blocks whole and stores one value that covers the output block, so after the body the output buffer holds that
  value (`out0_2`); the argument arrays are written by no host operation and staged by no window, so they end as
  launched.
-/
import proofs.«143814_j45870250721282_1_alg».proof.Proof.Gen.KernelIdeal.Launch
import proofs.«143814_j45870250721282_1_alg».proof.Proof.Gen.KernelIdeal.Skeleton
import proofs.«143814_j45870250721282_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The host operations before the region, stretch by stretch. -/
abbrev before : List (List (HloOp τ sig (Elt F))) :=
  [hostOps0, hostOps0_1, hostOps0_2, hostOps0_3, hostOps0_4, hostOps0_5, hostOps0_6, hostOps0_7, hostOps0_8]

/-- Core `c`'s buffer contents when the region is entered: the launch contents after those operations. -/
abbrev V0 (c : Dev nD) : Valuation τ sig (Elt F) := StableHlo.after (List.flatten before) (fun b => m (c, b))
/-- The same read at a TensorCore reference. -/
abbrev V (c : Dev nD) (b : Ref sig .tc) : Buf (Elt F) ((c : Thread nD τ).loc b) := V0 m c (Proc.devRef .tc b)

/-! No host operation allocates anything. -/
theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the operations before the region, the region, and the operations after it: it reduces to the region
    continued by the later operations. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main before [hostOps1]
    (by simp only [List.Forall]; exact ⟨hostOps0_sub, hostOps0_1_sub, hostOps0_2_sub, hostOps0_3_sub, hostOps0_4_sub, hostOps0_5_sub, hostOps0_6_sub, hostOps0_7_sub, hostOps0_8_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh⟩) main_chain

/-- The operations after the region touch unscoped TensorCore buffers only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And each writes only its own result buffer, which is none of the three windows' arrays. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl | rfl | rfl | rfl | rfl | rfl | rfl | rfl | rfl | rfl | rfl | rfl | rfl | rfl | rfl
    all_goals intro w; fin_cases w <;> simp only [StableHlo.nullary_writes, StableHlo.unary_writes, StableHlo.binary_writes, StableHlo.ternary_writes, StableHlo.quaternary_writes, StableHlo.nary_writes, StableHlo.reshape_writes, StableHlo.binaryIndexed_writes, Finset.mem_singleton] <;> exact StableHlo.devRef_ne_of_ne (by decide)

/-- Closes "no operation of these stretches writes this reference": each operation writes one buffer, another one. -/
local macro "not_written_before" : tactic => `(tactic| (
  simp only [before, hostOps0, hostOps0_1, hostOps0_2, hostOps0_3, hostOps0_4, hostOps0_5, hostOps0_6, hostOps0_7, hostOps0_8,
    List.flatten_cons, List.flatten_nil, List.append_nil, List.cons_append,
    List.nil_append, List.Forall, StableHlo.nullary_writes, StableHlo.unary_writes, StableHlo.binary_writes, StableHlo.ternary_writes,
    StableHlo.quaternary_writes, StableHlo.nary_writes, StableHlo.reshape_writes, StableHlo.binaryIndexed_writes, StableHlo.TRef.nullary,
    StableHlo.TRef.unary, StableHlo.TRef.binary, StableHlo.TRef.ternary, StableHlo.TRef.of, Finset.mem_singleton]
  repeat' apply And.intro
  all_goals exact StableHlo.devRef_ne_of_ne (by decide)))
local macro "not_written_after" : tactic => `(tactic| (
  simp only [hostOps1,
    List.flatten_cons, List.flatten_nil, List.append_nil, List.cons_append,
    List.nil_append, List.Forall, StableHlo.nullary_writes, StableHlo.unary_writes, StableHlo.binary_writes, StableHlo.ternary_writes,
    StableHlo.quaternary_writes, StableHlo.nary_writes, StableHlo.reshape_writes, StableHlo.binaryIndexed_writes, Finset.mem_singleton]
  repeat' apply And.intro
  all_goals exact StableHlo.devRef_ne_of_ne (by decide)))

/-- A reference no operation before the region writes is found by the region as launched. -/
theorem V_of_not_written (c : Dev nD) (b : Ref sig .tc)
    (h : (List.flatten (before (F := F))).Forall fun op => Proc.devRef .tc b ∉ op.writes) :
    V m c b = m ((c : Thread nD τ).loc b) :=
  StableHlo.after_of_forall_not_mem (b := Proc.devRef .tc b) _ _ (List.forall_iff_forall_mem.mp h)

theorem V_main_arg0 (c : Dev nD) : V m c main_arg0 = m ((c : Thread nD τ).loc main_arg0) := V_of_not_written m c _ (by not_written_before)
theorem V_main_arg1 (c : Dev nD) : V m c main_arg1 = m ((c : Thread nD τ).loc main_arg1) := V_of_not_written m c _ (by not_written_before)
theorem V_main_arg2 (c : Dev nD) : V m c main_arg2 = m ((c : Thread nD τ).loc main_arg2) := V_of_not_written m c _ (by not_written_before)
theorem V_main_arg3 (c : Dev nD) : V m c main_arg3 = m ((c : Thread nD τ).loc main_arg3) := V_of_not_written m c _ (by not_written_before)
theorem V_main_arg4 (c : Dev nD) : V m c main_arg4 = m ((c : Thread nD τ).loc main_arg4) := V_of_not_written m c _ (by not_written_before)
theorem V_main_arg5 (c : Dev nD) : V m c main_arg5 = m ((c : Thread nD τ).loc main_arg5) := V_of_not_written m c _ (by not_written_before)
theorem V_main_arg6 (c : Dev nD) : V m c main_arg6 = m ((c : Thread nD τ).loc main_arg6) := V_of_not_written m c _ (by not_written_before)

/-- What a reference holds when @main ends: the operations after the region applied to the region's exit contents. -/
abbrev W (dats : (p : Fin 1) → (c : Dev nD) → Dat τ (Elt F) Unit ℕ (UR sig nD τ) ℕ (cfgs p) c) (c : Dev nD) (b : Ref sig .tc) :
    Buf (Elt F) ((c.tc : Thread nD τ).loc b) :=
  Pipeline.afterTail₀ cfgs dats 0 (V0 m) [hostOps1] c b

/-- A reference that is no window's array and that no operation after the region writes ends as the region found it. -/
theorem W_of_not_written (dats : (p : Fin 1) → (c : Dev nD) → Dat τ (Elt F) Unit ℕ (UR sig nD τ) ℕ (cfgs p) c) (c : Dev nD) (b : Ref sig .tc)
    (hw : ∀ w, Pipeline.arrRef spec0 w ≠ b)
    (h : (List.flatten [hostOps1 (F := F)]).Forall fun op => Proc.devRef .tc b ∉ op.writes) :
    W m dats c b = V m c b := by
  unfold W Pipeline.afterTail₀
  rw [StableHlo.after_of_forall_not_mem (b := Proc.devRef .tc b) _ _ (List.forall_iff_forall_mem.mp h),
    Pipeline.withArrays_of_ne _ c (V0 m c) _ b hw]

section Ends
variable (dats : (p : Fin 1) → (c : Dev nD) → Dat τ (Elt F) Unit ℕ (UR sig nD τ) ℕ (cfgs p) c)
theorem W_main_arg0 (c : Dev nD) : W m dats c main_arg0 = m ((c : Thread nD τ).loc main_arg0) :=
  (W_of_not_written m dats c _ (by decide) (by not_written_after)).trans (V_main_arg0 m c)
theorem W_main_arg1 (c : Dev nD) : W m dats c main_arg1 = m ((c : Thread nD τ).loc main_arg1) :=
  (W_of_not_written m dats c _ (by decide) (by not_written_after)).trans (V_main_arg1 m c)
theorem W_main_arg2 (c : Dev nD) : W m dats c main_arg2 = m ((c : Thread nD τ).loc main_arg2) :=
  (W_of_not_written m dats c _ (by decide) (by not_written_after)).trans (V_main_arg2 m c)
theorem W_main_arg3 (c : Dev nD) : W m dats c main_arg3 = m ((c : Thread nD τ).loc main_arg3) :=
  (W_of_not_written m dats c _ (by decide) (by not_written_after)).trans (V_main_arg3 m c)
theorem W_main_arg4 (c : Dev nD) : W m dats c main_arg4 = m ((c : Thread nD τ).loc main_arg4) :=
  (W_of_not_written m dats c _ (by decide) (by not_written_after)).trans (V_main_arg4 m c)
theorem W_main_arg5 (c : Dev nD) : W m dats c main_arg5 = m ((c : Thread nD τ).loc main_arg5) :=
  (W_of_not_written m dats c _ (by decide) (by not_written_after)).trans (V_main_arg5 m c)
theorem W_main_arg6 (c : Dev nD) : W m dats c main_arg6 = m ((c : Thread nD τ).loc main_arg6) :=
  (W_of_not_written m dats c _ (by decide) (by not_written_after)).trans (V_main_arg6 m c)
end Ends

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's staging buffer holds its block at every point, for any proof data whose array is the
    region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the run's -/

/-- For any proof data whose arrays are the region-entry contents, a run to the library's post around the region —
    every buffer no window stages at what the later operations leave in it — has every argument array as launched. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (W m dats))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨((h c).2 main_arg0 (Pipeline.mem_restRefs_of main_arg0 (by decide) (by decide))).trans (W_main_arg0 m dats c),
     ((h c).2 main_arg1 (Pipeline.mem_restRefs_of main_arg1 (by decide) (by decide))).trans (W_main_arg1 m dats c),
     ((h c).2 main_arg2 (Pipeline.mem_restRefs_of main_arg2 (by decide) (by decide))).trans (W_main_arg2 m dats c),
     ((h c).2 main_arg3 (Pipeline.mem_restRefs_of main_arg3 (by decide) (by decide))).trans (W_main_arg3 m dats c),
     ((h c).2 main_arg4 (Pipeline.mem_restRefs_of main_arg4 (by decide) (by decide))).trans (W_main_arg4 m dats c),
     ((h c).2 main_arg5 (Pipeline.mem_restRefs_of main_arg5 (by decide) (by decide))).trans (W_main_arg5 m dats c),
     ((h c).2 main_arg6 (Pipeline.mem_restRefs_of main_arg6 (by decide) (by decide))).trans (W_main_arg6 m dats c)⟩) h

/-! ## The body -/

/-- The one rectangle the body accesses: a whole `[3, 100000]` buffer. -/
abbrev whole : Rect S3x100000 := Rect.unit (s := S3x100000) ![0, 0] S3x100000.size inb_S3x100000_S3x100000_0_0

/-- The output window's buffer after the body: its one store, whose value is computed from the two input blocks. -/
def out0_2 (x0 x1 : Vec F S3x100000 .f32) : Vec F S3x100000 .f32 :=
  View.canon [⟨whole, k0_pay1 (View.ld x0 whole) (View.ld x1 whole)⟩]

/-- That store covers the buffer. -/
theorem cover0_2 (p0 : Vec F S3x100000 .f32) (y : S3x100000.Idx) :
    ∃ pc ∈ ([⟨whole, p0⟩] : List (View.Piece (Elt F) S3x100000 .f32)), y ∈ pc.1.set :=
  View.cover_of_tiled [⟨whole, p0⟩] S3x100000.size (by rfl) y

set_option maxHeartbeats 1000000 in
/-- The body on whole staging buffers, the inputs' at contents `x0`, `x1` and the output's at anything, runs to the
    continuation with the inputs' as they were and the output's at `out0_2 x0 x1`. -/
theorem sound_kernel (c : Dev nD) (E : Set ℕ) (i : grid0.Coords)
    (arg1 : Memref sig .tc .vmem S3x100000 .f32) (harg1 : arg1.IsWhole) (arg2 : Memref sig .tc .vmem S3x100000 .f32) (harg2 : arg2.IsWhole)
    (arg3 : Memref sig .tc .vmem S3x100000 .f32) (harg3 : arg3.IsWhole)
    (x0 x1 : Vec F S3x100000 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__mesh_norm_kernel i arg1 harg1 arg2 harg2 arg3 harg3) K := by
  simp only [cc0__mesh_norm_kernel_eq_skeleton]; unfold cc0__mesh_norm_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The proof data -/

/-- On core `c`: the arrays as the region finds them; after the body each input's buffer at its block and the output's
    at `out0_2` of the input blocks; nothing else held, nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out0_2 (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = out0_2 (iblk m c 0 t) (iblk m c 1 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates; every final state has each window's array at what the proof data
    says and every other unscoped buffer at what the operations after the region leave in it. -/
theorem run_main : θ_run defs (onTc (τ := τ) (main (F := F))) (s₀ m ρ) (Pipeline.FramePost cfgs (dats m) 0 (W m (dats m))) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame claim: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (run_main m ρ)

end Cert.KernelIdeal.Region

end
-- ==== Proof.ReferenceRun.lean ====
/-
  The reference's run. Its @main is a straight line of 189 host operations with no kernel: every weakly fair execution
  ends, and each buffer then holds the operations' results folded, in program order, over the launch contents. No operation
  writes an argument array, so the seven arguments end as launched.
-/
import proofs.«143814_j45870250721282_1_alg».proof.Proof.Gen.ReferenceIdeal
import Idealize.ShloMosaic.Lib.StableHlo.Run

set_option maxRecDepth 16384

noncomputable section

namespace Cert.ReferenceIdeal.HostRun

open Cert.ReferenceIdeal Cert.ReferenceIdeal.Gen Idealize.ShloMosaic Idealize.ShloMosaic.TcCoe Idealize.SL.Sem Idealize.ShloMosaic.StableHlo

variable {F : FTy → Type} [FloatOps F]

/-- @main's 189 operations, in order (a called function's operations stand in its call's place, spelt `TRef.…`). -/
abbrev ops : List (HloOp τ sig (Elt F)) :=
  [ reshape main_arg1 main_v0 rfl shapeCasts_S1x240x4_S240x4,
    TRef.binary (TRef.of (T := ⟨S240x4, .f32⟩) main_v0) (TRef.of (T := ⟨S240x4, .f32⟩) main_v0) (TRef.of (T := ⟨S240x4, .f32⟩) main_call0_v0) mulf,
    TRef.nullary (TRef.of (T := ⟨S_, .f32⟩) main_call0_cst) (constant S_ .f32 0x00000000#32),
    TRef.binary (TRef.of (T := ⟨S240x4, .f32⟩) main_call0_v0) (TRef.of (T := ⟨S_, .f32⟩) main_call0_cst) (TRef.of (T := ⟨S240, .f32⟩) main_call0_v1) (fun x v => Host.reduceAdd x v reducesTo_S240x4_S240_d1 h_S_),
    TRef.unary (TRef.of (T := ⟨S240, .f32⟩) main_call0_v1) (TRef.of (T := ⟨S240x1, .f32⟩) main_call0_v2) (broadcastInDim S240x1 ![0] bcast_S240_S240x1_0),
    TRef.unary (TRef.of (T := ⟨S240x1, .f32⟩) main_call0_v2) (TRef.of (T := ⟨S240x1, .f32⟩) main_v1) Host.sqrt,
    unary main_v1 main_v2 (broadcastInDim S240x4 ![0, 1] bcast_S240x1_S240x4_0_1 : (⟨S240x1, .f32⟩ : BufTy).Contents (Elt F) → (⟨S240x4, .f32⟩ : BufTy).Contents (Elt F)),
    binary main_v0 main_v2 main_v3 (Host.divf : (⟨S240x4, .f32⟩ : BufTy).Contents (Elt F) → (⟨S240x4, .f32⟩ : BufTy).Contents (Elt F) → (⟨S240x4, .f32⟩ : BufTy).Contents (Elt F)),
    unary main_arg5 main_v4 ((extractStridedSlice S1x1x240x4 ![0, 0, 0, 3] · slices_S1x1x240x7_S1x1x240x4_0_0_0_3) : (⟨S1x1x240x7, .f32⟩ : BufTy).Contents (Elt F) → (⟨S1x1x240x4, .f32⟩ : BufTy).Contents (Elt F)),
    reshape main_v4 main_v5 rfl shapeCasts_S1x1x240x4_S240x4,
    TRef.binary (TRef.of (T := ⟨S240x4, .f32⟩) main_v5) (TRef.of (T := ⟨S240x4, .f32⟩) main_v5) (TRef.of (T := ⟨S240x4, .f32⟩) main_call1_v0) mulf,
    TRef.nullary (TRef.of (T := ⟨S_, .f32⟩) main_call1_cst) (constant S_ .f32 0x00000000#32),
    TRef.binary (TRef.of (T := ⟨S240x4, .f32⟩) main_call1_v0) (TRef.of (T := ⟨S_, .f32⟩) main_call1_cst) (TRef.of (T := ⟨S240, .f32⟩) main_call1_v1) (fun x v => Host.reduceAdd x v reducesTo_S240x4_S240_d1 h_S_),
    TRef.unary (TRef.of (T := ⟨S240, .f32⟩) main_call1_v1) (TRef.of (T := ⟨S240x1, .f32⟩) main_call1_v2) (broadcastInDim S240x1 ![0] bcast_S240_S240x1_0),
    TRef.unary (TRef.of (T := ⟨S240x1, .f32⟩) main_call1_v2) (TRef.of (T := ⟨S240x1, .f32⟩) main_v6) Host.sqrt,
    unary main_v6 main_v7 (broadcastInDim S240x4 ![0, 1] bcast_S240x1_S240x4_0_1 : (⟨S240x1, .f32⟩ : BufTy).Contents (Elt F) → (⟨S240x4, .f32⟩ : BufTy).Contents (Elt F)),
    binary main_v5 main_v7 main_v8 (Host.divf : (⟨S240x4, .f32⟩ : BufTy).Contents (Elt F) → (⟨S240x4, .f32⟩ : BufTy).Contents (Elt F) → (⟨S240x4, .f32⟩ : BufTy).Contents (Elt F)),
    unary main_v8 main_v9 ((extractStridedSlice S240x1 ![0, 0] · slices_S240x4_S240x1_0_0) : (⟨S240x4, .f32⟩ : BufTy).Contents (Elt F) → (⟨S240x1, .f32⟩ : BufTy).Contents (Elt F)),
    reshape main_v9 main_v10 rfl shapeCasts_S240x1_S240,
    unary main_v8 main_v11 ((extractStridedSlice S240x1 ![0, 1] · slices_S240x4_S240x1_0_1) : (⟨S240x4, .f32⟩ : BufTy).Contents (Elt F) → (⟨S240x1, .f32⟩ : BufTy).Contents (Elt F)),
    reshape main_v11 main_v12 rfl shapeCasts_S240x1_S240,
    unary main_v8 main_v13 ((extractStridedSlice S240x1 ![0, 2] · slices_S240x4_S240x1_0_2) : (⟨S240x4, .f32⟩ : BufTy).Contents (Elt F) → (⟨S240x1, .f32⟩ : BufTy).Contents (Elt F)),
    reshape main_v13 main_v14 rfl shapeCasts_S240x1_S240,
    unary main_v8 main_v15 ((extractStridedSlice S240x1 ![0, 3] · slices_S240x4_S240x1_0_3) : (⟨S240x4, .f32⟩ : BufTy).Contents (Elt F) → (⟨S240x1, .f32⟩ : BufTy).Contents (Elt F)),
    reshape main_v15 main_v16 rfl shapeCasts_S240x1_S240,
    unary main_v3 main_v17 ((extractStridedSlice S240x1 ![0, 0] · slices_S240x4_S240x1_0_0) : (⟨S240x4, .f32⟩ : BufTy).Contents (Elt F) → (⟨S240x1, .f32⟩ : BufTy).Contents (Elt F)),
    reshape main_v17 main_v18 rfl shapeCasts_S240x1_S240,
    unary main_v3 main_v19 ((extractStridedSlice S240x1 ![0, 1] · slices_S240x4_S240x1_0_1) : (⟨S240x4, .f32⟩ : BufTy).Contents (Elt F) → (⟨S240x1, .f32⟩ : BufTy).Contents (Elt F)),
    reshape main_v19 main_v20 rfl shapeCasts_S240x1_S240,
    unary main_v3 main_v21 ((extractStridedSlice S240x1 ![0, 2] · slices_S240x4_S240x1_0_2) : (⟨S240x4, .f32⟩ : BufTy).Contents (Elt F) → (⟨S240x1, .f32⟩ : BufTy).Contents (Elt F)),
    reshape main_v21 main_v22 rfl shapeCasts_S240x1_S240,
    unary main_v3 main_v23 ((extractStridedSlice S240x1 ![0, 3] · slices_S240x4_S240x1_0_3) : (⟨S240x4, .f32⟩ : BufTy).Contents (Elt F) → (⟨S240x1, .f32⟩ : BufTy).Contents (Elt F)),
    reshape main_v23 main_v24 rfl shapeCasts_S240x1_S240,
    unary main_v20 main_v25 (Host.negf : (⟨S240, .f32⟩ : BufTy).Contents (Elt F) → (⟨S240, .f32⟩ : BufTy).Contents (Elt F)),
    binary main_v25 main_v12 main_v26 (mulf : (⟨S240, .f32⟩ : BufTy).Contents (Elt F) → (⟨S240, .f32⟩ : BufTy).Contents (Elt F) → (⟨S240, .f32⟩ : BufTy).Contents (Elt F)),
    binary main_v22 main_v14 main_v27 (mulf : (⟨S240, .f32⟩ : BufTy).Contents (Elt F) → (⟨S240, .f32⟩ : BufTy).Contents (Elt F) → (⟨S240, .f32⟩ : BufTy).Contents (Elt F)),
    binary main_v26 main_v27 main_v28 (subf : (⟨S240, .f32⟩ : BufTy).Contents (Elt F) → (⟨S240, .f32⟩ : BufTy).Contents (Elt F) → (⟨S240, .f32⟩ : BufTy).Contents (Elt F)),
    binary main_v24 main_v16 main_v29 (mulf : (⟨S240, .f32⟩ : BufTy).Contents (Elt F) → (⟨S240, .f32⟩ : BufTy).Contents (Elt F) → (⟨S240, .f32⟩ : BufTy).Contents (Elt F)),
    binary main_v28 main_v29 main_v30 (subf : (⟨S240, .f32⟩ : BufTy).Contents (Elt F) → (⟨S240, .f32⟩ : BufTy).Contents (Elt F) → (⟨S240, .f32⟩ : BufTy).Contents (Elt F)),
    binary main_v18 main_v10 main_v31 (mulf : (⟨S240, .f32⟩ : BufTy).Contents (Elt F) → (⟨S240, .f32⟩ : BufTy).Contents (Elt F) → (⟨S240, .f32⟩ : BufTy).Contents (Elt F)),
    binary main_v30 main_v31 main_v32 (addf : (⟨S240, .f32⟩ : BufTy).Contents (Elt F) → (⟨S240, .f32⟩ : BufTy).Contents (Elt F) → (⟨S240, .f32⟩ : BufTy).Contents (Elt F)),
    binary main_v20 main_v10 main_v33 (mulf : (⟨S240, .f32⟩ : BufTy).Contents (Elt F) → (⟨S240, .f32⟩ : BufTy).Contents (Elt F) → (⟨S240, .f32⟩ : BufTy).Contents (Elt F)),
    binary main_v22 main_v16 main_v34 (mulf : (⟨S240, .f32⟩ : BufTy).Contents (Elt F) → (⟨S240, .f32⟩ : BufTy).Contents (Elt F) → (⟨S240, .f32⟩ : BufTy).Contents (Elt F)),
    binary main_v33 main_v34 main_v35 (addf : (⟨S240, .f32⟩ : BufTy).Contents (Elt F) → (⟨S240, .f32⟩ : BufTy).Contents (Elt F) → (⟨S240, .f32⟩ : BufTy).Contents (Elt F)),
    binary main_v24 main_v14 main_v36 (mulf : (⟨S240, .f32⟩ : BufTy).Contents (Elt F) → (⟨S240, .f32⟩ : BufTy).Contents (Elt F) → (⟨S240, .f32⟩ : BufTy).Contents (Elt F)),
    binary main_v35 main_v36 main_v37 (subf : (⟨S240, .f32⟩ : BufTy).Contents (Elt F) → (⟨S240, .f32⟩ : BufTy).Contents (Elt F) → (⟨S240, .f32⟩ : BufTy).Contents (Elt F)),
    binary main_v18 main_v12 main_v38 (mulf : (⟨S240, .f32⟩ : BufTy).Contents (Elt F) → (⟨S240, .f32⟩ : BufTy).Contents (Elt F) → (⟨S240, .f32⟩ : BufTy).Contents (Elt F)),
    binary main_v37 main_v38 main_v39 (addf : (⟨S240, .f32⟩ : BufTy).Contents (Elt F) → (⟨S240, .f32⟩ : BufTy).Contents (Elt F) → (⟨S240, .f32⟩ : BufTy).Contents (Elt F)),
    unary main_v20 main_v40 (Host.negf : (⟨S240, .f32⟩ : BufTy).Contents (Elt F) → (⟨S240, .f32⟩ : BufTy).Contents (Elt F)),
    binary main_v40 main_v16 main_v41 (mulf : (⟨S240, .f32⟩ : BufTy).Contents (Elt F) → (⟨S240, .f32⟩ : BufTy).Contents (Elt F) → (⟨S240, .f32⟩ : BufTy).Contents (Elt F)),
    binary main_v22 main_v10 main_v42 (mulf : (⟨S240, .f32⟩ : BufTy).Contents (Elt F) → (⟨S240, .f32⟩ : BufTy).Contents (Elt F) → (⟨S240, .f32⟩ : BufTy).Contents (Elt F)),
    binary main_v41 main_v42 main_v43 (addf : (⟨S240, .f32⟩ : BufTy).Contents (Elt F) → (⟨S240, .f32⟩ : BufTy).Contents (Elt F) → (⟨S240, .f32⟩ : BufTy).Contents (Elt F)),
    binary main_v24 main_v12 main_v44 (mulf : (⟨S240, .f32⟩ : BufTy).Contents (Elt F) → (⟨S240, .f32⟩ : BufTy).Contents (Elt F) → (⟨S240, .f32⟩ : BufTy).Contents (Elt F)),
    binary main_v43 main_v44 main_v45 (addf : (⟨S240, .f32⟩ : BufTy).Contents (Elt F) → (⟨S240, .f32⟩ : BufTy).Contents (Elt F) → (⟨S240, .f32⟩ : BufTy).Contents (Elt F)),
    binary main_v18 main_v14 main_v46 (mulf : (⟨S240, .f32⟩ : BufTy).Contents (Elt F) → (⟨S240, .f32⟩ : BufTy).Contents (Elt F) → (⟨S240, .f32⟩ : BufTy).Contents (Elt F)),
    binary main_v45 main_v46 main_v47 (addf : (⟨S240, .f32⟩ : BufTy).Contents (Elt F) → (⟨S240, .f32⟩ : BufTy).Contents (Elt F) → (⟨S240, .f32⟩ : BufTy).Contents (Elt F)),
    binary main_v20 main_v14 main_v48 (mulf : (⟨S240, .f32⟩ : BufTy).Contents (Elt F) → (⟨S240, .f32⟩ : BufTy).Contents (Elt F) → (⟨S240, .f32⟩ : BufTy).Contents (Elt F)),
    binary main_v22 main_v12 main_v49 (mulf : (⟨S240, .f32⟩ : BufTy).Contents (Elt F) → (⟨S240, .f32⟩ : BufTy).Contents (Elt F) → (⟨S240, .f32⟩ : BufTy).Contents (Elt F)),
    binary main_v48 main_v49 main_v50 (subf : (⟨S240, .f32⟩ : BufTy).Contents (Elt F) → (⟨S240, .f32⟩ : BufTy).Contents (Elt F) → (⟨S240, .f32⟩ : BufTy).Contents (Elt F)),
    binary main_v24 main_v10 main_v51 (mulf : (⟨S240, .f32⟩ : BufTy).Contents (Elt F) → (⟨S240, .f32⟩ : BufTy).Contents (Elt F) → (⟨S240, .f32⟩ : BufTy).Contents (Elt F)),
    binary main_v50 main_v51 main_v52 (addf : (⟨S240, .f32⟩ : BufTy).Contents (Elt F) → (⟨S240, .f32⟩ : BufTy).Contents (Elt F) → (⟨S240, .f32⟩ : BufTy).Contents (Elt F)),
    binary main_v18 main_v16 main_v53 (mulf : (⟨S240, .f32⟩ : BufTy).Contents (Elt F) → (⟨S240, .f32⟩ : BufTy).Contents (Elt F) → (⟨S240, .f32⟩ : BufTy).Contents (Elt F)),
    binary main_v52 main_v53 main_v54 (addf : (⟨S240, .f32⟩ : BufTy).Contents (Elt F) → (⟨S240, .f32⟩ : BufTy).Contents (Elt F) → (⟨S240, .f32⟩ : BufTy).Contents (Elt F)),
    unary main_v32 main_v55 (broadcastInDim S240x1 ![0] bcast_S240_S240x1_0 : (⟨S240, .f32⟩ : BufTy).Contents (Elt F) → (⟨S240x1, .f32⟩ : BufTy).Contents (Elt F)),
    unary main_v39 main_v56 (broadcastInDim S240x1 ![0] bcast_S240_S240x1_0 : (⟨S240, .f32⟩ : BufTy).Contents (Elt F) → (⟨S240x1, .f32⟩ : BufTy).Contents (Elt F)),
    unary main_v47 main_v57 (broadcastInDim S240x1 ![0] bcast_S240_S240x1_0 : (⟨S240, .f32⟩ : BufTy).Contents (Elt F) → (⟨S240x1, .f32⟩ : BufTy).Contents (Elt F)),
    unary main_v54 main_v58 (broadcastInDim S240x1 ![0] bcast_S240_S240x1_0 : (⟨S240, .f32⟩ : BufTy).Contents (Elt F) → (⟨S240x1, .f32⟩ : BufTy).Contents (Elt F)),
    nary ![main_v55, main_v56, main_v57, main_v58] main_v59 (fun u => concatenate S240x4 1 [⟨S240x1, u 0⟩, ⟨S240x1, u 1⟩, ⟨S240x1, u 2⟩, ⟨S240x1, u 3⟩] concatenates_S240x1_S240x1_S240x1_S240x1_S240x4_d1),
    unary main_v3 main_v60 ((extractStridedSlice S1x4 ![0, 0] · slices_S240x4_S1x4_0_0) : (⟨S240x4, .f32⟩ : BufTy).Contents (Elt F) → (⟨S1x4, .f32⟩ : BufTy).Contents (Elt F)),
    unary main_v59 main_v61 ((extractStridedSlice S239x4 ![1, 0] · slices_S240x4_S239x4_1_0) : (⟨S240x4, .f32⟩ : BufTy).Contents (Elt F) → (⟨S239x4, .f32⟩ : BufTy).Contents (Elt F)),
    binary main_v60 main_v61 main_v62 ((fun a b => concatenate S240x4 0 [⟨S1x4, a⟩, ⟨S239x4, b⟩] concatenates_S1x4_S239x4_S240x4_d0) : (⟨S1x4, .f32⟩ : BufTy).Contents (Elt F) → (⟨S239x4, .f32⟩ : BufTy).Contents (Elt F) → (⟨S240x4, .f32⟩ : BufTy).Contents (Elt F)),
    unary main_arg0 main_v63 ((extractStridedSlice S1x1x1x3 ![0, 0, 0, 0] · slices_S1x1x240x3_S1x1x1x3_0_0_0_0) : (⟨S1x1x240x3, .f32⟩ : BufTy).Contents (Elt F) → (⟨S1x1x1x3, .f32⟩ : BufTy).Contents (Elt F)),
    unary main_arg0 main_v64 ((extractStridedSlice S1x1x239x3 ![0, 0, 1, 0] · slices_S1x1x240x3_S1x1x239x3_0_0_1_0) : (⟨S1x1x240x3, .f32⟩ : BufTy).Contents (Elt F) → (⟨S1x1x239x3, .f32⟩ : BufTy).Contents (Elt F)),
    unary main_arg5 main_v65 ((extractStridedSlice S1x1x239x3 ![0, 0, 1, 0] · slices_S1x1x240x7_S1x1x239x3_0_0_1_0) : (⟨S1x1x240x7, .f32⟩ : BufTy).Contents (Elt F) → (⟨S1x1x239x3, .f32⟩ : BufTy).Contents (Elt F)),
    binary main_v64 main_v65 main_v66 (addf : (⟨S1x1x239x3, .f32⟩ : BufTy).Contents (Elt F) → (⟨S1x1x239x3, .f32⟩ : BufTy).Contents (Elt F) → (⟨S1x1x239x3, .f32⟩ : BufTy).Contents (Elt F)),
    binary main_v63 main_v66 main_v67 ((fun a b => concatenate S1x1x240x3 2 [⟨S1x1x1x3, a⟩, ⟨S1x1x239x3, b⟩] concatenates_S1x1x1x3_S1x1x239x3_S1x1x240x3_d2) : (⟨S1x1x1x3, .f32⟩ : BufTy).Contents (Elt F) → (⟨S1x1x239x3, .f32⟩ : BufTy).Contents (Elt F) → (⟨S1x1x240x3, .f32⟩ : BufTy).Contents (Elt F)),
    unary main_arg6 main_v68 ((extractStridedSlice S1 ![0] · slices_S240_S1_0) : (⟨S240, .i32⟩ : BufTy).Contents (Elt F) → (⟨S1, .i32⟩ : BufTy).Contents (Elt F)),
    unary main_arg6 main_v69 ((extractStridedSlice S239 ![0] · slices_S240_S239_0) : (⟨S240, .i32⟩ : BufTy).Contents (Elt F) → (⟨S239, .i32⟩ : BufTy).Contents (Elt F)),
    binary main_v68 main_v69 main_v70 ((fun a b => concatenate S240 0 [⟨S1, a⟩, ⟨S239, b⟩] concatenates_S1_S239_S240_d0) : (⟨S1, .i32⟩ : BufTy).Contents (Elt F) → (⟨S239, .i32⟩ : BufTy).Contents (Elt F) → (⟨S240, .i32⟩ : BufTy).Contents (Elt F)),
    binary main_arg6 main_v70 main_v71 (subi : (⟨S240, .i32⟩ : BufTy).Contents (Elt F) → (⟨S240, .i32⟩ : BufTy).Contents (Elt F) → (⟨S240, .i32⟩ : BufTy).Contents (Elt F)),
    unary main_v71 main_v72 (sitofp .f32 : (⟨S240, .i32⟩ : BufTy).Contents (Elt F) → (⟨S240, .f32⟩ : BufTy).Contents (Elt F)),
    reshape main_v67 main_v73 rfl shapeCasts_S1x1x240x3_S240x3,
    nullary main_c (constantI S_ 32 0#32),
    unary main_c main_v74 (broadcastInDim S240 ![] bcast_S_S240 : (⟨S_, .i32⟩ : BufTy).Contents (Elt F) → (⟨S240, .i32⟩ : BufTy).Contents (Elt F)),
    binary main_arg6 main_v74 main_v75 (cmpi .slt : (⟨S240, .i32⟩ : BufTy).Contents (Elt F) → (⟨S240, .i32⟩ : BufTy).Contents (Elt F) → (⟨S240, .i1⟩ : BufTy).Contents (Elt F)),
    nullary main_c_0 (constantI S_ 32 240#32),
    unary main_c_0 main_v76 (broadcastInDim S240 ![] bcast_S_S240 : (⟨S_, .i32⟩ : BufTy).Contents (Elt F) → (⟨S240, .i32⟩ : BufTy).Contents (Elt F)),
    binary main_arg6 main_v76 main_v77 (addi : (⟨S240, .i32⟩ : BufTy).Contents (Elt F) → (⟨S240, .i32⟩ : BufTy).Contents (Elt F) → (⟨S240, .i32⟩ : BufTy).Contents (Elt F)),
    ternary main_v75 main_v77 main_arg6 main_v78 (select : (⟨S240, .i1⟩ : BufTy).Contents (Elt F) → (⟨S240, .i32⟩ : BufTy).Contents (Elt F) → (⟨S240, .i32⟩ : BufTy).Contents (Elt F) → (⟨S240, .i32⟩ : BufTy).Contents (Elt F)),
    unary main_v78 main_v79 (broadcastInDim S240x1 ![0] bcast_S240_S240x1_0 : (⟨S240, .i32⟩ : BufTy).Contents (Elt F) → (⟨S240x1, .i32⟩ : BufTy).Contents (Elt F)),
    binary main_v73 main_v79 main_v80 ((fun x i => Host.gather gather_S240x3_S240x1_S240x3_1_0_n_n_0_1_13 x i) : (⟨S240x3, .f32⟩ : BufTy).Contents (Elt F) → (⟨S240x1, .i32⟩ : BufTy).Contents (Elt F) → (⟨S240x3, .f32⟩ : BufTy).Contents (Elt F)),
    unary main_v80 main_v81 ((extractStridedSlice S239x3 ![1, 0] · slices_S240x3_S239x3_1_0) : (⟨S240x3, .f32⟩ : BufTy).Contents (Elt F) → (⟨S239x3, .f32⟩ : BufTy).Contents (Elt F)),
    unary main_v80 main_v82 ((extractStridedSlice S239x3 ![0, 0] · slices_S240x3_S239x3_0_0) : (⟨S240x3, .f32⟩ : BufTy).Contents (Elt F) → (⟨S239x3, .f32⟩ : BufTy).Contents (Elt F)),
    binary main_v81 main_v82 main_v83 (subf : (⟨S239x3, .f32⟩ : BufTy).Contents (Elt F) → (⟨S239x3, .f32⟩ : BufTy).Contents (Elt F) → (⟨S239x3, .f32⟩ : BufTy).Contents (Elt F)),
    unary main_v83 main_v84 (Host.absf : (⟨S239x3, .f32⟩ : BufTy).Contents (Elt F) → (⟨S239x3, .f32⟩ : BufTy).Contents (Elt F)),
    nullary main_cst (constant S_ .f32 0x3E4CCCCD#32),
    unary main_cst main_v85 (broadcastInDim S239x3 ![] bcast_S_S239x3 : (⟨S_, .f32⟩ : BufTy).Contents (Elt F) → (⟨S239x3, .f32⟩ : BufTy).Contents (Elt F)),
    binary main_v84 main_v85 main_v86 (cmpf .olt : (⟨S239x3, .f32⟩ : BufTy).Contents (Elt F) → (⟨S239x3, .f32⟩ : BufTy).Contents (Elt F) → (⟨S239x3, .i1⟩ : BufTy).Contents (Elt F)),
    nullary main_cst_1 (constant S_ .f32 0x00000000#32),
    unary main_cst_1 main_v87 (broadcastInDim S239x3 ![] bcast_S_S239x3 : (⟨S_, .f32⟩ : BufTy).Contents (Elt F) → (⟨S239x3, .f32⟩ : BufTy).Contents (Elt F)),
    TRef.ternary (TRef.of (T := ⟨S239x3, .i1⟩) main_v86) (TRef.of (T := ⟨S239x3, .f32⟩) main_v87) (TRef.of (T := ⟨S239x3, .f32⟩) main_v84) (TRef.of (T := ⟨S239x3, .f32⟩) main_v88) select,
    unary main_v88 main_v89 ((extractStridedSlice S1x3 ![0, 0] · slices_S239x3_S1x3_0_0) : (⟨S239x3, .f32⟩ : BufTy).Contents (Elt F) → (⟨S1x3, .f32⟩ : BufTy).Contents (Elt F)),
    nullary main_cst_2 (constant S_ .f32 0x00000000#32),
    unary main_cst_2 main_v90 (broadcastInDim S1x3 ![] bcast_S_S1x3 : (⟨S_, .f32⟩ : BufTy).Contents (Elt F) → (⟨S1x3, .f32⟩ : BufTy).Contents (Elt F)),
    binary main_v90 main_v88 main_v91 ((fun a b => concatenate S240x3 0 [⟨S1x3, a⟩, ⟨S239x3, b⟩] concatenates_S1x3_S239x3_S240x3_d0) : (⟨S1x3, .f32⟩ : BufTy).Contents (Elt F) → (⟨S239x3, .f32⟩ : BufTy).Contents (Elt F) → (⟨S240x3, .f32⟩ : BufTy).Contents (Elt F)),
    TRef.binary (TRef.of (T := ⟨S240x3, .f32⟩) main_v91) (TRef.of (T := ⟨S240x3, .f32⟩) main_v91) (TRef.of (T := ⟨S240x3, .f32⟩) main_call3_v0) mulf,
    TRef.nullary (TRef.of (T := ⟨S_, .f32⟩) main_call3_cst) (constant S_ .f32 0x00000000#32),
    TRef.binary (TRef.of (T := ⟨S240x3, .f32⟩) main_call3_v0) (TRef.of (T := ⟨S_, .f32⟩) main_call3_cst) (TRef.of (T := ⟨S240, .f32⟩) main_call3_v1) (fun x v => Host.reduceAdd x v reducesTo_S240x3_S240_d1 h_S_),
    TRef.unary (TRef.of (T := ⟨S240, .f32⟩) main_call3_v1) (TRef.of (T := ⟨S240, .f32⟩) main_v92) Host.sqrt,
    binary main_v72 main_v92 main_v93 (mulf : (⟨S240, .f32⟩ : BufTy).Contents (Elt F) → (⟨S240, .f32⟩ : BufTy).Contents (Elt F) → (⟨S240, .f32⟩ : BufTy).Contents (Elt F)),
    unary main_v62 main_v94 ((extractStridedSlice S1x4 ![239, 0] · slices_S240x4_S1x4_239_0) : (⟨S240x4, .f32⟩ : BufTy).Contents (Elt F) → (⟨S1x4, .f32⟩ : BufTy).Contents (Elt F)),
    reshape main_v94 main_v95 rfl shapeCasts_S1x4_S4,
    binary main_v95 main_v95 main_v96 (mulf : (⟨S4, .f32⟩ : BufTy).Contents (Elt F) → (⟨S4, .f32⟩ : BufTy).Contents (Elt F) → (⟨S4, .f32⟩ : BufTy).Contents (Elt F)),
    nullary main_cst_3 (constant S_ .f32 0x00000000#32),
    binary main_v96 main_cst_3 main_v97 ((fun x v => Host.reduceAdd x v reducesTo_S4_S_d0 h_S_) : (⟨S4, .f32⟩ : BufTy).Contents (Elt F) → (⟨S_, .f32⟩ : BufTy).Contents (Elt F) → (⟨S_, .f32⟩ : BufTy).Contents (Elt F)),
    binary main_v97 main_v97 main_v98 (mulf : (⟨S_, .f32⟩ : BufTy).Contents (Elt F) → (⟨S_, .f32⟩ : BufTy).Contents (Elt F) → (⟨S_, .f32⟩ : BufTy).Contents (Elt F)),
    nullary main_cst_4 (constant S_ .f32 0x3F800000#32),
    binary main_cst_4 main_v98 main_v99 (subf : (⟨S_, .f32⟩ : BufTy).Contents (Elt F) → (⟨S_, .f32⟩ : BufTy).Contents (Elt F) → (⟨S_, .f32⟩ : BufTy).Contents (Elt F)),
    unary main_arg6 main_v100 ((extractStridedSlice S239 ![1] · slices_S240_S239_1) : (⟨S240, .i32⟩ : BufTy).Contents (Elt F) → (⟨S239, .i32⟩ : BufTy).Contents (Elt F)),
    nullary main_c_5 (constantI S_ 32 1#32),
    unary main_c_5 main_v101 (broadcastInDim S239 ![] bcast_S_S239 : (⟨S_, .i32⟩ : BufTy).Contents (Elt F) → (⟨S239, .i32⟩ : BufTy).Contents (Elt F)),
    binary main_v100 main_v101 main_v102 (subi : (⟨S239, .i32⟩ : BufTy).Contents (Elt F) → (⟨S239, .i32⟩ : BufTy).Contents (Elt F) → (⟨S239, .i32⟩ : BufTy).Contents (Elt F)),
    nullary main_c_6 (constantI S_ 32 0#32),
    unary main_c_6 main_v103 (broadcastInDim S239 ![] bcast_S_S239 : (⟨S_, .i32⟩ : BufTy).Contents (Elt F) → (⟨S239, .i32⟩ : BufTy).Contents (Elt F)),
    binary main_v102 main_v103 main_v104 (cmpi .slt : (⟨S239, .i32⟩ : BufTy).Contents (Elt F) → (⟨S239, .i32⟩ : BufTy).Contents (Elt F) → (⟨S239, .i1⟩ : BufTy).Contents (Elt F)),
    nullary main_c_7 (constantI S_ 32 240#32),
    unary main_c_7 main_v105 (broadcastInDim S239 ![] bcast_S_S239 : (⟨S_, .i32⟩ : BufTy).Contents (Elt F) → (⟨S239, .i32⟩ : BufTy).Contents (Elt F)),
    binary main_v102 main_v105 main_v106 (addi : (⟨S239, .i32⟩ : BufTy).Contents (Elt F) → (⟨S239, .i32⟩ : BufTy).Contents (Elt F) → (⟨S239, .i32⟩ : BufTy).Contents (Elt F)),
    ternary main_v104 main_v106 main_v102 main_v107 (select : (⟨S239, .i1⟩ : BufTy).Contents (Elt F) → (⟨S239, .i32⟩ : BufTy).Contents (Elt F) → (⟨S239, .i32⟩ : BufTy).Contents (Elt F) → (⟨S239, .i32⟩ : BufTy).Contents (Elt F)),
    unary main_v107 main_v108 (broadcastInDim S239x1 ![0] bcast_S239_S239x1_0 : (⟨S239, .i32⟩ : BufTy).Contents (Elt F) → (⟨S239x1, .i32⟩ : BufTy).Contents (Elt F)),
    binary main_v62 main_v108 main_v109 ((fun x i => Host.gather gather_S240x4_S239x1_S239x4_1_0_n_n_0_1_14 x i) : (⟨S240x4, .f32⟩ : BufTy).Contents (Elt F) → (⟨S239x1, .i32⟩ : BufTy).Contents (Elt F) → (⟨S239x4, .f32⟩ : BufTy).Contents (Elt F)),
    unary main_arg6 main_v110 ((extractStridedSlice S239 ![1] · slices_S240_S239_1) : (⟨S240, .i32⟩ : BufTy).Contents (Elt F) → (⟨S239, .i32⟩ : BufTy).Contents (Elt F)),
    nullary main_c_8 (constantI S_ 32 0#32),
    unary main_c_8 main_v111 (broadcastInDim S239 ![] bcast_S_S239 : (⟨S_, .i32⟩ : BufTy).Contents (Elt F) → (⟨S239, .i32⟩ : BufTy).Contents (Elt F)),
    binary main_v110 main_v111 main_v112 (cmpi .slt : (⟨S239, .i32⟩ : BufTy).Contents (Elt F) → (⟨S239, .i32⟩ : BufTy).Contents (Elt F) → (⟨S239, .i1⟩ : BufTy).Contents (Elt F)),
    nullary main_c_9 (constantI S_ 32 240#32),
    unary main_c_9 main_v113 (broadcastInDim S239 ![] bcast_S_S239 : (⟨S_, .i32⟩ : BufTy).Contents (Elt F) → (⟨S239, .i32⟩ : BufTy).Contents (Elt F)),
    binary main_v110 main_v113 main_v114 (addi : (⟨S239, .i32⟩ : BufTy).Contents (Elt F) → (⟨S239, .i32⟩ : BufTy).Contents (Elt F) → (⟨S239, .i32⟩ : BufTy).Contents (Elt F)),
    ternary main_v112 main_v114 main_v110 main_v115 (select : (⟨S239, .i1⟩ : BufTy).Contents (Elt F) → (⟨S239, .i32⟩ : BufTy).Contents (Elt F) → (⟨S239, .i32⟩ : BufTy).Contents (Elt F) → (⟨S239, .i32⟩ : BufTy).Contents (Elt F)),
    unary main_v115 main_v116 (broadcastInDim S239x1 ![0] bcast_S239_S239x1_0 : (⟨S239, .i32⟩ : BufTy).Contents (Elt F) → (⟨S239x1, .i32⟩ : BufTy).Contents (Elt F)),
    binary main_v62 main_v116 main_v117 ((fun x i => Host.gather gather_S240x4_S239x1_S239x4_1_0_n_n_0_1_14 x i) : (⟨S240x4, .f32⟩ : BufTy).Contents (Elt F) → (⟨S239x1, .i32⟩ : BufTy).Contents (Elt F) → (⟨S239x4, .f32⟩ : BufTy).Contents (Elt F)),
    binary main_v109 main_v117 main_v118 (mulf : (⟨S239x4, .f32⟩ : BufTy).Contents (Elt F) → (⟨S239x4, .f32⟩ : BufTy).Contents (Elt F) → (⟨S239x4, .f32⟩ : BufTy).Contents (Elt F)),
    nullary main_cst_10 (constant S_ .f32 0x00000000#32),
    binary main_v118 main_cst_10 main_v119 ((fun x v => Host.reduceAdd x v reducesTo_S239x4_S239_d1 h_S_) : (⟨S239x4, .f32⟩ : BufTy).Contents (Elt F) → (⟨S_, .f32⟩ : BufTy).Contents (Elt F) → (⟨S239, .f32⟩ : BufTy).Contents (Elt F)),
    binary main_v119 main_v119 main_v120 (mulf : (⟨S239, .f32⟩ : BufTy).Contents (Elt F) → (⟨S239, .f32⟩ : BufTy).Contents (Elt F) → (⟨S239, .f32⟩ : BufTy).Contents (Elt F)),
    nullary main_cst_11 (constant S_ .f32 0x3F800000#32),
    unary main_cst_11 main_v121 (broadcastInDim S239 ![] bcast_S_S239 : (⟨S_, .f32⟩ : BufTy).Contents (Elt F) → (⟨S239, .f32⟩ : BufTy).Contents (Elt F)),
    binary main_v121 main_v120 main_v122 (subf : (⟨S239, .f32⟩ : BufTy).Contents (Elt F) → (⟨S239, .f32⟩ : BufTy).Contents (Elt F) → (⟨S239, .f32⟩ : BufTy).Contents (Elt F)),
    unary main_v99 main_v123 (broadcastInDim S1 ![] bcast_S_S1 : (⟨S_, .f32⟩ : BufTy).Contents (Elt F) → (⟨S1, .f32⟩ : BufTy).Contents (Elt F)),
    binary main_v123 main_v122 main_v124 ((fun a b => concatenate S240 0 [⟨S1, a⟩, ⟨S239, b⟩] concatenates_S1_S239_S240_d0) : (⟨S1, .f32⟩ : BufTy).Contents (Elt F) → (⟨S239, .f32⟩ : BufTy).Contents (Elt F) → (⟨S240, .f32⟩ : BufTy).Contents (Elt F)),
    binary main_v72 main_v124 main_v125 (mulf : (⟨S240, .f32⟩ : BufTy).Contents (Elt F) → (⟨S240, .f32⟩ : BufTy).Contents (Elt F) → (⟨S240, .f32⟩ : BufTy).Contents (Elt F)),
    binary main_arg4 main_arg2 main_v126 (addf : (⟨S1x100000x3, .f32⟩ : BufTy).Contents (Elt F) → (⟨S1x100000x3, .f32⟩ : BufTy).Contents (Elt F) → (⟨S1x100000x3, .f32⟩ : BufTy).Contents (Elt F)),
    nullary main_cst_12 (constant S_ .f32 0xFF800000#32),
    binary main_v126 main_cst_12 main_v127 ((fun x v => Host.reduce FloatOps.maximumf x v reducesTo_S1x100000x3_S1x3_d1 h_S_) : (⟨S1x100000x3, .f32⟩ : BufTy).Contents (Elt F) → (⟨S_, .f32⟩ : BufTy).Contents (Elt F) → (⟨S1x3, .f32⟩ : BufTy).Contents (Elt F)),
    unary main_v127 main_v128 (broadcastInDim S1x1x3 ![0, 2] bcast_S1x3_S1x1x3_0_2 : (⟨S1x3, .f32⟩ : BufTy).Contents (Elt F) → (⟨S1x1x3, .f32⟩ : BufTy).Contents (Elt F)),
    nullary main_cst_13 (constant S_ .f32 0x7F800000#32),
    binary main_v126 main_cst_13 main_v129 ((fun x v => Host.reduce FloatOps.minimumf x v reducesTo_S1x100000x3_S1x3_d1 h_S_) : (⟨S1x100000x3, .f32⟩ : BufTy).Contents (Elt F) → (⟨S_, .f32⟩ : BufTy).Contents (Elt F) → (⟨S1x3, .f32⟩ : BufTy).Contents (Elt F)),
    unary main_v129 main_v130 (broadcastInDim S1x1x3 ![0, 2] bcast_S1x3_S1x1x3_0_2 : (⟨S1x3, .f32⟩ : BufTy).Contents (Elt F) → (⟨S1x1x3, .f32⟩ : BufTy).Contents (Elt F)),
    binary main_v128 main_v130 main_v131 (addf : (⟨S1x1x3, .f32⟩ : BufTy).Contents (Elt F) → (⟨S1x1x3, .f32⟩ : BufTy).Contents (Elt F) → (⟨S1x1x3, .f32⟩ : BufTy).Contents (Elt F)),
    nullary main_cst_14 (constant S_ .f32 0x40000000#32),
    unary main_cst_14 main_v132 (broadcastInDim S1x1x3 ![] bcast_S_S1x1x3 : (⟨S_, .f32⟩ : BufTy).Contents (Elt F) → (⟨S1x1x3, .f32⟩ : BufTy).Contents (Elt F)),
    binary main_v131 main_v132 main_v133 (Host.divf : (⟨S1x1x3, .f32⟩ : BufTy).Contents (Elt F) → (⟨S1x1x3, .f32⟩ : BufTy).Contents (Elt F) → (⟨S1x1x3, .f32⟩ : BufTy).Contents (Elt F)),
    unary main_v133 main_v134 (broadcastInDim S1x100000x3 ![0, 1, 2] bcast_S1x1x3_S1x100000x3_0_1_2 : (⟨S1x1x3, .f32⟩ : BufTy).Contents (Elt F) → (⟨S1x100000x3, .f32⟩ : BufTy).Contents (Elt F)),
    binary main_v126 main_v134 main_v135 (subf : (⟨S1x100000x3, .f32⟩ : BufTy).Contents (Elt F) → (⟨S1x100000x3, .f32⟩ : BufTy).Contents (Elt F) → (⟨S1x100000x3, .f32⟩ : BufTy).Contents (Elt F)),
    reshape main_v135 main_v136 rfl shapeCasts_S1x100000x3_S1x300000,
    nullary main_cst_15 (constant S_ .f32 0xFF800000#32),
    binary main_v136 main_cst_15 main_v137 ((fun x v => Host.reduce FloatOps.maximumf x v reducesTo_S1x300000_S1_d1 h_S_) : (⟨S1x300000, .f32⟩ : BufTy).Contents (Elt F) → (⟨S_, .f32⟩ : BufTy).Contents (Elt F) → (⟨S1, .f32⟩ : BufTy).Contents (Elt F)),
    unary main_v137 main_v138 (broadcastInDim S1x1x1 ![0] bcast_S1_S1x1x1_0 : (⟨S1, .f32⟩ : BufTy).Contents (Elt F) → (⟨S1x1x1, .f32⟩ : BufTy).Contents (Elt F)),
    unary main_v138 main_v139 (broadcastInDim S1x100000x3 ![0, 1, 2] bcast_S1x1x1_S1x100000x3_0_1_2 : (⟨S1x1x1, .f32⟩ : BufTy).Contents (Elt F) → (⟨S1x100000x3, .f32⟩ : BufTy).Contents (Elt F)),
    binary main_v135 main_v139 main_v140 (Host.divf : (⟨S1x100000x3, .f32⟩ : BufTy).Contents (Elt F) → (⟨S1x100000x3, .f32⟩ : BufTy).Contents (Elt F) → (⟨S1x100000x3, .f32⟩ : BufTy).Contents (Elt F)),
    nullary main_c_16 (constantI S_ 32 0#32),
    unary main_c_16 main_v141 (broadcastInDim S240 ![] bcast_S_S240 : (⟨S_, .i32⟩ : BufTy).Contents (Elt F) → (⟨S240, .i32⟩ : BufTy).Contents (Elt F)),
    binary main_arg6 main_v141 main_v142 (cmpi .slt : (⟨S240, .i32⟩ : BufTy).Contents (Elt F) → (⟨S240, .i32⟩ : BufTy).Contents (Elt F) → (⟨S240, .i1⟩ : BufTy).Contents (Elt F)),
    nullary main_c_17 (constantI S_ 32 240#32),
    unary main_c_17 main_v143 (broadcastInDim S240 ![] bcast_S_S240 : (⟨S_, .i32⟩ : BufTy).Contents (Elt F) → (⟨S240, .i32⟩ : BufTy).Contents (Elt F)),
    binary main_arg6 main_v143 main_v144 (addi : (⟨S240, .i32⟩ : BufTy).Contents (Elt F) → (⟨S240, .i32⟩ : BufTy).Contents (Elt F) → (⟨S240, .i32⟩ : BufTy).Contents (Elt F)),
    ternary main_v142 main_v144 main_arg6 main_v145 (select : (⟨S240, .i1⟩ : BufTy).Contents (Elt F) → (⟨S240, .i32⟩ : BufTy).Contents (Elt F) → (⟨S240, .i32⟩ : BufTy).Contents (Elt F) → (⟨S240, .i32⟩ : BufTy).Contents (Elt F)),
    unary main_v145 main_v146 (broadcastInDim S240x1 ![0] bcast_S240_S240x1_0 : (⟨S240, .i32⟩ : BufTy).Contents (Elt F) → (⟨S240x1, .i32⟩ : BufTy).Contents (Elt F)),
    binary main_v67 main_v146 main_v147 ((fun x i => Host.gather gather_S1x1x240x3_S240x1_S1x1x240x3_013_2_n_n_2_1_1113 x i) : (⟨S1x1x240x3, .f32⟩ : BufTy).Contents (Elt F) → (⟨S240x1, .i32⟩ : BufTy).Contents (Elt F) → (⟨S1x1x240x3, .f32⟩ : BufTy).Contents (Elt F)),
    unary main_v62 main_v148 (broadcastInDim S1x240x4 ![1, 2] bcast_S240x4_S1x240x4_1_2 : (⟨S240x4, .f32⟩ : BufTy).Contents (Elt F) → (⟨S1x240x4, .f32⟩ : BufTy).Contents (Elt F)),
    nullary main_c_18 (constantI S_ 32 0#32),
    unary main_c_18 main_v149 (broadcastInDim S240 ![] bcast_S_S240 : (⟨S_, .i32⟩ : BufTy).Contents (Elt F) → (⟨S240, .i32⟩ : BufTy).Contents (Elt F)),
    binary main_arg6 main_v149 main_v150 (cmpi .slt : (⟨S240, .i32⟩ : BufTy).Contents (Elt F) → (⟨S240, .i32⟩ : BufTy).Contents (Elt F) → (⟨S240, .i1⟩ : BufTy).Contents (Elt F)),
    nullary main_c_19 (constantI S_ 32 240#32),
    unary main_c_19 main_v151 (broadcastInDim S240 ![] bcast_S_S240 : (⟨S_, .i32⟩ : BufTy).Contents (Elt F) → (⟨S240, .i32⟩ : BufTy).Contents (Elt F)),
    binary main_arg6 main_v151 main_v152 (addi : (⟨S240, .i32⟩ : BufTy).Contents (Elt F) → (⟨S240, .i32⟩ : BufTy).Contents (Elt F) → (⟨S240, .i32⟩ : BufTy).Contents (Elt F)),
    ternary main_v150 main_v152 main_arg6 main_v153 (select : (⟨S240, .i1⟩ : BufTy).Contents (Elt F) → (⟨S240, .i32⟩ : BufTy).Contents (Elt F) → (⟨S240, .i32⟩ : BufTy).Contents (Elt F) → (⟨S240, .i32⟩ : BufTy).Contents (Elt F)),
    unary main_v153 main_v154 (broadcastInDim S240x1 ![0] bcast_S240_S240x1_0 : (⟨S240, .i32⟩ : BufTy).Contents (Elt F) → (⟨S240x1, .i32⟩ : BufTy).Contents (Elt F)),
    binary main_v148 main_v154 main_v155 ((fun x i => Host.gather gather_S1x240x4_S240x1_S1x240x4_02_1_n_n_1_1_114 x i) : (⟨S1x240x4, .f32⟩ : BufTy).Contents (Elt F) → (⟨S240x1, .i32⟩ : BufTy).Contents (Elt F) → (⟨S1x240x4, .f32⟩ : BufTy).Contents (Elt F)) ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨reshape_bufs_sub .., binary_bufs_sub .., nullary_bufs_sub .., binary_bufs_sub .., unary_bufs_sub .., unary_bufs_sub .., unary_bufs_sub .., binary_bufs_sub .., unary_bufs_sub .., reshape_bufs_sub .., binary_bufs_sub .., nullary_bufs_sub .., binary_bufs_sub .., unary_bufs_sub .., unary_bufs_sub .., unary_bufs_sub .., binary_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., unary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., unary_bufs_sub .., unary_bufs_sub .., unary_bufs_sub .., unary_bufs_sub .., nary_bufs_sub .., unary_bufs_sub .., unary_bufs_sub .., binary_bufs_sub .., unary_bufs_sub .., unary_bufs_sub .., unary_bufs_sub .., binary_bufs_sub .., binary_bufs_sub .., unary_bufs_sub .., unary_bufs_sub .., binary_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., unary_bufs_sub .., nullary_bufs_sub .., unary_bufs_sub .., binary_bufs_sub .., nullary_bufs_sub .., unary_bufs_sub .., ternary_bufs_sub .., unary_bufs_sub .., nullary_bufs_sub .., unary_bufs_sub .., binary_bufs_sub .., binary_bufs_sub .., nullary_bufs_sub .., binary_bufs_sub .., unary_bufs_sub .., binary_bufs_sub .., unary_bufs_sub .., reshape_bufs_sub .., binary_bufs_sub .., nullary_bufs_sub .., binary_bufs_sub .., binary_bufs_sub .., nullary_bufs_sub .., binary_bufs_sub .., unary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., binary_bufs_sub .., binary_bufs_sub .., nullary_bufs_sub .., unary_bufs_sub .., binary_bufs_sub .., unary_bufs_sub .., binary_bufs_sub .., binary_bufs_sub .., binary_bufs_sub .., nullary_bufs_sub .., binary_bufs_sub .., unary_bufs_sub .., nullary_bufs_sub .., binary_bufs_sub .., unary_bufs_sub .., binary_bufs_sub .., nullary_bufs_sub .., unary_bufs_sub .., binary_bufs_sub .., unary_bufs_sub .., binary_bufs_sub .., reshape_bufs_sub .., nullary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub ..⟩

/-- What buffer `b` of core `c` holds when @main ends. -/
abbrev final (m : (ℓ : Loc nD τ sig) → Buf (Elt F) ℓ) (c : Dev nD) (b : Ref sig .tc) : Buf (Elt F) ((c.tc : Thread nD τ).loc b) :=
  after ops (launchContents m c) (Proc.devRef .tc b)

/-- Every weakly fair execution of @main terminates with every buffer at `final`. -/
theorem run (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = final m c b :=
  run_seq scopedRefs_eq scopedSems_eq defs main (fun _ => ops) main_eq (fun _ => ops_sub) m ρ

/-- A buffer no operation writes ends as launched. -/
theorem final_of_not_written (m : (ℓ : Loc nD τ sig) → Buf (Elt F) ℓ) (c : Dev nD) (b : Ref sig .tc)
    (h : (ops (F := F)).Forall fun op => Proc.devRef .tc b ∉ op.writes) :
    final m c b = m ((c.tc : Thread nD τ).loc b) :=
  after_of_forall_not_mem (b := Proc.devRef .tc b) _ _ (List.forall_iff_forall_mem.mp h)

local macro "not_written" : tactic => `(tactic| (
  simp only [ops, List.Forall, nullary_writes, unary_writes, binary_writes, ternary_writes,
    quaternary_writes, nary_writes, reshape_writes, binaryIndexed_writes, TRef.nullary,
    TRef.unary, TRef.binary, TRef.ternary, TRef.of, Finset.mem_singleton]
  repeat' apply And.intro
  all_goals exact devRef_ne_of_ne (by decide)))

variable (m : (ℓ : Loc nD τ sig) → Buf (Elt F) ℓ) (c : Dev nD)
theorem final_main_arg0 : final m c main_arg0 = m ((c.tc : Thread nD τ).loc main_arg0) := final_of_not_written m c _ (by not_written)
theorem final_main_arg1 : final m c main_arg1 = m ((c.tc : Thread nD τ).loc main_arg1) := final_of_not_written m c _ (by not_written)
theorem final_main_arg2 : final m c main_arg2 = m ((c.tc : Thread nD τ).loc main_arg2) := final_of_not_written m c _ (by not_written)
theorem final_main_arg3 : final m c main_arg3 = m ((c.tc : Thread nD τ).loc main_arg3) := final_of_not_written m c _ (by not_written)
theorem final_main_arg4 : final m c main_arg4 = m ((c.tc : Thread nD τ).loc main_arg4) := final_of_not_written m c _ (by not_written)
theorem final_main_arg5 : final m c main_arg5 = m ((c.tc : Thread nD τ).loc main_arg5) := final_of_not_written m c _ (by not_written)
theorem final_main_arg6 : final m c main_arg6 = m ((c.tc : Thread nD τ).loc main_arg6) := final_of_not_written m c _ (by not_written)

end Cert.ReferenceIdeal.HostRun

end
-- ==== Proof.KernelIdealValue.lean ====
/-
  The region's arrays of the idealized kernel, and its one result that the region computes.

  The output array after the run is the body's value of the two input arrays as the region finds them — `ivertices` and
  `vertices_p` without their unit axis, transposed to `[3, 100000]` —, and the operations after the region transpose it
  back and restore the unit axis: the normalised mesh.
-/
import proofs.«143814_j45870250721282_1_alg».proof.Proof.KernelIdealFrame
import Idealize.ShloMosaic.PureOps.Ideal
import Idealize.ShloMosaic.PureOps.Ideal.Laws
import Idealize.ShloMosaic.Lib.Pipeline.Value

set_option maxRecDepth 16384

noncomputable section

namespace Cert.KernelIdeal.Results

open Cert.KernelIdeal Cert.KernelIdeal.Gen Cert.KernelIdeal.Region
open Idealize.ShloMosaic Idealize.ShloMosaic.TcCoe
open Idealize.SL Idealize.SL.Sem
open Idealize.ShloMosaic.Pipeline (Dat Cfg Window)

variable (m : (ℓ : Loc nD τ sig) → Buf (Elt Ideal) ℓ)

/-! ## The region's arrays -/

theorem hz : (![0, 0] : Fin 2 → Nat) = fun _ => 0 := funext fun a => by fin_cases a <;> rfl

/-- The one grid point's block indices are all zero: each window's block is its whole array. -/
theorem idx_zero : ∀ t : Fin cfg0.N, win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

/-- The output array after the run: the body's value of the two input arrays as the region finds them. -/
abbrev G2 (c : Dev nD) : S3x100000.Idx → Elt Ideal .f32 :=
  k0_pay1 (F := Ideal) (V m c main_v127) (V m c main_v129)

/-- An input window's block at the one point is its whole array. -/
theorem iblk0 (c : Dev nD) (t : Fin cfg0.N) : iblk m c 0 t = V m c main_v127 := by
  obtain ⟨e0, e1, e2, e3, e4, e5⟩ := idx_zero t
  funext j
  show V m c main_v127 (((cfg0.win 0).blk t).view.emb j) = V m c main_v127 j
  congr 1
  funext a; apply Fin.ext
  match a with
  | ⟨0, _⟩ => show win0_0.index t (0 : Fin 2) * 3 + 1 * (j 0).val = (j 0).val; omega
  | ⟨1, _⟩ => show win0_0.index t (1 : Fin 2) * 100000 + 1 * (j 1).val = (j 1).val; omega
theorem iblk1 (c : Dev nD) (t : Fin cfg0.N) : iblk m c 1 t = V m c main_v129 := by
  obtain ⟨e0, e1, e2, e3, e4, e5⟩ := idx_zero t
  funext j
  show V m c main_v129 (((cfg0.win 1).blk t).view.emb j) = V m c main_v129 j
  congr 1
  funext a; apply Fin.ext
  match a with
  | ⟨0, _⟩ => show win0_1.index t (0 : Fin 2) * 3 + 1 * (j 0).val = (j 0).val; omega
  | ⟨1, _⟩ => show win0_1.index t (1 : Fin 2) * 100000 + 1 * (j 1).val = (j 1).val; omega

/-- At the one point an array cut to the output window's block is the array read through that block: the block is
    the whole array and nothing overhangs. Stated for any array, so that nothing of the body's value is ever opened. -/
theorem cut_eq_read2 (X : S3x100000.Idx → Elt Ideal .f32) (t : Fin cfg0.N) :
    (cfg0.win 2).cut (grid0.coords t) X = ((cfg0.win 2).blk t).view.read (Elt Ideal) X := by
  obtain ⟨e0, e1, e2, e3, e4, e5⟩ := idx_zero t
  funext j
  show X j = X (((cfg0.win 2).blk t).view.emb j)
  congr 1
  funext a; apply Fin.ext
  match a with
  | ⟨0, _⟩ => show (j 0).val = win0_2.index t (0 : Fin 2) * 3 + 1 * (j 0).val; omega
  | ⟨1, _⟩ => show (j 1).val = win0_2.index t (1 : Fin 2) * 100000 + 1 * (j 1).val; omega

/-- What the one point writes back is the whole of `G2`. -/
theorem flushed2_eq (c : Dev nD) (t : Fin cfg0.N) :
    (dats m 0 c).flushed 2 t = ((cfg0.win 2).blk t).view.read (Elt Ideal) (G2 m c) := by
  show (cfg0.win 2).cut (grid0.coords t) ((dats m 0 c).after 2 t) = _
  rw [after0_2]
  unfold out0_2
  rw [View.canon_unit_zero hz]
  simp only [View.ld_unit_zero (S := S3x100000) hz]
  rw [iblk0, iblk1]
  exact cut_eq_read2 (G2 m c) t

/-- Every index of the output array is in the one point's block. -/
theorem mem_blk2 (t : Fin cfg0.N) (i : S3x100000.Idx) : i ∈ ((cfg0.win 2).blk t).view.set := by
  obtain ⟨e0, e1, e2, e3, e4, e5⟩ := idx_zero t
  show i ∈ ((View.whole main_v130).slice (win0_2.rect t)).set
  rw [View.set_slice_whole, Rect.mem_set_unit]
  intro a
  have h0 : (i 0).val < 3 := (i 0).isLt
  have h1 : (i 1).val < 100000 := (i 1).isLt
  match a with
  | ⟨0, _⟩ => show win0_2.index t (0 : Fin 2) * 3 ≤ (i 0).val ∧ (i 0).val < win0_2.index t (0 : Fin 2) * 3 + 3; omega
  | ⟨1, _⟩ => show win0_2.index t (1 : Fin 2) * 100000 ≤ (i 1).val ∧ (i 1).val < win0_2.index t (1 : Fin 2) * 100000 + 100000; omega

/-- The output array after the run. -/
theorem final2 (c : Dev nD) : (dats m 0 c).arrAt 2 cfg0.N = G2 m c :=
  (dats m 0 c).arrAt_eq_of_cover 2 (G2 m c) (fun t _ => flushed2_eq m c t) (fun i => ⟨t0_0, flush0_2 _, mem_blk2 t0_0 i⟩)

/-! ## The buffers' contents, computed -/

/-- A reference that is no window's array holds, at the region's exit, what the region found in it. -/
theorem withArrays_keep (c : Dev nD) (A : (w : Fin 3) → Buf (Elt Ideal) ((spec0 w).arr.view.loc (c.tc : Thread nD τ)))
    (b : Ref sig .tc) (hb : ∀ w, Pipeline.arrRef spec0 w ≠ b) :
    Pipeline.withArrays spec0 c (V0 m c) A (no_index (Proc.devRef .tc b)) = V0 m c (Proc.devRef .tc b) :=
  Pipeline.withArrays_of_ne spec0 c (V0 m c) A b hb

/-- One pass over a list of host operations: each operation's result at its own buffer is its function of its
    operands' contents, and at any other buffer what was there. -/
local macro "read_ops" : tactic => `(tactic| (
  simp (disch := decide) only [before, hostOps0, hostOps0_1, hostOps0_2, hostOps0_3, hostOps0_4, hostOps0_5, hostOps0_6, hostOps0_7, hostOps0_8, hostOps1,
      List.flatten_cons, List.flatten_nil, List.append_nil, List.cons_append, List.nil_append,
      StableHlo.TRef.nullary, StableHlo.TRef.unary, StableHlo.TRef.binary, StableHlo.TRef.ternary, StableHlo.TRef.of,
      StableHlo.after_cons, StableHlo.after_nil,
      StableHlo.nullary_result', StableHlo.unary_result', StableHlo.binary_result', StableHlo.ternary_result', StableHlo.quaternary_result',
      StableHlo.reshape_result', StableHlo.nary4_result', StableHlo.nary_result',
      StableHlo.unaryIndexed_result', StableHlo.binaryIndexed_result',
      StableHlo.nullary_result_ne', StableHlo.unary_result_ne', StableHlo.binary_result_ne', StableHlo.ternary_result_ne', StableHlo.quaternary_result_ne',
      StableHlo.reshape_result_ne', StableHlo.nary_result_ne', StableHlo.unaryIndexed_result_ne', StableHlo.binaryIndexed_result_ne']))

/-- The first input array as the region finds it: `ivertices` without its unit axis, transposed. -/
theorem V_main_v127 (c : Dev nD) :
    (V m c main_v127 : S3x100000.Idx → Elt Ideal .f32)
      = transpose S3x100000 [1, 0] (shapeCast S100000x3 (m ((c : Thread nD τ).loc main_arg4)) shapeCasts_S1x100000x3_S100000x3) transposes_S100000x3_S3x100000_1_0 := by
  dsimp only [V, V0]
  read_ops
  rfl

/-- The second: `vertices_p`, the same way. -/
theorem V_main_v129 (c : Dev nD) :
    (V m c main_v129 : S3x100000.Idx → Elt Ideal .f32)
      = transpose S3x100000 [1, 0] (shapeCast S100000x3 (m ((c : Thread nD τ).loc main_arg2)) shapeCasts_S1x100000x3_S100000x3) transposes_S100000x3_S3x100000_1_0 := by
  dsimp only [V, V0]
  read_ops
  rfl

/-! ## The six results -/

/-- The normalised mesh: the region's output array transposed back and given its unit axis. -/
theorem W_main_v132 (c : Dev nD) :
    (W m (dats m) c main_v132 : S1x100000x3.Idx → Elt Ideal .f32)
      = broadcastInDim S1x100000x3 ![1, 2] bcast_S100000x3_S1x100000x3_1_2
          (transpose S100000x3 [1, 0]
            (k0_pay1 (F := Ideal)
              (transpose S3x100000 [1, 0] (shapeCast S100000x3 (m ((c : Thread nD τ).loc main_arg4)) shapeCasts_S1x100000x3_S100000x3) transposes_S100000x3_S3x100000_1_0)
              (transpose S3x100000 [1, 0] (shapeCast S100000x3 (m ((c : Thread nD τ).loc main_arg2)) shapeCasts_S1x100000x3_S100000x3) transposes_S100000x3_S3x100000_1_0))
            transposes_S3x100000_S100000x3_1_0) := by
  unfold W Pipeline.afterTail₀
  read_ops
  rw [(Pipeline.withArrays_arr spec0 launch0.win.arr_inj c _ _ 2).trans (final2 m c)]
  unfold G2
  rw [V_main_v127, V_main_v129]

end Cert.KernelIdeal.Results

end
-- ==== Proof.MeshNormSpec.lean ====
/-
  The normalised mesh as one function of the summed vertex arrays.

  For a grid `s n j` of extended reals (`n < 100000` vertices, `j < 3` coordinates): the bounding box's two corners
  `boxMax s j = max_n s n j` and `boxMin s j = min_n s n j`, the coordinates measured from the box's middle,
  `centred s n j = s n j - (boxMax s j + boxMin s j) · 1/2`, the largest of them, `extent s = max_j max_n centred s n j`,
  and `normalised s n j = centred s n j / extent s`. Maxima fold from `-∞`, minima from `+∞`.
-/
import Idealize.ShloMosaic.Lib.ValueIdx

noncomputable section

namespace Cert.MeshNorm

open Idealize.ShloMosaic Idealize.ShloMosaic.ValueIdx

/-- The summed vertex arrays as a grid: entry `(n, j)` is coordinate `j` of vertex `n`. -/
abbrev Grid : Type := Fin 100000 → Fin 3 → EReal

/-- The largest value of coordinate `j` over the vertices. -/
def boxMax (s : Grid) (j : Fin 3) : EReal := (Finset.univ : Finset (Fin 100000)).fold max ⊥ fun n => s n j

/-- The smallest value of coordinate `j` over the vertices. -/
def boxMin (s : Grid) (j : Fin 3) : EReal := (Finset.univ : Finset (Fin 100000)).fold min ⊤ fun n => s n j

/-- Coordinate `j` of vertex `n` measured from the middle of the bounding box. -/
def centred (s : Grid) (n : Fin 100000) (j : Fin 3) : EReal :=
  s n j - (boxMax s j + boxMin s j) * ((1 / 2 : ℝ) : EReal)

/-- The largest entry of a grid: the maximum over the coordinates of each coordinate's maximum over the vertices. -/
def gridMax (c : Grid) : EReal :=
  (Finset.univ : Finset (Fin 3)).fold max ⊥ fun j => (Finset.univ : Finset (Fin 100000)).fold max ⊥ fun n => c n j

/-- The largest centred coordinate. -/
def extent (s : Grid) : EReal := gridMax (centred s)

/-- The normalised mesh: each centred coordinate over the largest one. -/
def normalised (s : Grid) (n : Fin 100000) (j : Fin 3) : EReal := Ideal.div (centred s n j) (extent s)

/-- The grid two `[1, 100000, 3]` arrays sum to. -/
def vertexSum (x2 x4 : (⟨3, ![1, 100000, 3]⟩ : Shape).Idx → EReal) : Grid :=
  fun n j => x4 (ix3 (0 : Fin 1) n j) + x2 (ix3 (0 : Fin 1) n j)

end Cert.MeshNorm

end
-- ==== Proof.LibReduceRead.lean ====
/-
  One-axis reductions, and the column layouts that go with them, read at an index given by its coordinates.

  A reduction over ONE axis folds, at each result index, over that axis's coordinates of the source index with the
  coordinate inserted. For the ranks met here the inserted index is written out: a row of a matrix (`(i, k)` over the
  lane `k`), a column of a matrix (`(k, c)` over the row `k`), and the middle axis of a rank-3 array (`(p, k, c)`). A
  vector's reduction and the host's then read as a fold over `Fin` of the source at such indices. With them go the three
  layouts a reduction that keeps its axis passes through: a vector as a column, a column over many lanes, one element
  over a whole matrix.
-/
import Idealize.ShloMosaic.Lib.ValueLayout
import Idealize.ShloMosaic.PureOps.Ideal.Laws

noncomputable section

namespace Cert.LibReduceRead

open Idealize.ShloMosaic Idealize.ShloMosaic.ValueIdx

variable {α : Type}

/-! ## Column layouts -/

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's element of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- A `[1, 1]` array broadcast to `[a, b]` reads its one element everywhere. -/
theorem broadcastTo_11_ab_apply {a b : ℕ} (v : (⟨2, ![1, 1]⟩ : Shape).Idx → α)
    (h : (⟨2, ![1, 1]⟩ : Shape).Broadcasts ⟨2, ![a, b]⟩) (p : Fin a) (c : Fin b) :
    broadcastTo ⟨2, ![a, b]⟩ v h (ix2 p c) = v (ix2 (0 : Fin 1) (0 : Fin 1)) := by
  refine broadcastTo_apply v h (ix2 p c) (ix2 (0 : Fin 1) (0 : Fin 1)) fun ax => ?_
  match ax with
  | ⟨0, _⟩ =>
    show (0 : ℕ) = if (1 : ℕ) = 1 then 0 else p.val
    rw [if_pos rfl]
  | ⟨1, _⟩ =>
    show (0 : ℕ) = if (1 : ℕ) = 1 then 0 else c.val
    rw [if_pos rfl]

/-! ## The source index over a result index, by coordinates -/

/-- Over row `i` of an `[a, b]` matrix, lane `k` inserted: the index `(i, k)`. -/
theorem lift_rows {a b : ℕ} (h : (⟨2, ![a, b]⟩ : Shape).Reduces [1] ⟨1, ![a]⟩) (i : Fin a) (k : Fin b) :
    h.lift (ix1 i) k = ix2 i k := by
  funext c; apply Fin.ext
  match c with
  | ⟨0, _⟩ => rfl
  | ⟨1, _⟩ => rfl

/-- Over column `c` of an `[a, b]` matrix, row `k` inserted: the index `(k, c)`. -/
theorem lift_cols {a b : ℕ} (h : (⟨2, ![a, b]⟩ : Shape).Reduces [0] ⟨1, ![b]⟩) (c : Fin b) (k : Fin a) :
    h.lift (ix1 c) k = ix2 k c := by
  funext d; apply Fin.ext
  match d with
  | ⟨0, _⟩ => rfl
  | ⟨1, _⟩ => rfl

/-- Over `(p, c)` of an `[m, a, b]` array reduced along its middle axis, coordinate `k` inserted: the index `(p, k, c)`. -/
theorem lift_mid {m a b : ℕ} (h : (⟨3, ![m, a, b]⟩ : Shape).Reduces [1] ⟨2, ![m, b]⟩) (p : Fin m) (c : Fin b) (k : Fin a) :
    h.lift (ix2 p c) k = ix3 p k c := by
  funext d; apply Fin.ext
  match d with
  | ⟨0, _⟩ => rfl
  | ⟨1, _⟩ => rfl
  | ⟨2, _⟩ => rfl

/-! ## A vector's maximum and minimum over one axis, at the ideal values -/

variable {φ : FTy}

/-- A float `vector.multi_reduction <minimumf>` over one axis, read at the ideal values: the fold of `min` from the
    accumulator's value over that axis's coordinates. -/
theorem multiReduction_minimumf_single {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- A row maximum of an `[a, b]` vector: at row `i`, the fold of `max` from the accumulator's value over the lanes. -/
theorem multiReduction_maximumf_rows {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (i : Fin a) :
    multiReduction (F := Ideal) .maximumf [1] ⟨1, ![a]⟩ src acc h hφ hacc (ix1 i)
      = (Finset.univ : Finset (Fin b)).fold max (Ideal.ofBits φ acc) fun k => src (ix2 i k) := by
  refine (Ideal.multiReduction_maximumf_single src acc h hφ hacc (ix1 i)).trans ?_
  exact congrArg (fun f : Fin b → EReal => (Finset.univ : Finset (Fin b)).fold max (Ideal.ofBits φ acc) f)
    (funext fun k => congrArg src (lift_rows h i k))

/-- A row minimum of an `[a, b]` vector: at row `i`, the fold of `min` from the accumulator's value over the lanes. -/
theorem multiReduction_minimumf_rows {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.minimumf.neutral φ hφ)
    (i : Fin a) :
    multiReduction (F := Ideal) .minimumf [1] ⟨1, ![a]⟩ src acc h hφ hacc (ix1 i)
      = (Finset.univ : Finset (Fin b)).fold min (Ideal.ofBits φ acc) fun k => src (ix2 i k) := by
  refine (multiReduction_minimumf_single src acc h hφ hacc (ix1 i)).trans ?_
  exact congrArg (fun f : Fin b → EReal => (Finset.univ : Finset (Fin b)).fold min (Ideal.ofBits φ acc) f)
    (funext fun k => congrArg src (lift_rows h i k))

/-- A column maximum of an `[a, b]` vector: at column `c`, the fold of `max` from the accumulator's value over the rows. -/
theorem multiReduction_maximumf_cols {a b : ℕ} (src : FVec Ideal ⟨2, ![a, b]⟩ φ) (acc : BitVec φ.bits)
    (h : (⟨2, ![a, b]⟩ : Shape).Reduces [0] ⟨1, ![b]⟩) (hφ : FKind.Formats φ) (hacc : acc = FKind.maximumf.neutral φ hφ)
    (c : Fin b) :
    multiReduction (F := Ideal) .maximumf [0] ⟨1, ![b]⟩ src acc h hφ hacc (ix1 c)
      = (Finset.univ : Finset (Fin a)).fold max (Ideal.ofBits φ acc) fun k => src (ix2 k c) := by
  refine (Ideal.multiReduction_maximumf_single src acc h hφ hacc (ix1 c)).trans ?_
  exact congrArg (fun f : Fin a → EReal => (Finset.univ : Finset (Fin a)).fold max (Ideal.ofBits φ acc) f)
    (funext fun k => congrArg src (lift_cols h c k))

/-! ## The host's one-operand reduction over one axis -/

/-- A host reduction with a commutative and associative body along the lanes of an `[a, b]` array: at row `i`, the fold
    from the initial value's element over the lanes. -/
theorem hostReduce_rows {a b : ℕ} {u : Shape} (f : α → α → α) [Std.Commutative f] [Std.Associative f]
    (x : (⟨2, ![a, b]⟩ : Shape).Idx → α) (init : u.Idx → α) (h' : (⟨2, ![a, b]⟩ : Shape).ReducesTo [1] ⟨1, ![a]⟩)
    (hu : 0 < u.numel) (i : Fin a) :
    Host.reduce f x init h' hu (ix1 i)
      = (Finset.univ : Finset (Fin b)).fold f (init (Shape.Idx.first hu)) fun k => x (ix2 i k) := by
  have h : (⟨2, ![a, b]⟩ : Shape).Reduces [1] ⟨1, ![a]⟩ := ⟨h'.1, Nat.one_pos, h'.2⟩
  refine (Host.reduce_eq_fold_single f x init h' h hu (ix1 i)).trans ?_
  exact congrArg (fun g : Fin b → α => (Finset.univ : Finset (Fin b)).fold f (init (Shape.Idx.first hu)) g)
    (funext fun k => congrArg x (lift_rows h i k))

/-- The same along the middle axis of an `[m, a, b]` array: at `(p, c)`, the fold over the middle coordinate. -/
theorem hostReduce_mid {m a b : ℕ} {u : Shape} (f : α → α → α) [Std.Commutative f] [Std.Associative f]
    (x : (⟨3, ![m, a, b]⟩ : Shape).Idx → α) (init : u.Idx → α)
    (h' : (⟨3, ![m, a, b]⟩ : Shape).ReducesTo [1] ⟨2, ![m, b]⟩) (hu : 0 < u.numel) (p : Fin m) (c : Fin b) :
    Host.reduce f x init h' hu (ix2 p c)
      = (Finset.univ : Finset (Fin a)).fold f (init (Shape.Idx.first hu)) fun k => x (ix3 p k c) := by
  have h : (⟨3, ![m, a, b]⟩ : Shape).Reduces [1] ⟨2, ![m, b]⟩ := ⟨h'.1, Nat.zero_lt_two, h'.2⟩
  refine (Host.reduce_eq_fold_single f x init h' h hu (ix2 p c)).trans ?_
  exact congrArg (fun g : Fin a → α => (Finset.univ : Finset (Fin a)).fold f (init (Shape.Idx.first hu)) g)
    (funext fun k => congrArg x (lift_mid h p c k))

/-! ## The host's maxima and minima at the ideal values: folds of `max` and `min` -/

/-- The host's maximum along the lanes of an `[a, b]` array, at the ideal values. -/
theorem hostReduce_maximumf_rows {a b : ℕ} {u : Shape} (x : FVec Ideal ⟨2, ![a, b]⟩ φ) (init : FVec Ideal u φ)
    (h' : (⟨2, ![a, b]⟩ : Shape).ReducesTo [1] ⟨1, ![a]⟩) (hu : 0 < u.numel) (i : Fin a) :
    Host.reduce (FloatOps.maximumf (F := Ideal) (φ := φ)) x init h' hu (ix1 i)
      = (Finset.univ : Finset (Fin b)).fold max (init (Shape.Idx.first hu)) fun k => x (ix2 i k) :=
  hostReduce_rows _ x init h' hu i

/-- The host's maximum along the middle axis of an `[m, a, b]` array, at the ideal values. -/
theorem hostReduce_maximumf_mid {m a b : ℕ} {u : Shape} (x : FVec Ideal ⟨3, ![m, a, b]⟩ φ) (init : FVec Ideal u φ)
    (h' : (⟨3, ![m, a, b]⟩ : Shape).ReducesTo [1] ⟨2, ![m, b]⟩) (hu : 0 < u.numel) (p : Fin m) (c : Fin b) :
    Host.reduce (FloatOps.maximumf (F := Ideal) (φ := φ)) x init h' hu (ix2 p c)
      = (Finset.univ : Finset (Fin a)).fold max (init (Shape.Idx.first hu)) fun k => x (ix3 p k c) :=
  hostReduce_mid _ x init h' hu p c

/-- The host's minimum along the middle axis of an `[m, a, b]` array, at the ideal values. -/
theorem hostReduce_minimumf_mid {m a b : ℕ} {u : Shape} (x : FVec Ideal ⟨3, ![m, a, b]⟩ φ) (init : FVec Ideal u φ)
    (h' : (⟨3, ![m, a, b]⟩ : Shape).ReducesTo [1] ⟨2, ![m, b]⟩) (hu : 0 < u.numel) (p : Fin m) (c : Fin b) :
    Host.reduce (FloatOps.minimumf (F := Ideal) (φ := φ)) x init h' hu (ix2 p c)
      = (Finset.univ : Finset (Fin a)).fold min (init (Shape.Idx.first hu)) fun k => x (ix3 p k c) :=
  hostReduce_mid _ x init h' hu p c

end Cert.LibReduceRead

end
-- ==== Proof.LibF32Words.lean ====
/-
  Four binary32 words as the extended reals they denote: the two infinities, one half and two.
-/
import Idealize.ShloMosaic.PureOps.Ideal

noncomputable section

namespace Cert.LibF32Words

open Idealize.ShloMosaic

/-- The word `0xFF800000` (sign set, exponent all ones, fraction zero) denotes `-∞`, the bottom extended real. -/
theorem ofBits_neg_inf : Ideal.ofBits .f32 0xFF800000#32 = ⊥ := by
  simp [Ideal.ofBits, Ideal.ieee]

/-- The word `0x7F800000` (sign clear, exponent all ones, fraction zero) denotes `+∞`, the top extended real. -/
theorem ofBits_pos_inf : Ideal.ofBits .f32 0x7F800000#32 = ⊤ := by
  simp [Ideal.ofBits, Ideal.ieee]

/-- The word `0x3F000000` (exponent 126, fraction zero) denotes `2⁻¹ = 1/2`. -/
theorem ofBits_half : Ideal.ofBits .f32 0x3F000000#32 = ((1 / 2 : ℝ) : EReal) := by
  simp [Ideal.ofBits, Ideal.ieee, -EReal.coe_mul]; norm_num

/-- The word `0x40000000` (exponent 128, fraction zero) denotes `2¹ = 2`. -/
theorem ofBits_two : Ideal.ofBits .f32 0x40000000#32 = ((2 : ℝ) : EReal) := by
  simp [Ideal.ofBits, Ideal.ieee, -EReal.coe_mul]; norm_num

end Cert.LibF32Words

end
-- ==== Proof.MeshNormKernel.lean ====
/-
  The kernel's side of the normalised mesh: the region's body, on the transposed `[3, 100000]` layout, is the
  normalised grid of its two operands' sum.

  The body adds its operands, takes each row's maximum and minimum over the lanes, halves their sum by a product with
  `1/2`, subtracts that column from every lane, takes the largest entry as the maximum over the three rows of each row's
  maximum, and divides by it. Read at row `j`, lane `n`, with the vector as the grid `(n, j) ↦ w (j, n)`, each stage is
  the specification's: the row reductions are the bounding box, the spread column its middle, the difference the
  centred grid, the spread maximum the grid's largest entry.
-/
import proofs.«143814_j45870250721282_1_alg».proof.Proof.Gen.KernelIdeal.Skeleton
import proofs.«143814_j45870250721282_1_alg».proof.Proof.MeshNormSpec
import proofs.«143814_j45870250721282_1_alg».proof.Proof.LibReduceRead
import proofs.«143814_j45870250721282_1_alg».proof.Proof.LibF32Words
import Idealize.ShloMosaic.Lib.ValueIdx
import Idealize.ShloMosaic.Lib.ValueLayout
import Idealize.ShloMosaic.Lib.Pipeline.Value

noncomputable section

namespace Cert.MeshNorm

open Idealize.ShloMosaic Idealize.ShloMosaic.ValueIdx Cert.LibReduceRead Cert.LibF32Words Cert.KernelIdeal

/-- A `[3, 100000]` vector read as a grid: entry `(n, j)` is the vector at `(j, n)`. -/
def gridOf (w : FVec Ideal S3x100000 .f32) : Grid := fun n j => w (ix2 j n)

section Stages

variable (hφ : FKind.Formats .f32)
  (hmax : (0xFF800000#32 : BitVec 32) = 0xFF800000#32)
  (hmin : (0x7F800000#32 : BitVec 32) = 0x7F800000#32)
  (hr : S3x100000.Reduces [1] S3) (hc : S3.ShapeCasts S3x1) (hb : S3x1.Broadcasts S3x100000)
  (hr0 : S3x1.Reduces [0] S1) (hc1 : S1.ShapeCasts S1x1) (hb1 : S1x1.Broadcasts S3x100000)

/-- A row's maximum: the largest value of the grid's coordinate `j`. -/
theorem rowMax_apply (w : FVec Ideal S3x100000 .f32) (j : Fin 3) :
    multiReduction (F := Ideal) .maximumf [1] S3 w 0xFF800000#32 hr hφ hmax (ix1 j) = boxMax (gridOf w) j := by
  refine (multiReduction_maximumf_rows w _ hr hφ hmax j).trans ?_
  rw [ofBits_neg_inf]
  unfold boxMax gridOf
  rfl

/-- A row's minimum: the smallest value of the grid's coordinate `j`. -/
theorem rowMin_apply (w : FVec Ideal S3x100000 .f32) (j : Fin 3) :
    multiReduction (F := Ideal) .minimumf [1] S3 w 0x7F800000#32 hr hφ hmin (ix1 j) = boxMin (gridOf w) j := by
  refine (multiReduction_minimumf_rows w _ hr hφ hmin j).trans ?_
  rw [ofBits_pos_inf]
  unfold boxMin gridOf
  rfl

/-- The halved sum of each row's maximum and minimum, kept as a column and spread over the lanes, is at `(j, n)`
    the middle of coordinate `j`'s range. -/
theorem centre_apply (w : FVec Ideal S3x100000 .f32) (j : Fin 3) (n : Fin 100000) :
    broadcastTo S3x100000
      (mulf (addf (shapeCast S3x1 (multiReduction (F := Ideal) .maximumf [1] S3 w 0xFF800000#32 hr hφ hmax) hc)
                  (shapeCast S3x1 (multiReduction (F := Ideal) .minimumf [1] S3 w 0x7F800000#32 hr hφ hmin) hc))
            (broadcast S3x1 (FloatOps.ofBits (F := Ideal) .f32 0x3F000000#32)))
      hb (ix2 j n)
    = (boxMax (gridOf w) j + boxMin (gridOf w) j) * ((1 / 2 : ℝ) : EReal) := by
  refine (broadcastTo_a1_ab_apply _ hb j n).trans ?_
  rw [mulf_apply, addf_apply, broadcast_apply, Ideal.ofBits_def, shapeCast_a_a1_apply, shapeCast_a_a1_apply,
    rowMax_apply, rowMin_apply, ofBits_half]

/-- The vector less that spread column is, read as a grid, the centred grid. -/
theorem gridOf_sub (w : FVec Ideal S3x100000 .f32) :
    gridOf (subf w (broadcastTo S3x100000
      (mulf (addf (shapeCast S3x1 (multiReduction (F := Ideal) .maximumf [1] S3 w 0xFF800000#32 hr hφ hmax) hc)
                  (shapeCast S3x1 (multiReduction (F := Ideal) .minimumf [1] S3 w 0x7F800000#32 hr hφ hmin) hc))
            (broadcast S3x1 (FloatOps.ofBits (F := Ideal) .f32 0x3F000000#32)))
      hb)) = centred (gridOf w) := by
  funext n j
  unfold centred
  rw [← centre_apply hφ hmax hmin hr hc hb w j n]
  rfl

/-- The maximum over the three rows of each row's maximum, spread over the whole vector, is everywhere the largest
    entry of the grid. -/
theorem extent_apply (d : FVec Ideal S3x100000 .f32) (j : Fin 3) (n : Fin 100000) :
    broadcastTo S3x100000
      (shapeCast S1x1
        (multiReduction (F := Ideal) .maximumf [0] S1
          (shapeCast S3x1 (multiReduction (F := Ideal) .maximumf [1] S3 d 0xFF800000#32 hr hφ hmax) hc)
          0xFF800000#32 hr0 hφ hmax) hc1) hb1 (ix2 j n)
    = gridMax (gridOf d) := by
  refine (broadcastTo_11_ab_apply _ hb1 j n).trans ?_
  rw [shapeCast_a_1a_apply]
  refine (multiReduction_maximumf_cols _ _ hr0 hφ hmax (0 : Fin 1)).trans ?_
  rw [ofBits_neg_inf]
  unfold gridMax
  refine congrArg (fun f : Fin 3 → EReal => (Finset.univ : Finset (Fin 3)).fold max ⊥ f) (funext fun k => ?_)
  rw [shapeCast_a_a1_apply, rowMax_apply]
  rfl

end Stages

/-- The sum of two vectors (each through an identity cast), read as a grid. -/
theorem gridOf_sum (v0 v2 : FVec Ideal S3x100000 .f32) (h : S3x100000.ShapeCasts S3x100000) :
    gridOf (addf (shapeCast S3x100000 v0 h) (shapeCast S3x100000 v2 h)) = fun n j => v0 (ix2 j n) + v2 (ix2 j n) := by
  funext n j
  unfold gridOf
  rw [addf_apply, shapeCast_self, shapeCast_self]

/-- The region's body at `(j, n)`: the normalised grid of the two operands' sum. -/
theorem pay_apply (v0 v2 : FVec Ideal S3x100000 .f32) (j : Fin 3) (n : Fin 100000) :
    Cert.KernelIdeal.Gen.k0_pay1 (F := Ideal) v0 v2 (ix2 j n)
      = normalised (fun n j => v0 (ix2 j n) + v2 (ix2 j n)) n j := by
  unfold Cert.KernelIdeal.Gen.k0_pay1
  rw [divf_apply, extent_apply, gridOf_sub, subf_apply, centre_apply, gridOf_sum, addf_apply, shapeCast_self, shapeCast_self]
  unfold normalised extent
  rw [centred]

/-- The kernel's result array at `(u, n, j)` — the operands reshaped and transposed, the body applied, the result
    transposed back under a leading unit axis — is the normalised grid of the two arrays' sum. -/
theorem kernel_side (x2 x4 : FVec Ideal S1x100000x3 .f32)
    (hsc : S1x100000x3.ShapeCasts S100000x3) (ht : S100000x3.Transposes [1, 0] S3x100000)
    (ht' : S3x100000.Transposes [1, 0] S100000x3)
    (hbc : S100000x3.BroadcastsInDim S1x100000x3 (![1, 2] : Fin 2 → Fin S1x100000x3.rank))
    (u : Fin 1) (n : Fin 100000) (j : Fin 3) :
    broadcastInDim S1x100000x3 ![1, 2] hbc
      (transpose S100000x3 [1, 0]
        (Cert.KernelIdeal.Gen.k0_pay1 (F := Ideal)
          (transpose S3x100000 [1, 0] (shapeCast S100000x3 x4 hsc) ht)
          (transpose S3x100000 [1, 0] (shapeCast S100000x3 x2 hsc) ht))
        ht') (ix3 u n j)
    = normalised (vertexSum x2 x4) n j := by
  refine (broadcastInDim_apply _ hbc _ (ix3 u n j) (ix2 n j) (fun a => ?_)).trans ?_
  · match a with
    | ⟨0, _⟩ =>
      show n.val = if (100000 : ℕ) = 1 then 0 else n.val
      rw [if_neg (by omega)]
    | ⟨1, _⟩ =>
      show j.val = if (3 : ℕ) = 1 then 0 else j.val
      rw [if_neg (by omega)]
  · rw [transpose_ix2_apply, pay_apply]
    have hg : (fun (n : Fin 100000) (j : Fin 3) =>
        transpose S3x100000 [1, 0] (shapeCast S100000x3 x4 hsc) ht (ix2 j n)
          + transpose S3x100000 [1, 0] (shapeCast S100000x3 x2 hsc) ht (ix2 j n)) = vertexSum x2 x4 := by
      funext n j
      rw [transpose_ix2_apply, transpose_ix2_apply, shapeCast_1ab_ab_apply, shapeCast_1ab_ab_apply]
      rfl
    rw [hg]

end Cert.MeshNorm

end
-- ==== Proof.LibFoldMax.lean ====
/-
  Maxima and minima taken by folding, in any linear order that has the bound the fold starts from.

  A fold of `max` from the bottom element over a finite set is the set's supremum, and a fold of `min` from the top
  element is its infimum. A maximum, over the columns of a finite grid, of each column's maximum is the one maximum
  over any family that lists every cell of the grid: both are the supremum of the same set of values.
-/
import Mathlib.Data.Finset.Lattice.Fold
import Mathlib.Data.Fintype.Basic
import Mathlib.Order.Lattice

namespace Cert.LibFoldMax

variable {ι α : Type*}

/-- Folding `max` from `⊥` over a finite set computes the supremum of the values. -/
theorem fold_max_bot_eq_sup [LinearOrder α] [OrderBot α] (s : Finset ι) (f : ι → α) :
    s.fold max ⊥ f = s.sup f := by
  induction s using Finset.cons_induction with
  | empty => rfl
  | cons a s ha ih => rw [Finset.fold_cons, Finset.sup_cons, ih]

/-- Folding `min` from `⊤` over a finite set computes the infimum of the values. -/
theorem fold_min_top_eq_inf [LinearOrder α] [OrderTop α] (s : Finset ι) (f : ι → α) :
    s.fold min ⊤ f = s.inf f := by
  induction s using Finset.cons_induction with
  | empty => rfl
  | cons a s ha ih => rw [Finset.fold_cons, Finset.inf_cons, ih]

/-- The maximum over the columns `j` of a grid of each column's maximum over the rows `n` is the maximum of any
    family `R` that reads the grid's cells (`hR`: entry `p` of `R` is the cell in row `a p`, column `b p`) and
    reaches every cell (`hcell`): each side is an upper bound of the other side's values. -/
theorem fold_max_fold_max_eq_of_cells {ρ κ γ : Type*} [Fintype ρ] [Fintype κ] [Fintype γ] [LinearOrder α] [OrderBot α]
    (D : ρ → κ → α) (R : γ → α) (a : γ → ρ) (b : γ → κ) (hR : ∀ p, R p = D (a p) (b p))
    (hcell : ∀ n j, ∃ p, a p = n ∧ b p = j) :
    (Finset.univ.fold max ⊥ fun j => Finset.univ.fold max ⊥ fun n => D n j) = Finset.univ.fold max ⊥ R := by
  simp only [fold_max_bot_eq_sup]
  apply le_antisymm
  · refine Finset.sup_le fun j _ => Finset.sup_le fun n _ => ?_
    obtain ⟨p, rfl, rfl⟩ := hcell n j
    rw [← hR]
    exact Finset.le_sup (Finset.mem_univ p)
  · refine Finset.sup_le fun p _ => ?_
    rw [hR]
    exact le_trans (Finset.le_sup (f := fun n => D n (b p)) (Finset.mem_univ (a p)))
      (Finset.le_sup (f := fun j => Finset.univ.sup fun n => D n j) (Finset.mem_univ (b p)))

end Cert.LibFoldMax
-- ==== Proof.MeshNormReferenceTerm.lean ====
/-
  The reference's side of the normalised mesh, over the reference's result as ONE composed term of the two vertex
  arrays (`refMesh`): at `(u, n, j)` it is the normalised grid of the arrays' sum.

  The reference adds the arrays, takes the maximum and the minimum over the vertex axis, halves their sum by a quotient
  by `2`, subtracts, takes the largest entry as ONE maximum over the array flattened to `[1, 300000]`, and divides by
  it. The term is first cut into its operations, one definition each, and each is read at an index. A quotient of any
  extended real by the real `2` is its product with `1/2`, so the centred array is the specification's; and position
  `p` of the flattened array holds the cell `(p / 3, p mod 3)`, every cell `(n, j)` at position `3 n + j`, so the one
  maximum is the maximum over the coordinates of each coordinate's maximum.
-/
import proofs.«143814_j45870250721282_1_alg».proof.Proof.Gen.ReferenceIdeal
import proofs.«143814_j45870250721282_1_alg».proof.Proof.MeshNormSpec
import proofs.«143814_j45870250721282_1_alg».proof.Proof.LibReduceRead
import proofs.«143814_j45870250721282_1_alg».proof.Proof.LibF32Words
import proofs.«143814_j45870250721282_1_alg».proof.Proof.LibFoldMax
import Idealize.ShloMosaic.Lib.ValueIdx
import Idealize.ShloMosaic.Lib.Pipeline.Value
import Idealize.ShloMosaic.PureOps.Ideal.Laws

noncomputable section

/-! ## The reference's operations on the vertex arrays, one definition each

Each `val_main_vN` is one host operation of the reference applied to the earlier ones (the comment above it is the
operation), `idx_main_vN` the operand index a layout operation reads at a result index, and `val_main_vN_apply` the
operation read at an index. The three reductions (`v127`, `v129`, `v137`) have no such lemma: they are read below. -/

namespace Cert.MeshNorm.RefStages

open Cert.ReferenceIdeal Cert.ReferenceIdeal.Gen Idealize.ShloMosaic Idealize.ShloMosaic.TcCoe Idealize.SL.Sem Idealize.ShloMosaic.StableHlo

variable {F : FTy → Type} [FloatOps F]

-- %126 = stablehlo.add %arg4, %arg2 : tensor<1x100000x3xf32>
def val_main_v126 (x2 x4 : (⟨S1x100000x3, .f32⟩ : BufTy).Contents (Elt F)) : (⟨S1x100000x3, .f32⟩ : BufTy).Contents (Elt F) :=
  addf (x4) (x2)
theorem val_main_v126_apply (x2 x4 : (⟨S1x100000x3, .f32⟩ : BufTy).Contents (Elt F)) (i : S1x100000x3.Idx) :
    val_main_v126 (F := F) x2 x4 i = FloatOps.addf (x4 i) (x2 i) := rfl

-- %cst_12 = stablehlo.constant dense<0xFF800000> : tensor<f32>
def val_main_cst_12 : (⟨S_, .f32⟩ : BufTy).Contents (Elt F) :=
  constant S_ .f32 0xFF800000#32
theorem val_main_cst_12_apply (i : S_.Idx) :
    val_main_cst_12 (F := F) i = FloatOps.ofBits .f32 0xFF800000#32 := rfl

-- %127 = stablehlo.reduce(%126 init: %cst_12) applies stablehlo.maximum across dimensions = [1] : (tensor<1x100000x3xf32>, tensor<f32>) -> tensor<1x3xf32> {
def val_main_v127 (x2 x4 : (⟨S1x100000x3, .f32⟩ : BufTy).Contents (Elt F)) : (⟨S1x3, .f32⟩ : BufTy).Contents (Elt F) :=
  Host.reduce FloatOps.maximumf (val_main_v126 (F := F) x2 x4) (val_main_cst_12 (F := F)) reducesTo_S1x100000x3_S1x3_d1 h_S_

-- %128 = stablehlo.broadcast_in_dim %127, dims = [0, 2] : (tensor<1x3xf32>) -> tensor<1x1x3xf32>
def val_main_v128 (x2 x4 : (⟨S1x100000x3, .f32⟩ : BufTy).Contents (Elt F)) : (⟨S1x1x3, .f32⟩ : BufTy).Contents (Elt F) :=
  broadcastInDim S1x1x3 ![0, 2] bcast_S1x3_S1x1x3_0_2 (val_main_v127 (F := F) x2 x4)
abbrev idx_main_v128 (i : S1x1x3.Idx) : S1x3.Idx := fun a => match a with
  | ⟨0, _⟩ => ⟨0, Nat.one_pos⟩
  | ⟨1, _⟩ => ⟨(i 2).val, (i 2).isLt⟩
theorem val_main_v128_apply (x2 x4 : (⟨S1x100000x3, .f32⟩ : BufTy).Contents (Elt F)) (i : S1x1x3.Idx) :
    val_main_v128 (F := F) x2 x4 i = val_main_v127 (F := F) x2 x4 (idx_main_v128 i) := by
  unfold val_main_v128
  generalize val_main_v127 (F := F) x2 x4 = y
  exact broadcastInDim_apply _ bcast_S1x3_S1x1x3_0_2 y i (idx_main_v128 i) (fun a => match a with
    | ⟨0, _⟩ => by show 0 = if (1 : Nat) = 1 then 0 else (i 0).val; rw [if_pos rfl]
    | ⟨1, _⟩ => by show (i 2).val = if (3 : Nat) = 1 then 0 else (i 2).val; rw [if_neg (by decide)])

-- %cst_13 = stablehlo.constant dense<0x7F800000> : tensor<f32>
def val_main_cst_13 : (⟨S_, .f32⟩ : BufTy).Contents (Elt F) :=
  constant S_ .f32 0x7F800000#32
theorem val_main_cst_13_apply (i : S_.Idx) :
    val_main_cst_13 (F := F) i = FloatOps.ofBits .f32 0x7F800000#32 := rfl

-- %129 = stablehlo.reduce(%126 init: %cst_13) applies stablehlo.minimum across dimensions = [1] : (tensor<1x100000x3xf32>, tensor<f32>) -> tensor<1x3xf32> {
def val_main_v129 (x2 x4 : (⟨S1x100000x3, .f32⟩ : BufTy).Contents (Elt F)) : (⟨S1x3, .f32⟩ : BufTy).Contents (Elt F) :=
  Host.reduce FloatOps.minimumf (val_main_v126 (F := F) x2 x4) (val_main_cst_13 (F := F)) reducesTo_S1x100000x3_S1x3_d1 h_S_

-- %130 = stablehlo.broadcast_in_dim %129, dims = [0, 2] : (tensor<1x3xf32>) -> tensor<1x1x3xf32>
def val_main_v130 (x2 x4 : (⟨S1x100000x3, .f32⟩ : BufTy).Contents (Elt F)) : (⟨S1x1x3, .f32⟩ : BufTy).Contents (Elt F) :=
  broadcastInDim S1x1x3 ![0, 2] bcast_S1x3_S1x1x3_0_2 (val_main_v129 (F := F) x2 x4)
abbrev idx_main_v130 (i : S1x1x3.Idx) : S1x3.Idx := fun a => match a with
  | ⟨0, _⟩ => ⟨0, Nat.one_pos⟩
  | ⟨1, _⟩ => ⟨(i 2).val, (i 2).isLt⟩
theorem val_main_v130_apply (x2 x4 : (⟨S1x100000x3, .f32⟩ : BufTy).Contents (Elt F)) (i : S1x1x3.Idx) :
    val_main_v130 (F := F) x2 x4 i = val_main_v129 (F := F) x2 x4 (idx_main_v130 i) := by
  unfold val_main_v130
  generalize val_main_v129 (F := F) x2 x4 = y
  exact broadcastInDim_apply _ bcast_S1x3_S1x1x3_0_2 y i (idx_main_v130 i) (fun a => match a with
    | ⟨0, _⟩ => by show 0 = if (1 : Nat) = 1 then 0 else (i 0).val; rw [if_pos rfl]
    | ⟨1, _⟩ => by show (i 2).val = if (3 : Nat) = 1 then 0 else (i 2).val; rw [if_neg (by decide)])

-- %131 = stablehlo.add %128, %130 : tensor<1x1x3xf32>
def val_main_v131 (x2 x4 : (⟨S1x100000x3, .f32⟩ : BufTy).Contents (Elt F)) : (⟨S1x1x3, .f32⟩ : BufTy).Contents (Elt F) :=
  addf (val_main_v128 (F := F) x2 x4) (val_main_v130 (F := F) x2 x4)
theorem val_main_v131_apply (x2 x4 : (⟨S1x100000x3, .f32⟩ : BufTy).Contents (Elt F)) (i : S1x1x3.Idx) :
    val_main_v131 (F := F) x2 x4 i = FloatOps.addf (val_main_v128 (F := F) x2 x4 i) (val_main_v130 (F := F) x2 x4 i) := rfl

-- %cst_14 = stablehlo.constant dense<2.000000e+00> : tensor<f32>
def val_main_cst_14 : (⟨S_, .f32⟩ : BufTy).Contents (Elt F) :=
  constant S_ .f32 0x40000000#32
theorem val_main_cst_14_apply (i : S_.Idx) :
    val_main_cst_14 (F := F) i = FloatOps.ofBits .f32 0x40000000#32 := rfl

-- %132 = stablehlo.broadcast_in_dim %cst_14, dims = [] : (tensor<f32>) -> tensor<1x1x3xf32>
def val_main_v132 : (⟨S1x1x3, .f32⟩ : BufTy).Contents (Elt F) :=
  broadcastInDim S1x1x3 ![] bcast_S_S1x1x3 (val_main_cst_14 (F := F))
abbrev idx_main_v132 (i : S1x1x3.Idx) : S_.Idx := fun a => a.elim0
theorem val_main_v132_apply (i : S1x1x3.Idx) :
    val_main_v132 (F := F) i = val_main_cst_14 (F := F) (idx_main_v132 i) := by
  unfold val_main_v132
  generalize val_main_cst_14 (F := F) = y
  exact broadcastInDim_apply _ bcast_S_S1x1x3 y i (idx_main_v132 i) (fun a => a.elim0)

-- %133 = stablehlo.divide %131, %132 : tensor<1x1x3xf32>
def val_main_v133 (x2 x4 : (⟨S1x100000x3, .f32⟩ : BufTy).Contents (Elt F)) : (⟨S1x1x3, .f32⟩ : BufTy).Contents (Elt F) :=
  Host.divf (val_main_v131 (F := F) x2 x4) (val_main_v132 (F := F))
theorem val_main_v133_apply (x2 x4 : (⟨S1x100000x3, .f32⟩ : BufTy).Contents (Elt F)) (i : S1x1x3.Idx) :
    val_main_v133 (F := F) x2 x4 i = FloatOps.hostDivf (val_main_v131 (F := F) x2 x4 i) (val_main_v132 (F := F) i) := rfl

-- %134 = stablehlo.broadcast_in_dim %133, dims = [0, 1, 2] : (tensor<1x1x3xf32>) -> tensor<1x100000x3xf32>
def val_main_v134 (x2 x4 : (⟨S1x100000x3, .f32⟩ : BufTy).Contents (Elt F)) : (⟨S1x100000x3, .f32⟩ : BufTy).Contents (Elt F) :=
  broadcastInDim S1x100000x3 ![0, 1, 2] bcast_S1x1x3_S1x100000x3_0_1_2 (val_main_v133 (F := F) x2 x4)
abbrev idx_main_v134 (i : S1x100000x3.Idx) : S1x1x3.Idx := fun a => match a with
  | ⟨0, _⟩ => ⟨0, Nat.one_pos⟩
  | ⟨1, _⟩ => ⟨0, Nat.one_pos⟩
  | ⟨2, _⟩ => ⟨(i 2).val, (i 2).isLt⟩
theorem val_main_v134_apply (x2 x4 : (⟨S1x100000x3, .f32⟩ : BufTy).Contents (Elt F)) (i : S1x100000x3.Idx) :
    val_main_v134 (F := F) x2 x4 i = val_main_v133 (F := F) x2 x4 (idx_main_v134 i) := by
  unfold val_main_v134
  generalize val_main_v133 (F := F) x2 x4 = y
  exact broadcastInDim_apply _ bcast_S1x1x3_S1x100000x3_0_1_2 y i (idx_main_v134 i) (fun a => match a with
    | ⟨0, _⟩ => by show 0 = if (1 : Nat) = 1 then 0 else (i 0).val; rw [if_pos rfl]
    | ⟨1, _⟩ => by show 0 = if (1 : Nat) = 1 then 0 else (i 1).val; rw [if_pos rfl]
    | ⟨2, _⟩ => by show (i 2).val = if (3 : Nat) = 1 then 0 else (i 2).val; rw [if_neg (by decide)])

-- %135 = stablehlo.subtract %126, %134 : tensor<1x100000x3xf32>
def val_main_v135 (x2 x4 : (⟨S1x100000x3, .f32⟩ : BufTy).Contents (Elt F)) : (⟨S1x100000x3, .f32⟩ : BufTy).Contents (Elt F) :=
  subf (val_main_v126 (F := F) x2 x4) (val_main_v134 (F := F) x2 x4)
theorem val_main_v135_apply (x2 x4 : (⟨S1x100000x3, .f32⟩ : BufTy).Contents (Elt F)) (i : S1x100000x3.Idx) :
    val_main_v135 (F := F) x2 x4 i = FloatOps.subf (val_main_v126 (F := F) x2 x4 i) (val_main_v134 (F := F) x2 x4 i) := rfl

-- %136 = stablehlo.reshape %135 : (tensor<1x100000x3xf32>) -> tensor<1x300000xf32>
def val_main_v136 (x2 x4 : (⟨S1x100000x3, .f32⟩ : BufTy).Contents (Elt F)) : (⟨S1x300000, .f32⟩ : BufTy).Contents (Elt F) :=
  shapeCast _ (val_main_v135 (F := F) x2 x4) shapeCasts_S1x100000x3_S1x300000
abbrev idx_main_v136 (i : S1x300000.Idx) : S1x100000x3.Idx := fun a => match a with
  | ⟨0, _⟩ => ⟨0, Nat.one_pos⟩
  | ⟨1, _⟩ => ⟨((i 0).val * 300000 + (i 1).val) / 3 % 100000, by have h0 : (i 0).val < 1 := (i 0).isLt; have h1 : (i 1).val < 300000 := (i 1).isLt; show ((i 0).val * 300000 + (i 1).val) / 3 % 100000 < 100000; omega⟩
  | ⟨2, _⟩ => ⟨((i 0).val * 300000 + (i 1).val) % 3, by have h0 : (i 0).val < 1 := (i 0).isLt; have h1 : (i 1).val < 300000 := (i 1).isLt; show ((i 0).val * 300000 + (i 1).val) % 3 < 3; omega⟩
theorem val_main_v136_apply (x2 x4 : (⟨S1x100000x3, .f32⟩ : BufTy).Contents (Elt F)) (i : S1x300000.Idx) :
    val_main_v136 (F := F) x2 x4 i = val_main_v135 (F := F) x2 x4 (idx_main_v136 i) := by
  unfold val_main_v136
  generalize val_main_v135 (F := F) x2 x4 = y
  exact shapeCast_apply y shapeCasts_S1x100000x3_S1x300000 i (idx_main_v136 i)
    (by rewrite [Shape.rowMajor_val_three, Shape.rowMajor_val_two]; have h0 : (i 0).val < 1 := (i 0).isLt; have h1 : (i 1).val < 300000 := (i 1).isLt; show (0 * 100000 + ((i 0).val * 300000 + (i 1).val) / 3 % 100000) * 3 + ((i 0).val * 300000 + (i 1).val) % 3 = (i 0).val * 300000 + (i 1).val; omega)

-- %cst_15 = stablehlo.constant dense<0xFF800000> : tensor<f32>
def val_main_cst_15 : (⟨S_, .f32⟩ : BufTy).Contents (Elt F) :=
  constant S_ .f32 0xFF800000#32
theorem val_main_cst_15_apply (i : S_.Idx) :
    val_main_cst_15 (F := F) i = FloatOps.ofBits .f32 0xFF800000#32 := rfl

-- %137 = stablehlo.reduce(%136 init: %cst_15) applies stablehlo.maximum across dimensions = [1] : (tensor<1x300000xf32>, tensor<f32>) -> tensor<1xf32> {
def val_main_v137 (x2 x4 : (⟨S1x100000x3, .f32⟩ : BufTy).Contents (Elt F)) : (⟨S1, .f32⟩ : BufTy).Contents (Elt F) :=
  Host.reduce FloatOps.maximumf (val_main_v136 (F := F) x2 x4) (val_main_cst_15 (F := F)) reducesTo_S1x300000_S1_d1 h_S_

-- %138 = stablehlo.broadcast_in_dim %137, dims = [0] : (tensor<1xf32>) -> tensor<1x1x1xf32>
def val_main_v138 (x2 x4 : (⟨S1x100000x3, .f32⟩ : BufTy).Contents (Elt F)) : (⟨S1x1x1, .f32⟩ : BufTy).Contents (Elt F) :=
  broadcastInDim S1x1x1 ![0] bcast_S1_S1x1x1_0 (val_main_v137 (F := F) x2 x4)
abbrev idx_main_v138 (i : S1x1x1.Idx) : S1.Idx := fun a => match a with
  | ⟨0, _⟩ => ⟨0, Nat.one_pos⟩
theorem val_main_v138_apply (x2 x4 : (⟨S1x100000x3, .f32⟩ : BufTy).Contents (Elt F)) (i : S1x1x1.Idx) :
    val_main_v138 (F := F) x2 x4 i = val_main_v137 (F := F) x2 x4 (idx_main_v138 i) := by
  unfold val_main_v138
  generalize val_main_v137 (F := F) x2 x4 = y
  exact broadcastInDim_apply _ bcast_S1_S1x1x1_0 y i (idx_main_v138 i) (fun a => match a with
    | ⟨0, _⟩ => by show 0 = if (1 : Nat) = 1 then 0 else (i 0).val; rw [if_pos rfl])

-- %139 = stablehlo.broadcast_in_dim %138, dims = [0, 1, 2] : (tensor<1x1x1xf32>) -> tensor<1x100000x3xf32>
def val_main_v139 (x2 x4 : (⟨S1x100000x3, .f32⟩ : BufTy).Contents (Elt F)) : (⟨S1x100000x3, .f32⟩ : BufTy).Contents (Elt F) :=
  broadcastInDim S1x100000x3 ![0, 1, 2] bcast_S1x1x1_S1x100000x3_0_1_2 (val_main_v138 (F := F) x2 x4)
abbrev idx_main_v139 (i : S1x100000x3.Idx) : S1x1x1.Idx := fun a => match a with
  | ⟨0, _⟩ => ⟨0, Nat.one_pos⟩
  | ⟨1, _⟩ => ⟨0, Nat.one_pos⟩
  | ⟨2, _⟩ => ⟨0, Nat.one_pos⟩
theorem val_main_v139_apply (x2 x4 : (⟨S1x100000x3, .f32⟩ : BufTy).Contents (Elt F)) (i : S1x100000x3.Idx) :
    val_main_v139 (F := F) x2 x4 i = val_main_v138 (F := F) x2 x4 (idx_main_v139 i) := by
  unfold val_main_v139
  generalize val_main_v138 (F := F) x2 x4 = y
  exact broadcastInDim_apply _ bcast_S1x1x1_S1x100000x3_0_1_2 y i (idx_main_v139 i) (fun a => match a with
    | ⟨0, _⟩ => by show 0 = if (1 : Nat) = 1 then 0 else (i 0).val; rw [if_pos rfl]
    | ⟨1, _⟩ => by show 0 = if (1 : Nat) = 1 then 0 else (i 1).val; rw [if_pos rfl]
    | ⟨2, _⟩ => by show 0 = if (1 : Nat) = 1 then 0 else (i 2).val; rw [if_pos rfl])

-- %140 = stablehlo.divide %135, %139 : tensor<1x100000x3xf32>
def val_main_v140 (x2 x4 : (⟨S1x100000x3, .f32⟩ : BufTy).Contents (Elt F)) : (⟨S1x100000x3, .f32⟩ : BufTy).Contents (Elt F) :=
  Host.divf (val_main_v135 (F := F) x2 x4) (val_main_v139 (F := F) x2 x4)
theorem val_main_v140_apply (x2 x4 : (⟨S1x100000x3, .f32⟩ : BufTy).Contents (Elt F)) (i : S1x100000x3.Idx) :
    val_main_v140 (F := F) x2 x4 i = FloatOps.hostDivf (val_main_v135 (F := F) x2 x4 i) (val_main_v139 (F := F) x2 x4 i) := rfl

end Cert.MeshNorm.RefStages

/-! ## The operations read at an index are the specification -/

namespace Cert.MeshNorm.RefStages

open Idealize.ShloMosaic Idealize.ShloMosaic.ValueIdx Cert.LibReduceRead Cert.LibF32Words Cert.LibFoldMax
open Cert.ReferenceIdeal Cert.ReferenceIdeal.Gen

/-- A `[1, 100000, 3]` array read as a grid: entry `(n, j)` is the array at `(0, n, j)`. -/
def gridOf3 (y : FVec Ideal (⟨3, ![1, 100000, 3]⟩ : Shape) .f32) : Grid := fun n j => y (ix3 (0 : Fin 1) n j)

/-- The reference's sum of the two arrays, read as a grid. -/
theorem gridOf3_sum (x2 x4 : FVec Ideal (⟨3, ![1, 100000, 3]⟩ : Shape) .f32) :
    gridOf3 (val_main_v126 (F := Ideal) x2 x4) = vertexSum x2 x4 := by
  funext n j
  unfold gridOf3 vertexSum
  rw [val_main_v126_apply, Ideal.addf_def]

/-- The reference's maximum over the vertex axis, at `(0, j)`: the bounding box's upper corner. -/
theorem ref_boxMax (x2 x4 : FVec Ideal (⟨3, ![1, 100000, 3]⟩ : Shape) .f32) (j : Fin 3) :
    val_main_v127 (F := Ideal) x2 x4 (ix2 (0 : Fin 1) j) = boxMax (vertexSum x2 x4) j := by
  unfold val_main_v127
  refine (hostReduce_maximumf_mid _ _ _ _ (0 : Fin 1) j).trans ?_
  rw [val_main_cst_12_apply, Ideal.ofBits_def, ofBits_neg_inf, ← gridOf3_sum]
  unfold boxMax gridOf3
  rfl

/-- The reference's minimum over the vertex axis, at `(0, j)`: the bounding box's lower corner. -/
theorem ref_boxMin (x2 x4 : FVec Ideal (⟨3, ![1, 100000, 3]⟩ : Shape) .f32) (j : Fin 3) :
    val_main_v129 (F := Ideal) x2 x4 (ix2 (0 : Fin 1) j) = boxMin (vertexSum x2 x4) j := by
  unfold val_main_v129
  refine (hostReduce_minimumf_mid _ _ _ _ (0 : Fin 1) j).trans ?_
  rw [val_main_cst_13_apply, Ideal.ofBits_def, ofBits_pos_inf, ← gridOf3_sum]
  unfold boxMin gridOf3
  rfl

/-- The reference's centred array at `(0, n, j)`: the quotient by `2` is the product with `1/2` on every extended real. -/
theorem ref_centred (x2 x4 : FVec Ideal (⟨3, ![1, 100000, 3]⟩ : Shape) .f32) (n : Fin 100000) (j : Fin 3) :
    val_main_v135 (F := Ideal) x2 x4 (ix3 (0 : Fin 1) n j) = centred (vertexSum x2 x4) n j := by
  have e134 : idx_main_v134 (ix3 (0 : Fin 1) n j) = ix3 (0 : Fin 1) (0 : Fin 1) j :=
    funext fun a => Fin.ext (by match a with | ⟨0, _⟩ => rfl | ⟨1, _⟩ => rfl | ⟨2, _⟩ => rfl)
  have e128 : idx_main_v128 (ix3 (0 : Fin 1) (0 : Fin 1) j) = ix2 (0 : Fin 1) j :=
    funext fun a => Fin.ext (by match a with | ⟨0, _⟩ => rfl | ⟨1, _⟩ => rfl)
  have e130 : idx_main_v130 (ix3 (0 : Fin 1) (0 : Fin 1) j) = ix2 (0 : Fin 1) j :=
    funext fun a => Fin.ext (by match a with | ⟨0, _⟩ => rfl | ⟨1, _⟩ => rfl)
  rw [val_main_v135_apply, val_main_v134_apply, e134, val_main_v133_apply, val_main_v131_apply, val_main_v128_apply, e128,
    val_main_v130_apply, e130, val_main_v132_apply, val_main_cst_14_apply, ref_boxMax, ref_boxMin, val_main_v126_apply,
    Ideal.subf_def, Ideal.hostDivf_def, Ideal.addf_def, Ideal.addf_def, Ideal.ofBits_def, ofBits_two,
    Ideal.div_coe (by norm_num : (2 : ℝ) ≠ 0)]
  rw [centred]
  rfl

/-- The vertex of position `p` of the flattened `[1, 300000]` array (row-major: position `3 n + j`). -/
def cellRow (p : Fin 300000) : Fin 100000 := ⟨p.val / 3 % 100000, Nat.mod_lt _ (by omega)⟩

/-- The coordinate of position `p` of the flattened array. -/
def cellCol (p : Fin 300000) : Fin 3 := ⟨p.val % 3, Nat.mod_lt _ (by omega)⟩

/-- The reference's one maximum over the flattened centred array is the largest centred coordinate: the flattening
    lists every cell of the grid. -/
theorem ref_extent (x2 x4 : FVec Ideal (⟨3, ![1, 100000, 3]⟩ : Shape) .f32) :
    val_main_v137 (F := Ideal) x2 x4 (ix1 (0 : Fin 1)) = extent (vertexSum x2 x4) := by
  unfold val_main_v137
  refine (hostReduce_maximumf_rows _ _ _ _ (0 : Fin 1)).trans ?_
  rw [val_main_cst_15_apply, Ideal.ofBits_def, ofBits_neg_inf]
  unfold extent gridMax
  refine (fold_max_fold_max_eq_of_cells (centred (vertexSum x2 x4)) _ cellRow cellCol (fun p => ?_) (fun n j => ?_)).symm
  · have e136 : idx_main_v136 (ix2 (0 : Fin 1) p) = ix3 (0 : Fin 1) (cellRow p) (cellCol p) :=
      funext fun a => Fin.ext (by
        match a with
        | ⟨0, _⟩ => rfl
        | ⟨1, _⟩ =>
          show (0 * 300000 + p.val) / 3 % 100000 = p.val / 3 % 100000
          rw [Nat.zero_mul, Nat.zero_add]
        | ⟨2, _⟩ =>
          show (0 * 300000 + p.val) % 3 = p.val % 3
          rw [Nat.zero_mul, Nat.zero_add])
    show val_main_v136 (F := Ideal) x2 x4 (ix2 (0 : Fin 1) p) = _
    rw [val_main_v136_apply, e136, ref_centred]
  · have hn := n.isLt
    have hj := j.isLt
    refine ⟨⟨3 * n.val + j.val, by omega⟩, Fin.ext ?_, Fin.ext ?_⟩
    · show (3 * n.val + j.val) / 3 % 100000 = n.val
      omega
    · show (3 * n.val + j.val) % 3 = j.val
      omega

/-- The reference's result array at `(u, n, j)` is the normalised grid of the two arrays' sum. -/
theorem reference_side (x2 x4 : FVec Ideal (⟨3, ![1, 100000, 3]⟩ : Shape) .f32) (u : Fin 1) (n : Fin 100000) (j : Fin 3) :
    val_main_v140 (F := Ideal) x2 x4 (ix3 u n j) = normalised (vertexSum x2 x4) n j := by
  obtain rfl : u = 0 := Subsingleton.elim _ _
  have e139 : idx_main_v139 (ix3 (0 : Fin 1) n j) = ix3 (0 : Fin 1) (0 : Fin 1) (0 : Fin 1) :=
    funext fun a => Fin.ext (by match a with | ⟨0, _⟩ => rfl | ⟨1, _⟩ => rfl | ⟨2, _⟩ => rfl)
  have e138 : idx_main_v138 (ix3 (0 : Fin 1) (0 : Fin 1) (0 : Fin 1)) = ix1 (0 : Fin 1) :=
    funext fun a => Fin.ext (by match a with | ⟨0, _⟩ => rfl)
  rw [val_main_v140_apply, val_main_v139_apply, e139, val_main_v138_apply, e138, ref_extent, ref_centred,
    Ideal.hostDivf_def, normalised]

end Cert.MeshNorm.RefStages

/-! ## The reference's result as one term -/

namespace Cert.MeshNorm

open Idealize.ShloMosaic Idealize.ShloMosaic.ValueIdx
open Cert.ReferenceIdeal Cert.ReferenceIdeal.Gen

/-- The reference's result array as ONE term of the two vertex arrays: the host operations composed, the sum, its two
    reductions over the vertex axis, the halving, the difference, the one maximum over the flattened difference and the
    quotient written out where a later operation reads an earlier one. -/
def refMesh (x2 x4 : FVec Ideal Cert.ReferenceIdeal.S1x100000x3 .f32) : FVec Ideal Cert.ReferenceIdeal.S1x100000x3 .f32 :=
  Host.divf
    (subf
      (addf x4 x2)
      (broadcastInDim S1x100000x3 ![0, 1, 2] bcast_S1x1x3_S1x100000x3_0_1_2
        (Host.divf
          (addf
            (broadcastInDim S1x1x3 ![0, 2] bcast_S1x3_S1x1x3_0_2
              (Host.reduce (FloatOps.maximumf (F := Ideal) (φ := .f32))
                (addf x4 x2) (constant (F := Ideal) S_ .f32 0xFF800000#32) reducesTo_S1x100000x3_S1x3_d1 h_S_))
            (broadcastInDim S1x1x3 ![0, 2] bcast_S1x3_S1x1x3_0_2
              (Host.reduce (FloatOps.minimumf (F := Ideal) (φ := .f32))
                (addf x4 x2) (constant (F := Ideal) S_ .f32 0x7F800000#32) reducesTo_S1x100000x3_S1x3_d1 h_S_)))
          (broadcastInDim S1x1x3 ![] bcast_S_S1x1x3 (constant (F := Ideal) S_ .f32 0x40000000#32)))))
    (broadcastInDim S1x100000x3 ![0, 1, 2] bcast_S1x1x1_S1x100000x3_0_1_2
      (broadcastInDim S1x1x1 ![0] bcast_S1_S1x1x1_0
        (Host.reduce (FloatOps.maximumf (F := Ideal) (φ := .f32))
          (shapeCast _
            (subf
              (addf x4 x2)
              (broadcastInDim S1x100000x3 ![0, 1, 2] bcast_S1x1x3_S1x100000x3_0_1_2
                (Host.divf
                  (addf
                    (broadcastInDim S1x1x3 ![0, 2] bcast_S1x3_S1x1x3_0_2
                      (Host.reduce (FloatOps.maximumf (F := Ideal) (φ := .f32))
                        (addf x4 x2) (constant (F := Ideal) S_ .f32 0xFF800000#32) reducesTo_S1x100000x3_S1x3_d1 h_S_))
                    (broadcastInDim S1x1x3 ![0, 2] bcast_S1x3_S1x1x3_0_2
                      (Host.reduce (FloatOps.minimumf (F := Ideal) (φ := .f32))
                        (addf x4 x2) (constant (F := Ideal) S_ .f32 0x7F800000#32) reducesTo_S1x100000x3_S1x3_d1 h_S_)))
                  (broadcastInDim S1x1x3 ![] bcast_S_S1x1x3 (constant (F := Ideal) S_ .f32 0x40000000#32))))) shapeCasts_S1x100000x3_S1x300000) (constant (F := Ideal) S_ .f32 0xFF800000#32) reducesTo_S1x300000_S1_d1 h_S_)))

/-- The composed term is the last of the operations above: each definition unfolds to its operation of the earlier ones. -/
theorem refMesh_eq_stages (x2 x4 : FVec Ideal Cert.ReferenceIdeal.S1x100000x3 .f32) :
    refMesh x2 x4 = RefStages.val_main_v140 (F := Ideal) x2 x4 := rfl

/-- The reference's composed result at `(u, n, j)` is the normalised grid of the two arrays' sum. -/
theorem reference_side' (x2 x4 : FVec Ideal Cert.ReferenceIdeal.S1x100000x3 .f32) (u : Fin 1) (n : Fin 100000) (j : Fin 3) :
    refMesh x2 x4 (ix3 u n j) = normalised (vertexSum x2 x4) n j :=
  (congrFun (refMesh_eq_stages x2 x4) (ix3 u n j)).trans (RefStages.reference_side x2 x4 u n j)

end Cert.MeshNorm

end
-- ==== Proof.MeshNormBridgeTerm.lean ====
/-
  The normalised mesh, kernel against the reference's composed result, at the ideal values.

  Write `S n j = x4 (0, n, j) + x2 (0, n, j)` for the summed vertex arrays, `n < 100000`, `j < 3`. Both programs compute
  `(S n j - (max_n S n j + min_n S n j) / 2) / max_{n, j} (S n j - (max_n S n j + min_n S n j) / 2)`:
  the kernel on the transposed `[3, 100000]` layout, halving by a product with `1/2` and taking the largest entry as the
  maximum over the three rows of each row's maximum; the reference on `[1, 100000, 3]`, halving by a quotient by `2` and taking
  the largest entry as one maximum over the array reshaped to `[1, 300000]`. Here the reference's result is the one term
  `refMesh` of the two arrays.
-/
import proofs.«143814_j45870250721282_1_alg».proof.Proof.Gen.KernelIdeal.Skeleton
import proofs.«143814_j45870250721282_1_alg».proof.Proof.MeshNormKernel
import proofs.«143814_j45870250721282_1_alg».proof.Proof.MeshNormReferenceTerm
import Idealize.ShloMosaic.Lib.ValueIdx
import Idealize.ShloMosaic.Lib.ValueLayout
import Idealize.ShloMosaic.Lib.Pipeline.Value
import Idealize.ShloMosaic.PureOps.Ideal.Laws

noncomputable section

namespace Cert.MeshNorm

open Idealize.ShloMosaic Idealize.ShloMosaic.TcCoe Idealize.SL.Sem

/-- The kernel's result array — the two vertex arrays reshaped and transposed to `[3, 100000]`, the region's body applied,
    the result transposed back and given its leading unit axis — is the reference's composed result, whatever proofs of
    the four shape facts the layout operations carry. -/
theorem vertices_eq_term
    (hbc : Cert.KernelIdeal.S100000x3.BroadcastsInDim Cert.KernelIdeal.S1x100000x3
      (![1, 2] : Fin 2 → Fin Cert.KernelIdeal.S1x100000x3.rank))
    (hsc : Cert.KernelIdeal.S1x100000x3.ShapeCasts Cert.KernelIdeal.S100000x3)
    (ht : Cert.KernelIdeal.S100000x3.Transposes [1, 0] Cert.KernelIdeal.S3x100000)
    (ht' : Cert.KernelIdeal.S3x100000.Transposes [1, 0] Cert.KernelIdeal.S100000x3)
    (x2 x4 : FVec Ideal Cert.KernelIdeal.S1x100000x3 .f32) :
    broadcastInDim Cert.KernelIdeal.S1x100000x3 ![1, 2] hbc
      (transpose Cert.KernelIdeal.S100000x3 [1, 0]
        (Cert.KernelIdeal.Gen.k0_pay1 (F := Ideal)
          (transpose Cert.KernelIdeal.S3x100000 [1, 0]
            (shapeCast Cert.KernelIdeal.S100000x3 x4 hsc)
            ht)
          (transpose Cert.KernelIdeal.S3x100000 [1, 0]
            (shapeCast Cert.KernelIdeal.S100000x3 x2 hsc)
            ht))
        ht')
    = refMesh x2 x4 := by
  funext i
  obtain ⟨u, n, j, rfl⟩ : ∃ (u : Fin 1) (n : Fin 100000) (j : Fin 3), i = ValueIdx.ix3 u n j :=
    ⟨i 0, i 1, i 2, ValueIdx.eq_ix3 i⟩
  exact (kernel_side x2 x4 hsc ht ht' hbc u n j).trans (reference_side' x2 x4 u n j).symm

end Cert.MeshNorm

end
-- ==== Proof.LibConcat.lean ====
/-
  A concatenation with its pieces as plain arguments.

  `concatenate t a xs h` takes its pieces as a list of (shape, array) pairs together with a proof `h` about the list's
  shapes, so the pieces sit where an equation between arrays cannot be rewritten without also transporting `h`. For a list
  of two or of four pieces, `cat2` and `cat4` are the same concatenation as a function of the arrays, the shapes and the
  proof fixed: an equation between pieces rewrites under them like under any function.
-/
import Idealize.ShloMosaic.PureOps.ShapeOps

namespace Cert.LibConcat

open Idealize.ShloMosaic

variable {α : Type}

/-- The concatenation of two arrays of shapes `s1`, `s2` along axis `a` of `t`. -/
def cat2 (t : Shape) (a : Fin t.rank) (s1 s2 : Shape) (h : Shape.Concatenates [s1, s2] t a)
    (u : s1.Idx → α) (v : s2.Idx → α) : t.Idx → α :=
  concatenate t a [⟨s1, u⟩, ⟨s2, v⟩] h

/-- A two-piece `concatenate` is `cat2` of its pieces. -/
theorem concatenate_two (t : Shape) (a : Fin t.rank) (s1 s2 : Shape) (u : s1.Idx → α) (v : s2.Idx → α)
    (h : Shape.Concatenates [s1, s2] t a) :
    concatenate t a [⟨s1, u⟩, ⟨s2, v⟩] h = cat2 t a s1 s2 h u v := rfl

/-- The concatenation of four arrays along axis `a` of `t`. -/
def cat4 (t : Shape) (a : Fin t.rank) (s1 s2 s3 s4 : Shape) (h : Shape.Concatenates [s1, s2, s3, s4] t a)
    (u1 : s1.Idx → α) (u2 : s2.Idx → α) (u3 : s3.Idx → α) (u4 : s4.Idx → α) : t.Idx → α :=
  concatenate t a [⟨s1, u1⟩, ⟨s2, u2⟩, ⟨s3, u3⟩, ⟨s4, u4⟩] h

/-- A four-piece `concatenate` is `cat4` of its pieces. -/
theorem concatenate_four (t : Shape) (a : Fin t.rank) (s1 s2 s3 s4 : Shape)
    (u1 : s1.Idx → α) (u2 : s2.Idx → α) (u3 : s3.Idx → α) (u4 : s4.Idx → α)
    (h : Shape.Concatenates [s1, s2, s3, s4] t a) :
    concatenate t a [⟨s1, u1⟩, ⟨s2, u2⟩, ⟨s3, u3⟩, ⟨s4, u4⟩] h = cat4 t a s1 s2 s3 s4 h u1 u2 u3 u4 := rfl

end Cert.LibConcat
-- ==== Proof.Results.lean ====
/-
  The idealized kernel's six results against the reference's, buffer by buffer, from memories that agree on the seven
  arguments. Five are host operations only — the same operations in both programs, so computing each side's buffer from
  its arguments gives one term —; the normalised mesh is the region's output transposed back on one side and the
  reference's own normalisation on the other, equal by the bridge between the two normalisations.
-/
import proofs.«143814_j45870250721282_1_alg».proof.Proof.KernelIdealValue
import proofs.«143814_j45870250721282_1_alg».proof.Proof.ReferenceRun
import proofs.«143814_j45870250721282_1_alg».proof.Proof.MeshNormBridgeTerm
import proofs.«143814_j45870250721282_1_alg».proof.Proof.LibConcat

set_option maxRecDepth 16384

noncomputable section

namespace Cert.Results

open Cert.KernelIdeal Cert.KernelIdeal.Gen Cert.KernelIdeal.Region Cert.KernelIdeal.Results
open Idealize.ShloMosaic Idealize.ShloMosaic.TcCoe
open Idealize.SL Idealize.SL.Sem
open Idealize.ShloMosaic.Pipeline (Dat Cfg Window)

variable (m : (ℓ : Loc nD τ sig) → Buf (Elt Ideal) ℓ)
  (m' : (ℓ : Loc Cert.ReferenceIdeal.nD Cert.ReferenceIdeal.τ Cert.ReferenceIdeal.sig) → Buf (Elt Ideal) ℓ) (c : Dev nD)

/-- One pass over both programs' host operations: each operation's result at its own buffer is its function of its
    operands' contents, and at any other buffer what was there. -/
local macro "read_both" : tactic => `(tactic| (
  simp (disch := decide) only [before, hostOps0, hostOps0_1, hostOps0_2, hostOps0_3, hostOps0_4, hostOps0_5, hostOps0_6, hostOps0_7, hostOps0_8, hostOps1,
      Cert.ReferenceIdeal.HostRun.final, Cert.ReferenceIdeal.HostRun.ops, StableHlo.launchContents,
      Cert.LibConcat.concatenate_two, Cert.LibConcat.concatenate_four,
      List.flatten_cons, List.flatten_nil, List.append_nil, List.cons_append, List.nil_append,
      StableHlo.TRef.nullary, StableHlo.TRef.unary, StableHlo.TRef.binary, StableHlo.TRef.ternary, StableHlo.TRef.of,
      StableHlo.after_cons, StableHlo.after_nil,
      StableHlo.nullary_result', StableHlo.unary_result', StableHlo.binary_result', StableHlo.ternary_result', StableHlo.quaternary_result',
      StableHlo.reshape_result', StableHlo.nary4_result', StableHlo.nary_result',
      StableHlo.unaryIndexed_result', StableHlo.binaryIndexed_result',
      StableHlo.nullary_result_ne', StableHlo.unary_result_ne', StableHlo.binary_result_ne', StableHlo.ternary_result_ne', StableHlo.quaternary_result_ne',
      StableHlo.reshape_result_ne', StableHlo.nary_result_ne', StableHlo.unaryIndexed_result_ne', StableHlo.binaryIndexed_result_ne']))

set_option maxHeartbeats 4000000 in
/-- The gathered translations. -/
theorem res_translations (h0 : m' ((c.tc : Thread Cert.ReferenceIdeal.nD Cert.ReferenceIdeal.τ).loc Cert.ReferenceIdeal.main_arg0) = m ((c.tc : Thread nD τ).loc main_arg0)) (h5 : m' ((c.tc : Thread Cert.ReferenceIdeal.nD Cert.ReferenceIdeal.τ).loc Cert.ReferenceIdeal.main_arg5) = m ((c.tc : Thread nD τ).loc main_arg5)) (h6 : m' ((c.tc : Thread Cert.ReferenceIdeal.nD Cert.ReferenceIdeal.τ).loc Cert.ReferenceIdeal.main_arg6) = m ((c.tc : Thread nD τ).loc main_arg6)) :
    W m (dats m) c main_v139 = Cert.ReferenceIdeal.HostRun.final m' c Cert.ReferenceIdeal.main_v147 := by
  have e0 : m' (c, Proc.devRef .tc Cert.ReferenceIdeal.main_arg0) = m (c, Proc.devRef .tc main_arg0) := h0
  have e5 : m' (c, Proc.devRef .tc Cert.ReferenceIdeal.main_arg5) = m (c, Proc.devRef .tc main_arg5) := h5
  have e6 : m' (c, Proc.devRef .tc Cert.ReferenceIdeal.main_arg6) = m (c, Proc.devRef .tc main_arg6) := h6
  unfold W Pipeline.afterTail₀
  read_both
  simp (disch := decide) only [withArrays_keep]
  dsimp only [V0]
  read_both
  simp only [e0, e5, e6]
  try rfl

set_option maxHeartbeats 4000000 in
/-- The weighted translation differences. -/
theorem res_tdiff (h0 : m' ((c.tc : Thread Cert.ReferenceIdeal.nD Cert.ReferenceIdeal.τ).loc Cert.ReferenceIdeal.main_arg0) = m ((c.tc : Thread nD τ).loc main_arg0)) (h5 : m' ((c.tc : Thread Cert.ReferenceIdeal.nD Cert.ReferenceIdeal.τ).loc Cert.ReferenceIdeal.main_arg5) = m ((c.tc : Thread nD τ).loc main_arg5)) (h6 : m' ((c.tc : Thread Cert.ReferenceIdeal.nD Cert.ReferenceIdeal.τ).loc Cert.ReferenceIdeal.main_arg6) = m ((c.tc : Thread nD τ).loc main_arg6)) :
    W m (dats m) c main_v93 = Cert.ReferenceIdeal.HostRun.final m' c Cert.ReferenceIdeal.main_v93 := by
  have e0 : m' (c, Proc.devRef .tc Cert.ReferenceIdeal.main_arg0) = m (c, Proc.devRef .tc main_arg0) := h0
  have e5 : m' (c, Proc.devRef .tc Cert.ReferenceIdeal.main_arg5) = m (c, Proc.devRef .tc main_arg5) := h5
  have e6 : m' (c, Proc.devRef .tc Cert.ReferenceIdeal.main_arg6) = m (c, Proc.devRef .tc main_arg6) := h6
  unfold W Pipeline.afterTail₀
  read_both
  simp (disch := decide) only [withArrays_keep]
  dsimp only [V0]
  read_both
  simp only [e0, e5, e6]
  try rfl

/-- The texture map is passed through: both programs leave the argument as launched. -/
theorem res_texture (h3 : m' ((c.tc : Thread Cert.ReferenceIdeal.nD Cert.ReferenceIdeal.τ).loc Cert.ReferenceIdeal.main_arg3) = m ((c.tc : Thread nD τ).loc main_arg3)) :
    W m (dats m) c main_arg3 = Cert.ReferenceIdeal.HostRun.final m' c Cert.ReferenceIdeal.main_arg3 :=
  (W_main_arg3 m (dats m) c).trans (h3.symm.trans (Cert.ReferenceIdeal.HostRun.final_main_arg3 m' c).symm)

set_option maxHeartbeats 4000000 in
/-- The normalised mesh. -/
theorem res_mesh (h2 : m' ((c.tc : Thread Cert.ReferenceIdeal.nD Cert.ReferenceIdeal.τ).loc Cert.ReferenceIdeal.main_arg2) = m ((c.tc : Thread nD τ).loc main_arg2)) (h4 : m' ((c.tc : Thread Cert.ReferenceIdeal.nD Cert.ReferenceIdeal.τ).loc Cert.ReferenceIdeal.main_arg4) = m ((c.tc : Thread nD τ).loc main_arg4)) :
    W m (dats m) c main_v132 = Cert.ReferenceIdeal.HostRun.final m' c Cert.ReferenceIdeal.main_v140 := by
  refine (W_main_v132 m c).trans ?_
  refine (Cert.MeshNorm.vertices_eq_term _ _ _ _ _ _).trans ?_
  refine (congrArg₂ Cert.MeshNorm.refMesh h2.symm h4.symm).trans ?_
  symm
  read_both
  rfl

end Cert.Results

end
-- ==== Proof.ResultsQuat.lean ====
/-
  The two results that pass through the quaternion table: the gathered quaternions and the weighted quaternion
  differences, kernel against reference. The table is a concatenation of four columns; its four pieces are read as plain
  arguments (`cat4`) so that each column's own operations are computed in turn.
-/
import proofs.«143814_j45870250721282_1_alg».proof.Proof.KernelIdealValue
import proofs.«143814_j45870250721282_1_alg».proof.Proof.ReferenceRun
import proofs.«143814_j45870250721282_1_alg».proof.Proof.MeshNormBridgeTerm
import proofs.«143814_j45870250721282_1_alg».proof.Proof.LibConcat

set_option maxRecDepth 16384

noncomputable section

namespace Cert.ResultsQuat

open Cert.KernelIdeal Cert.KernelIdeal.Gen Cert.KernelIdeal.Region Cert.KernelIdeal.Results
open Idealize.ShloMosaic Idealize.ShloMosaic.TcCoe
open Idealize.SL Idealize.SL.Sem
open Idealize.ShloMosaic.Pipeline (Dat Cfg Window)

variable (m : (ℓ : Loc nD τ sig) → Buf (Elt Ideal) ℓ)
  (m' : (ℓ : Loc Cert.ReferenceIdeal.nD Cert.ReferenceIdeal.τ Cert.ReferenceIdeal.sig) → Buf (Elt Ideal) ℓ) (c : Dev nD)

/-- The four-piece concatenation of `Cert.KernelIdeal`: its result is `cat4` of its four operands' contents. -/
theorem k59_result (hxs) (hy) (F : Valuation Cert.KernelIdeal.τ Cert.KernelIdeal.sig (Elt Ideal)) :
    (StableHlo.nary (τ := Cert.KernelIdeal.τ) ![Cert.KernelIdeal.main_v55, Cert.KernelIdeal.main_v56, Cert.KernelIdeal.main_v57, Cert.KernelIdeal.main_v58] Cert.KernelIdeal.main_v59
      (fun u => concatenate Cert.KernelIdeal.S240x4 1 [⟨Cert.KernelIdeal.S240x1, u 0⟩, ⟨Cert.KernelIdeal.S240x1, u 1⟩, ⟨Cert.KernelIdeal.S240x1, u 2⟩, ⟨Cert.KernelIdeal.S240x1, u 3⟩]
        Cert.KernelIdeal.Gen.concatenates_S240x1_S240x1_S240x1_S240x1_S240x4_d1) hxs hy).result F (no_index (Proc.devRef .tc Cert.KernelIdeal.main_v59))
    = Cert.LibConcat.cat4 Cert.KernelIdeal.S240x4 1 Cert.KernelIdeal.S240x1 Cert.KernelIdeal.S240x1 Cert.KernelIdeal.S240x1 Cert.KernelIdeal.S240x1
        Cert.KernelIdeal.Gen.concatenates_S240x1_S240x1_S240x1_S240x1_S240x4_d1
        (F (Proc.devRef .tc Cert.KernelIdeal.main_v55)) (F (Proc.devRef .tc Cert.KernelIdeal.main_v56)) (F (Proc.devRef .tc Cert.KernelIdeal.main_v57)) (F (Proc.devRef .tc Cert.KernelIdeal.main_v58)) := by
  rw [StableHlo.nary4_result]; rfl

/-- The four-piece concatenation of `Cert.ReferenceIdeal`: its result is `cat4` of its four operands' contents. -/
theorem r59_result (hxs) (hy) (F : Valuation Cert.ReferenceIdeal.τ Cert.ReferenceIdeal.sig (Elt Ideal)) :
    (StableHlo.nary (τ := Cert.ReferenceIdeal.τ) ![Cert.ReferenceIdeal.main_v55, Cert.ReferenceIdeal.main_v56, Cert.ReferenceIdeal.main_v57, Cert.ReferenceIdeal.main_v58] Cert.ReferenceIdeal.main_v59
      (fun u => concatenate Cert.ReferenceIdeal.S240x4 1 [⟨Cert.ReferenceIdeal.S240x1, u 0⟩, ⟨Cert.ReferenceIdeal.S240x1, u 1⟩, ⟨Cert.ReferenceIdeal.S240x1, u 2⟩, ⟨Cert.ReferenceIdeal.S240x1, u 3⟩]
        Cert.ReferenceIdeal.Gen.concatenates_S240x1_S240x1_S240x1_S240x1_S240x4_d1) hxs hy).result F (no_index (Proc.devRef .tc Cert.ReferenceIdeal.main_v59))
    = Cert.LibConcat.cat4 Cert.ReferenceIdeal.S240x4 1 Cert.ReferenceIdeal.S240x1 Cert.ReferenceIdeal.S240x1 Cert.ReferenceIdeal.S240x1 Cert.ReferenceIdeal.S240x1
        Cert.ReferenceIdeal.Gen.concatenates_S240x1_S240x1_S240x1_S240x1_S240x4_d1
        (F (Proc.devRef .tc Cert.ReferenceIdeal.main_v55)) (F (Proc.devRef .tc Cert.ReferenceIdeal.main_v56)) (F (Proc.devRef .tc Cert.ReferenceIdeal.main_v57)) (F (Proc.devRef .tc Cert.ReferenceIdeal.main_v58)) := by
  rw [StableHlo.nary4_result]; rfl

/-- One pass over both programs' host operations: each operation's result at its own buffer is its function of its
    operands' contents, and at any other buffer what was there. -/
local macro "read_both" : tactic => `(tactic| (
  simp (disch := decide) only [before, hostOps0, hostOps0_1, hostOps0_2, hostOps0_3, hostOps0_4, hostOps0_5, hostOps0_6, hostOps0_7, hostOps0_8, hostOps1,
      Cert.ReferenceIdeal.HostRun.final, Cert.ReferenceIdeal.HostRun.ops, StableHlo.launchContents,
      Cert.LibConcat.concatenate_two, Cert.LibConcat.concatenate_four,
      List.flatten_cons, List.flatten_nil, List.append_nil, List.cons_append, List.nil_append,
      StableHlo.TRef.nullary, StableHlo.TRef.unary, StableHlo.TRef.binary, StableHlo.TRef.ternary, StableHlo.TRef.of,
      StableHlo.after_cons, StableHlo.after_nil,
      StableHlo.nullary_result', StableHlo.unary_result', StableHlo.binary_result', StableHlo.ternary_result', StableHlo.quaternary_result',
      StableHlo.reshape_result', k59_result, r59_result,
      StableHlo.unaryIndexed_result', StableHlo.binaryIndexed_result',
      StableHlo.nullary_result_ne', StableHlo.unary_result_ne', StableHlo.binary_result_ne', StableHlo.ternary_result_ne', StableHlo.quaternary_result_ne',
      StableHlo.reshape_result_ne', StableHlo.nary_result_ne', StableHlo.unaryIndexed_result_ne', StableHlo.binaryIndexed_result_ne']))

set_option maxHeartbeats 4000000 in
/-- The gathered quaternions. -/
theorem res_quaternions (h1 : m' ((c.tc : Thread Cert.ReferenceIdeal.nD Cert.ReferenceIdeal.τ).loc Cert.ReferenceIdeal.main_arg1) = m ((c.tc : Thread nD τ).loc main_arg1)) (h5 : m' ((c.tc : Thread Cert.ReferenceIdeal.nD Cert.ReferenceIdeal.τ).loc Cert.ReferenceIdeal.main_arg5) = m ((c.tc : Thread nD τ).loc main_arg5)) (h6 : m' ((c.tc : Thread Cert.ReferenceIdeal.nD Cert.ReferenceIdeal.τ).loc Cert.ReferenceIdeal.main_arg6) = m ((c.tc : Thread nD τ).loc main_arg6)) :
    W m (dats m) c main_v147 = Cert.ReferenceIdeal.HostRun.final m' c Cert.ReferenceIdeal.main_v155 := by
  have e1 : m' (c, Proc.devRef .tc Cert.ReferenceIdeal.main_arg1) = m (c, Proc.devRef .tc main_arg1) := h1
  have e5 : m' (c, Proc.devRef .tc Cert.ReferenceIdeal.main_arg5) = m (c, Proc.devRef .tc main_arg5) := h5
  have e6 : m' (c, Proc.devRef .tc Cert.ReferenceIdeal.main_arg6) = m (c, Proc.devRef .tc main_arg6) := h6
  unfold W Pipeline.afterTail₀
  read_both
  simp (disch := decide) only [withArrays_keep]
  dsimp only [V0]
  read_both
  simp only [e1, e5, e6]
  try rfl

set_option maxHeartbeats 4000000 in
/-- The weighted quaternion differences. -/
theorem res_qdiff (h1 : m' ((c.tc : Thread Cert.ReferenceIdeal.nD Cert.ReferenceIdeal.τ).loc Cert.ReferenceIdeal.main_arg1) = m ((c.tc : Thread nD τ).loc main_arg1)) (h5 : m' ((c.tc : Thread Cert.ReferenceIdeal.nD Cert.ReferenceIdeal.τ).loc Cert.ReferenceIdeal.main_arg5) = m ((c.tc : Thread nD τ).loc main_arg5)) (h6 : m' ((c.tc : Thread Cert.ReferenceIdeal.nD Cert.ReferenceIdeal.τ).loc Cert.ReferenceIdeal.main_arg6) = m ((c.tc : Thread nD τ).loc main_arg6)) :
    W m (dats m) c main_v125 = Cert.ReferenceIdeal.HostRun.final m' c Cert.ReferenceIdeal.main_v125 := by
  have e1 : m' (c, Proc.devRef .tc Cert.ReferenceIdeal.main_arg1) = m (c, Proc.devRef .tc main_arg1) := h1
  have e5 : m' (c, Proc.devRef .tc Cert.ReferenceIdeal.main_arg5) = m (c, Proc.devRef .tc main_arg5) := h5
  have e6 : m' (c, Proc.devRef .tc Cert.ReferenceIdeal.main_arg6) = m (c, Proc.devRef .tc main_arg6) := h6
  unfold W Pipeline.afterTail₀
  read_both
  simp (disch := decide) only [withArrays_keep]
  dsimp only [V0]
  read_both
  simp only [e1, e5, e6]
  try rfl

end Cert.ResultsQuat

end
-- ==== Proof.Claims.lean ====
/-
  The five claims. The three frames: each kernel program's from its run around the region, the reference's from its run —
  no host operation writes an argument. Nothing was rewritten by the idealization, so `preserves` is trivial. `algebraic`:
  the witnesses are what the reference's buffers hold when its @main ends; the reference's run leaves exactly those, and the
  idealized kernel's run leaves, in each of its six result buffers, the same contents (Proof/Results.lean, Proof/ResultsQuat.lean), the two
  programs' arguments agreeing.
-/
import proofs.«143814_j45870250721282_1_alg».proof.Defs
import proofs.«143814_j45870250721282_1_alg».proof.Proof.Gen.Kernel
import proofs.«143814_j45870250721282_1_alg».proof.Proof.Gen.KernelIdeal
import proofs.«143814_j45870250721282_1_alg».proof.Proof.Gen.ReferenceIdeal
import proofs.«143814_j45870250721282_1_alg».proof.Proof.Gen.Pre_finite_inputs
import proofs.«143814_j45870250721282_1_alg».proof.Proof.KernelFrame
import proofs.«143814_j45870250721282_1_alg».proof.Proof.KernelIdealFrame
import proofs.«143814_j45870250721282_1_alg».proof.Proof.ReferenceRun
import proofs.«143814_j45870250721282_1_alg».proof.Proof.Results
import proofs.«143814_j45870250721282_1_alg».proof.Proof.ResultsQuat

set_option maxRecDepth 16384

noncomputable section

namespace Cert.Proof.Claims

open Idealize.ShloMosaic Idealize.ShloMosaic.TcCoe Idealize.SL.Sem

theorem frame_k : Cert.frame_Kernel := fun m ρ _ => Cert.Kernel.Region.frame m ρ

theorem frame_ki : Cert.frame_KernelIdeal := fun m ρ _ => Cert.KernelIdeal.Region.frame m ρ

theorem frame_ri : Cert.frame_ReferenceIdeal := fun m ρ _ =>
  (θ_run Cert.ReferenceIdeal.defs _ _).mono (fun _ h c =>
   ⟨((h c Cert.ReferenceIdeal.main_arg0).trans (Cert.ReferenceIdeal.HostRun.final_main_arg0 m c)),
    ((h c Cert.ReferenceIdeal.main_arg1).trans (Cert.ReferenceIdeal.HostRun.final_main_arg1 m c)),
    ((h c Cert.ReferenceIdeal.main_arg2).trans (Cert.ReferenceIdeal.HostRun.final_main_arg2 m c)),
    ((h c Cert.ReferenceIdeal.main_arg3).trans (Cert.ReferenceIdeal.HostRun.final_main_arg3 m c)),
    ((h c Cert.ReferenceIdeal.main_arg4).trans (Cert.ReferenceIdeal.HostRun.final_main_arg4 m c)),
    ((h c Cert.ReferenceIdeal.main_arg5).trans (Cert.ReferenceIdeal.HostRun.final_main_arg5 m c)),
    ((h c Cert.ReferenceIdeal.main_arg6).trans (Cert.ReferenceIdeal.HostRun.final_main_arg6 m c))⟩)
    (Cert.ReferenceIdeal.HostRun.run (F := Ideal) m ρ)

theorem preserves : Cert.preserves_Kernel_KernelIdeal := trivial

open Cert.KernelIdeal Cert.KernelIdeal.Gen Cert.KernelIdeal.Region Cert.Results Cert.ResultsQuat in
theorem algebraic : Cert.algebraic_KernelIdeal_ReferenceIdeal := by
  intro m ρ m' ρ' _ hagree
  refine ⟨fun c => Cert.ReferenceIdeal.HostRun.final m' c Cert.ReferenceIdeal.main_v147, fun c => Cert.ReferenceIdeal.HostRun.final m' c Cert.ReferenceIdeal.main_v155,
    fun c => Cert.ReferenceIdeal.HostRun.final m' c Cert.ReferenceIdeal.main_v140, fun c => Cert.ReferenceIdeal.HostRun.final m' c Cert.ReferenceIdeal.main_arg3,
    fun c => Cert.ReferenceIdeal.HostRun.final m' c Cert.ReferenceIdeal.main_v93, fun c => Cert.ReferenceIdeal.HostRun.final m' c Cert.ReferenceIdeal.main_v125, ?_, ?_⟩
  · refine (θ_run Cert.KernelIdeal.defs _ _).mono (fun r h c => ?_) (Cert.KernelIdeal.Region.run_main m ρ)
    obtain ⟨h0, h1, h2, h3, h4, h5, h6⟩ := hagree c
    have hr := (h c).2
    exact ⟨(hr main_v139 (Pipeline.mem_restRefs_of main_v139 (by decide) (by decide))).trans (res_translations m m' c h0 h5 h6),
      (hr main_v147 (Pipeline.mem_restRefs_of main_v147 (by decide) (by decide))).trans (res_quaternions m m' c h1 h5 h6),
      (hr main_v132 (Pipeline.mem_restRefs_of main_v132 (by decide) (by decide))).trans (res_mesh m m' c h2 h4),
      (hr main_arg3 (Pipeline.mem_restRefs_of main_arg3 (by decide) (by decide))).trans (res_texture m m' c h3),
      (hr main_v93 (Pipeline.mem_restRefs_of main_v93 (by decide) (by decide))).trans (res_tdiff m m' c h0 h5 h6),
      (hr main_v125 (Pipeline.mem_restRefs_of main_v125 (by decide) (by decide))).trans (res_qdiff m m' c h1 h5 h6),
      ((hr main_arg0 (Pipeline.mem_restRefs_of main_arg0 (by decide) (by decide))).trans (W_main_arg0 m (dats m) c)),
      ((hr main_arg1 (Pipeline.mem_restRefs_of main_arg1 (by decide) (by decide))).trans (W_main_arg1 m (dats m) c)),
      ((hr main_arg2 (Pipeline.mem_restRefs_of main_arg2 (by decide) (by decide))).trans (W_main_arg2 m (dats m) c)),
      ((hr main_arg3 (Pipeline.mem_restRefs_of main_arg3 (by decide) (by decide))).trans (W_main_arg3 m (dats m) c)),
      ((hr main_arg4 (Pipeline.mem_restRefs_of main_arg4 (by decide) (by decide))).trans (W_main_arg4 m (dats m) c)),
      ((hr main_arg5 (Pipeline.mem_restRefs_of main_arg5 (by decide) (by decide))).trans (W_main_arg5 m (dats m) c)),
      ((hr main_arg6 (Pipeline.mem_restRefs_of main_arg6 (by decide) (by decide))).trans (W_main_arg6 m (dats m) c))⟩
  · exact (θ_run Cert.ReferenceIdeal.defs _ _).mono (fun _ h c =>
     ⟨h c _, h c _, h c _, h c _, h c _, h c _,
      ((h c Cert.ReferenceIdeal.main_arg0).trans (Cert.ReferenceIdeal.HostRun.final_main_arg0 m' c)),
      ((h c Cert.ReferenceIdeal.main_arg1).trans (Cert.ReferenceIdeal.HostRun.final_main_arg1 m' c)),
      ((h c Cert.ReferenceIdeal.main_arg2).trans (Cert.ReferenceIdeal.HostRun.final_main_arg2 m' c)),
      ((h c Cert.ReferenceIdeal.main_arg3).trans (Cert.ReferenceIdeal.HostRun.final_main_arg3 m' c)),
      ((h c Cert.ReferenceIdeal.main_arg4).trans (Cert.ReferenceIdeal.HostRun.final_main_arg4 m' c)),
      ((h c Cert.ReferenceIdeal.main_arg5).trans (Cert.ReferenceIdeal.HostRun.final_main_arg5 m' c)),
      ((h c Cert.ReferenceIdeal.main_arg6).trans (Cert.ReferenceIdeal.HostRun.final_main_arg6 m' c))⟩)
      (Cert.ReferenceIdeal.HostRun.run (F := Ideal) m' ρ')

end Cert.Proof.Claims

end
-- ==== Proof.lean ====
/-
  The certificate of `Cert.Claim`: a Pallas kernel that normalises a mesh of 100000 vertices — centre each of the three
  coordinates at the midpoint of its range, then divide by the largest centred entry — inside a jax function that also
  normalises quaternions, composes them with offsets, gathers frames and weights frame-to-frame differences, against the
  same function written in plain jax.

  The kernel's @main is host operations, one region over a grid of one point whose blocks are the whole transposed
  `[3, 100000]` arrays, and host operations again; its frames are in Proof/KernelFrame.lean and Proof/KernelIdealFrame.lean
  (one text, two programs), the reference's run in Proof/ReferenceRun.lean. The idealization rewrote nothing. At the ideal
  values five of the six results are the same host operations of the same arguments in both programs, and the normalised
  meshes agree because a product with 1/2 is a quotient by 2 on every extended real and the maximum over the three rows of
  the rows' maxima is the maximum over all entries (Proof/MeshNormBridgeTerm.lean); no finiteness is used.
  The claims are in Proof/Claims.lean; here they stand behind the witnesses of the programs' stated facts.
-/
import proofs.«143814_j45870250721282_1_alg».proof.Defs
import proofs.«143814_j45870250721282_1_alg».proof.Proof.Gen.Kernel
import proofs.«143814_j45870250721282_1_alg».proof.Proof.Gen.KernelIdeal
import proofs.«143814_j45870250721282_1_alg».proof.Proof.Gen.ReferenceIdeal
import proofs.«143814_j45870250721282_1_alg».proof.Proof.Gen.Pre_finite_inputs
import proofs.«143814_j45870250721282_1_alg».proof.Proof.Claims

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
